-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S8192x128 : Shape := ⟨2, ![8192, 128]⟩
abbrev S_ : Shape := ⟨0, ![]⟩
abbrev S8192 : Shape := ⟨1, ![8192]⟩
abbrev S1x1 : Shape := ⟨2, ![1, 1]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S128x512 : Shape := ⟨2, ![128, 512]⟩
abbrev S512x512 : Shape := ⟨2, ![512, 512]⟩
abbrev S1 : Shape := ⟨1, ![1]⟩

abbrev nBuf : Space → Nat
  | .hbm => 46
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x1, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_cst_6 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v67 : BitVec 1 := Scalar.cmpi .eq arg0 c15_i32
  let arg1 : BitVec 32 := BitVec.ofNat 32 (i 1).val
  let c15_i32_27 : BitVec 32 := 15#32
  let v68 : BitVec 1 := Scalar.cmpi .eq arg1 c15_i32_27
  let v69 : BitVec 1 := Scalar.andi v67 v68
  let v70 : BitVec 32 := Scalar.extui v69
  let c0_i32_28 : BitVec 32 := 0#32
  let v71 : BitVec 1 := Scalar.cmpi .ne v70 c0_i32_28
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![16, 16], ![false, false]⟩

def k1_cond2 (i : grid1.Coords) : BitVec 1 :=
  let arg0 : BitVec 32 := BitVec.ofNat 32 (i 0).val
  let c15_i32 : BitVec 32 := 15#32
  let v67 : BitVec 1 := Scalar.cmpi .eq arg0 c15_i32
  let arg1 : BitVec 32 := BitVec.ofNat 32 (i 1).val
  let c15_i32_27 : BitVec 32 := 15#32
  let v68 : BitVec 1 := Scalar.cmpi .eq arg1 c15_i32_27
  let v69 : BitVec 1 := Scalar.andi v67 v68
  let v70 : BitVec 32 := Scalar.extui v69
  let c0_i32_28 : BitVec 32 := 0#32
  let v71 : BitVec 1 := Scalar.cmpi .ne v70 c0_i32_28
  v71

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

class Facts₀ : Prop where
  slices_S16384x128_S8192x128_0_0 : S16384x128.Slices ![0, 0] S8192x128
  slices_S16384x128_S8192x128_8192_0 : S16384x128.Slices ![8192, 0] S8192x128
  reducesTo_S8192x128_S8192_d1 : S8192x128.ReducesTo [1] S8192
  h_S_ : 0 < S_.numel
  bcast_S_S8192 : S_.BroadcastsInDim S8192 (![] : Fin 0 → Fin S8192.rank)
  reducesTo_S8192_S_d0 : S8192.ReducesTo [0] S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x128_p1_0_S128x512 : S512x128.Transposes [1, 0] S128x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .f32 = 32 ∨ (Rect.block (s := S8192x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩
abbrev S128x8192 : Shape := ⟨2, ![128, 8192]⟩

abbrev nBuf : Space → Nat
  | .hbm => 132
  | .vmem => 0
  | .smem => 0
  | _ => 0

abbrev hbmTy0_0 (i : Nat) : BufTy := match i % 128 with
  | 0 => ⟨S16384x128, .f32⟩
  | 1 => ⟨S8192x128, .f32⟩
  | 2 => ⟨S8192x128, .f32⟩
  | 3 => ⟨S8192x128, .f32⟩
  | 4 => ⟨S8192x128, .f32⟩
  | 5 => ⟨S_, .f32⟩
  | 6 => ⟨S8192, .f32⟩
  | 7 => ⟨S_, .f32⟩
  | 8 => ⟨S8192, .f32⟩
  | 9 => ⟨S8192, .f32⟩
  | 10 => ⟨S_, .f32⟩
  | 11 => ⟨S8192, .f32⟩
  | 12 => ⟨S8192, .f32⟩
  | 13 => ⟨S_, .f32⟩
  | 14 => ⟨S8192, .f32⟩
  | 15 => ⟨S8192, .f32⟩
  | 16 => ⟨S_, .f32⟩
  | 17 => ⟨S8192, .f32⟩
  | 18 => ⟨S8192, .f32⟩
  | 19 => ⟨S8192, .f32⟩
  | 20 => ⟨S_, .f32⟩
  | 21 => ⟨S8192, .f32⟩
  | 22 => ⟨S8192, .f32⟩
  | 23 => ⟨S8192, .f32⟩
  | 24 => ⟨S_, .f32⟩
  | 25 => ⟨S_, .f32⟩
  | 26 => ⟨S_, .f32⟩
  | 27 => ⟨S_, .f32⟩
  | 28 => ⟨S8192x8192, .i32⟩
  | 29 => ⟨S8192x8192, .i32⟩
  | 30 => ⟨S_, .i32⟩
  | 31 => ⟨S8192x8192, .i32⟩
  | 32 => ⟨S8192x8192, .i32⟩
  | 33 => ⟨S8192x8192, .i1⟩
  | 34 => ⟨S8192x128, .f32⟩
  | 35 => ⟨S_, .f32⟩
  | 36 => ⟨S8192, .f32⟩
  | 37 => ⟨S8192x128, .f32⟩
  | 38 => ⟨S_, .f32⟩
  | 39 => ⟨S8192, .f32⟩
  | 40 => ⟨S8192x1, .f32⟩
  | 41 => ⟨S1x8192, .f32⟩
  | 42 => ⟨S8192x8192, .f32⟩
  | 43 => ⟨S8192x8192, .f32⟩
  | 44 => ⟨S8192x8192, .f32⟩
  | 45 => ⟨S128x8192, .f32⟩
  | 46 => ⟨S8192x8192, .f32⟩
  | 47 => ⟨S_, .f32⟩
  | 48 => ⟨S8192x8192, .f32⟩
  | 49 => ⟨S8192x8192, .f32⟩
  | 50 => ⟨S8192x8192, .f32⟩
  | 51 => ⟨S_, .f32⟩
  | 52 => ⟨S8192x8192, .f32⟩
  | 53 => ⟨S8192x8192, .f32⟩
  | 54 => ⟨S_, .f32⟩
  | 55 => ⟨S8192x8192, .f32⟩
  | 56 => ⟨S8192x8192, .f32⟩
  | 57 => ⟨S_, .f32⟩
  | 58 => ⟨S8192x8192, .f32⟩
  | 59 => ⟨S8192x8192, .f32⟩
  | 60 => ⟨S_, .f32⟩
  | 61 => ⟨S8192x8192, .f32⟩
  | 62 => ⟨S8192x8192, .f32⟩
  | 63 => ⟨S_, .f32⟩
  | 64 => ⟨S_, .f32⟩
  | 65 => ⟨S8192x8192, .f32⟩
  | 66 => ⟨S8192x8192, .f32⟩
  | 67 => ⟨S_, .f32⟩
  | 68 => ⟨S8192x8192, .f32⟩
  | 69 => ⟨S8192x8192, .f32⟩
  | 70 => ⟨S8192x8192, .f32⟩
  | 71 => ⟨S8192x8192, .f32⟩
  | 72 => ⟨S_, .f32⟩
  | 73 => ⟨S8192, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8192x128, .f32⟩
  | 81 => ⟨S_, .f32⟩
  | 82 => ⟨S8192, .f32⟩
  | 83 => ⟨S8192x128, .f32⟩
  | 84 => ⟨S_, .f32⟩
  | 85 => ⟨S8192, .f32⟩
  | 86 => ⟨S8192x1, .f32⟩
  | 87 => ⟨S1x8192, .f32⟩
  | 88 => ⟨S8192x8192, .f32⟩
  | 89 => ⟨S8192x8192, .f32⟩
  | 90 => ⟨S8192x8192, .f32⟩
  | 91 => ⟨S128x8192, .f32⟩
  | 92 => ⟨S8192x8192, .f32⟩
  | 93 => ⟨S_, .f32⟩
  | 94 => ⟨S8192x8192, .f32⟩
  | 95 => ⟨S8192x8192, .f32⟩
  | 96 => ⟨S8192x8192, .f32⟩
  | 97 => ⟨S_, .f32⟩
  | 98 => ⟨S8192x8192, .f32⟩
  | 99 => ⟨S8192x8192, .f32⟩
  | 100 => ⟨S_, .f32⟩
  | 101 => ⟨S8192x8192, .f32⟩
  | 102 => ⟨S8192x8192, .f32⟩
  | 103 => ⟨S_, .f32⟩
  | 104 => ⟨S8192x8192, .f32⟩
  | 105 => ⟨S8192x8192, .f32⟩
  | 106 => ⟨S_, .f32⟩
  | 107 => ⟨S8192x8192, .f32⟩
  | 108 => ⟨S8192x8192, .f32⟩
  | 109 => ⟨S_, .f32⟩
  | 110 => ⟨S_, .f32⟩
  | 111 => ⟨S8192x8192, .f32⟩
  | 112 => ⟨S8192x8192, .f32⟩
  | 113 => ⟨S_, .f32⟩
  | 114 => ⟨S8192x8192, .f32⟩
  | 115 => ⟨S8192x8192, .f32⟩
  | 116 => ⟨S8192x8192, .f32⟩
  | 117 => ⟨S8192x8192, .f32⟩
  | 118 => ⟨S_, .f32⟩
  | 119 => ⟨S8192, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16384x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_cst_6 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_cst_13 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_call0_v0 : Ref sig .tc := ⟨.hbm, 64, rfl⟩
abbrev main_call0_v1 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_16 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_cst_18 : Ref sig .tc := ⟨.hbm, 76, rfl⟩
abbrev main_v53 : Ref sig .tc := ⟨.hbm, 77, rfl⟩
abbrev main_cst_19 : Ref sig .tc := ⟨.hbm, 78, rfl⟩
abbrev main_v54 : Ref sig .tc := ⟨.hbm, 79, rfl⟩
abbrev main_v55 : Ref sig .tc := ⟨.hbm, 80, rfl⟩
abbrev main_cst_20 : Ref sig .tc := ⟨.hbm, 81, rfl⟩
abbrev main_v56 : Ref sig .tc := ⟨.hbm, 82, rfl⟩
abbrev main_v57 : Ref sig .tc := ⟨.hbm, 83, rfl⟩
abbrev main_cst_21 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_22 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_23 : Ref sig .tc := ⟨.hbm, 97, rfl⟩
abbrev main_v69 : Ref sig .tc := ⟨.hbm, 98, rfl⟩
abbrev main_v70 : Ref sig .tc := ⟨.hbm, 99, rfl⟩
abbrev main_cst_24 : Ref sig .tc := ⟨.hbm, 100, rfl⟩
abbrev main_v71 : Ref sig .tc := ⟨.hbm, 101, rfl⟩
abbrev main_v72 : Ref sig .tc := ⟨.hbm, 102, rfl⟩
abbrev main_cst_25 : Ref sig .tc := ⟨.hbm, 103, rfl⟩
abbrev main_v73 : Ref sig .tc := ⟨.hbm, 104, rfl⟩
abbrev main_v74 : Ref sig .tc := ⟨.hbm, 105, rfl⟩
abbrev main_cst_26 : Ref sig .tc := ⟨.hbm, 106, rfl⟩
abbrev main_v75 : Ref sig .tc := ⟨.hbm, 107, rfl⟩
abbrev main_v76 : Ref sig .tc := ⟨.hbm, 108, rfl⟩
abbrev main_cst_27 : Ref sig .tc := ⟨.hbm, 109, rfl⟩
abbrev main_call1_v0 : Ref sig .tc := ⟨.hbm, 110, rfl⟩
abbrev main_call1_v1 : Ref sig .tc := ⟨.hbm, 111, rfl⟩
abbrev main_v77 : Ref sig .tc := ⟨.hbm, 112, rfl⟩
abbrev main_cst_28 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_29 : Ref sig .tc := ⟨.hbm, 118, rfl⟩
abbrev main_v82 : Ref sig .tc := ⟨.hbm, 119, rfl⟩
abbrev main_cst_30 : Ref sig .tc := ⟨.hbm, 120, rfl⟩
abbrev main_v83 : Ref sig .tc := ⟨.hbm, 121, rfl⟩
abbrev main_cst_31 : Ref sig .tc := ⟨.hbm, 122, rfl⟩
abbrev main_v84 : Ref sig .tc := ⟨.hbm, 123, rfl⟩
abbrev main_cst_32 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_33 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩

abbrev nD : Nat := 1
abbrev τ : Topo := Topo.v7x

variable {F : FTy → Type} [FloatOps F]

class Facts₀ : Prop where
  slices_S16384x128_S8192x128_0_0 : S16384x128.Slices ![0, 0] S8192x128
  slices_S16384x128_S8192x128_8192_0 : S16384x128.Slices ![8192, 0] S8192x128
  reducesTo_S8192x128_S8192_d1 : S8192x128.ReducesTo [1] S8192
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  reducesTo_S8192x8192_S8192_d1 : S8192x8192.ReducesTo [1] S8192
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBShared.lean ====
/-
  What the body runs of the two similarity-statistics kernels share: the two branch conditions of the body
  (the accumulators are reset at the first grid point only, the outputs written at the last grid point only)
  decided over the 16 × 16 grid, and the staging and scratch memrefs the body is called with at a point.
-/
import proofs.«168013_j80238579024621_1_alg».proof.Proof.Gen.Kernel.Launch
import proofs.«168013_j80238579024621_1_alg».proof.Proof.Gen.Kernel.Skeleton
import proofs.«168013_j80238579024621_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## pallas_call 0 -/

/-- The body resets its two accumulators when both grid coordinates are zero. -/
abbrev condR0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first grid point only. -/
theorem hcondR0 : ∀ t : Fin cfg0.N, condR0 (grid0.coords t) ↔ t.val = 0 :=
  (by decide +kernel : ∀ t : Fin grid0.N, condR0 (grid0.coords t) ↔ t.val = 0)

/-- The body writes its two outputs when both grid coordinates are 15. -/
abbrev condW0 (i : grid0.Coords) : Prop := k0_cond2 i = 1#1
/-- That is the last grid point only. -/
theorem hcondW0 : ∀ t : Fin cfg0.N, condW0 (grid0.coords t) ↔ t.val = 255 :=
  (by decide +kernel : ∀ t : Fin grid0.N, condW0 (grid0.coords t) ↔ t.val = 255)

/-- The grid is walked row-major: point t is tile (t / 16, t % 16). -/
theorem coords0_0 : ∀ t : Fin cfg0.N, (grid0.coords t 0).val = t.val / 16 :=
  (by decide +kernel : ∀ t : Fin grid0.N, (grid0.coords t 0).val = t.val / 16)
theorem coords0_1 : ∀ t : Fin cfg0.N, (grid0.coords t 1).val = t.val % 16 :=
  (by decide +kernel : ∀ t : Fin grid0.N, (grid0.coords t 1).val = t.val % 16)

/-- Each window's current staging memref at point t, as the pipeline passes it, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The two running sums: whole scoped buffers of the kernel's own, carried from point to point. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view
/-- One staging buffer of each output window, through which its contents are stated. -/
abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view

/-! ## pallas_call 1 -/

/-- The body resets its two accumulators when both grid coordinates are zero. -/
abbrev condR1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first grid point only. -/
theorem hcondR1 : ∀ t : Fin cfg1.N, condR1 (grid1.coords t) ↔ t.val = 0 :=
  (by decide +kernel : ∀ t : Fin grid1.N, condR1 (grid1.coords t) ↔ t.val = 0)

/-- The body writes its two outputs when both grid coordinates are 15. -/
abbrev condW1 (i : grid1.Coords) : Prop := k1_cond2 i = 1#1
/-- That is the last grid point only. -/
theorem hcondW1 : ∀ t : Fin cfg1.N, condW1 (grid1.coords t) ↔ t.val = 255 :=
  (by decide +kernel : ∀ t : Fin grid1.N, condW1 (grid1.coords t) ↔ t.val = 255)

/-- The grid is walked row-major: point t is tile (t / 16, t % 16). -/
theorem coords1_0 : ∀ t : Fin cfg1.N, (grid1.coords t 0).val = t.val / 16 :=
  (by decide +kernel : ∀ t : Fin grid1.N, (grid1.coords t 0).val = t.val / 16)
theorem coords1_1 : ∀ t : Fin cfg1.N, (grid1.coords t 1).val = t.val % 16 :=
  (by decide +kernel : ∀ t : Fin grid1.N, (grid1.coords t 1).val = t.val % 16)

/-- Each window's current staging memref at point t, as the pipeline passes it, and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The two running sums: whole scoped buffers of the kernel's own, carried from point to point. -/
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view
/-- One staging buffer of each output window, through which its contents are stated. -/
abbrev VO1_2 : View sig .tc .vmem S1x1 .f32 := (Memref.whole cc1_stg2_0 : Memref sig .tc .vmem S1x1 .f32).view
abbrev VO1_3 : View sig .tc .vmem S1x1 .f32 := (Memref.whole cc1_stg3_0 : Memref sig .tc .vmem S1x1 .f32).view

end Cert.Kernel.Hand

end
-- ==== Proof.KBRun0A.lean ====
/-
  The body of similarity-statistics kernel 0 run at the first grid point (the running sums reset, the outputs untouched): on whole staging memrefs holding the two row
  blocks, the body ends with each running sum's buffer overwritten by the pieces the run finds.
-/
import proofs.«168013_j80238579024621_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i)
    (x0 x1 : Vec F S512x128 .f32) :
    Σ' (LS0 : List (View.Piece (Elt F) S1x1 .f32)), { LS1 : List (View.Piece (Elt F) S1x1 .f32) //
      ∀ (xi2 xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__negstats_kernel i arg2 harg2 arg3 harg3 arg4 harg4 arg5 harg5 arg6 harg6 arg7 harg7) K } := by
  refine ⟨?_, ?_, fun xi2 xi3 E K => ?run⟩
  case run =>
    simp only [cc0__negstats_kernel_eq_skeleton]; unfold cc0__negstats_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KBRun0B.lean ====
/-
  The body of similarity-statistics kernel 0 run at a middle grid point (the running sums carried, the outputs untouched): on whole staging memrefs holding the two row
  blocks, the body ends with each running sum's buffer overwritten by the pieces the run finds.
-/
import proofs.«168013_j80238579024621_1_alg».proof.Proof.KBRun0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i)
    (x0 x1 : Vec F S512x128 .f32) (xs0 xs1 : Vec F S1x1 .f32) :
    Σ' (LS0 : List (View.Piece (Elt F) S1x1 .f32)), { LS1 : List (View.Piece (Elt F) S1x1 .f32) //
      ∀ (xi2 xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__negstats_kernel i arg2 harg2 arg3 harg3 arg4 harg4 arg5 harg5 arg6 harg6 arg7 harg7) K } := by
  refine ⟨?_, ?_, fun xi2 xi3 E K => ?run⟩
  case run =>
    simp only [cc0__negstats_kernel_eq_skeleton]; unfold cc0__negstats_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KBRun0C.lean ====
/-
  The body of similarity-statistics kernel 0 run at the last grid point (the running sums carried, then copied to the outputs): on whole staging memrefs holding the two row
  blocks, the body ends with each running sum's buffer overwritten by the pieces the run finds.
-/
import proofs.«168013_j80238579024621_1_alg».proof.Proof.KBRun0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i)
    (x0 x1 : Vec F S512x128 .f32) (xs0 xs1 : Vec F S1x1 .f32) :
    Σ' (L2 : List (View.Piece (Elt F) S1x1 .f32)) (L3 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__negstats_kernel i arg2 harg2 arg3 harg3 arg4 harg4 arg5 harg5 arg6 harg6 arg7 harg7) K } := by
  refine ⟨?_, ?_, ?_, ?_, fun E K => ?run⟩
  case run =>
    simp only [cc0__negstats_kernel_eq_skeleton]; unfold cc0__negstats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.KBRun1A.lean ====
/-
  The body of similarity-statistics kernel 1 run at the first grid point (the running sums reset, the outputs untouched): on whole staging memrefs holding the two row
  blocks, the body ends with each running sum's buffer overwritten by the pieces the run finds.
-/
import proofs.«168013_j80238579024621_1_alg».proof.Proof.KBRun0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i)
    (x0 x1 : Vec F S512x128 .f32) :
    Σ' (LS0 : List (View.Piece (Elt F) S1x1 .f32)), { LS1 : List (View.Piece (Elt F) S1x1 .f32) //
      ∀ (xi2 xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__negstats_kernel i arg2 harg2 arg3 harg3 arg4 harg4 arg5 harg5 arg6 harg6 arg7 harg7) K } := by
  refine ⟨?_, ?_, fun xi2 xi3 E K => ?run⟩
  case run =>
    simp only [cc1__negstats_kernel_eq_skeleton]; unfold cc1__negstats_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KBRun1B.lean ====
/-
  The body of similarity-statistics kernel 1 run at a middle grid point (the running sums carried, the outputs untouched): on whole staging memrefs holding the two row
  blocks, the body ends with each running sum's buffer overwritten by the pieces the run finds.
-/
import proofs.«168013_j80238579024621_1_alg».proof.Proof.KBRun1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i)
    (x0 x1 : Vec F S512x128 .f32) (xs0 xs1 : Vec F S1x1 .f32) :
    Σ' (LS0 : List (View.Piece (Elt F) S1x1 .f32)), { LS1 : List (View.Piece (Elt F) S1x1 .f32) //
      ∀ (xi2 xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__negstats_kernel i arg2 harg2 arg3 harg3 arg4 harg4 arg5 harg5 arg6 harg6 arg7 harg7) K } := by
  refine ⟨?_, ?_, fun xi2 xi3 E K => ?run⟩
  case run =>
    simp only [cc1__negstats_kernel_eq_skeleton]; unfold cc1__negstats_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KBRun1C.lean ====
/-
  The body of similarity-statistics kernel 1 run at the last grid point (the running sums carried, then copied to the outputs): on whole staging memrefs holding the two row
  blocks, the body ends with each running sum's buffer overwritten by the pieces the run finds.
-/
import proofs.«168013_j80238579024621_1_alg».proof.Proof.KBRun1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i)
    (x0 x1 : Vec F S512x128 .f32) (xs0 xs1 : Vec F S1x1 .f32) :
    Σ' (L2 : List (View.Piece (Elt F) S1x1 .f32)) (L3 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__negstats_kernel i arg2 harg2 arg3 harg3 arg4 harg4 arg5 harg5 arg6 harg6 arg7 harg7) K } := by
  refine ⟨?_, ?_, ?_, ?_, fun E K => ?run⟩
  case run =>
    simp only [cc1__negstats_kernel_eq_skeleton]; unfold cc1__negstats_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.KBFrame.lean ====
/-
  The two similarity-statistics kernels, each at the buffer contents V it is entered from: what a grid point leaves
  in the running sums and the outputs (the pieces the body's runs find), the accumulation point by point, the
  pipeline's proof data — the two input windows read ONE array, half of its share each — and the body obligation.
-/
import proofs.«168013_j80238579024621_1_alg».proof.Proof.KBRun1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # pallas_call 0, entered at buffer contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The input windows are live at every point; the output windows are idle (neither stored into nor written back)
    except at the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬condW0 (grid0.coords t) → cfg0.idle 2 (grid0.coords t) = true := by decide +kernel
theorem idleAt0_3 : ∀ t : Fin cfg0.N, ¬condW0 (grid0.coords t) → cfg0.idle 3 (grid0.coords t) = true := by decide +kernel
theorem noFlush0_2 : ∀ t : Fin cfg0.N, ¬condW0 (grid0.coords t) → (cfg0.win 2).flush t = false := by decide +kernel
theorem noFlush0_3 : ∀ t : Fin cfg0.N, ¬condW0 (grid0.coords t) → (cfg0.win 3).flush t = false := by decide +kernel
theorem liveAt0_2 : ∀ t : Fin cfg0.N, condW0 (grid0.coords t) → cfg0.idle 2 (grid0.coords t) = false := by decide +kernel
theorem liveAt0_3 : ∀ t : Fin cfg0.N, condW0 (grid0.coords t) → cfg0.idle 3 (grid0.coords t) = false := by decide +kernel

/-- What the run at a point of this kind leaves in running sum 0: its pieces read back. -/
def sout0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) : Vec F S1x1 .f32 :=
  VS0_0.read (Elt F) (VS0_0.writes (Elt F) VS0_0.junk (run0_A c i arg2 harg2 arg3 harg3 arg4 harg4 arg5 harg5 arg6 harg6 arg7 harg7 hc0 hc1 x0 x1).1)
/-- Those pieces cover the one-element buffer. -/
theorem scover0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) (y : S1x1.Idx) :
    ∃ pc ∈ (run0_A c i arg2 harg2 arg3 harg3 arg4 harg4 arg5 harg5 arg6 harg6 arg7 harg7 hc0 hc1 x0 x1).1, y ∈ pc.1.set :=
  View.cover_of_tiledL ((run0_A c i arg2 harg2 arg3 harg3 arg4 harg4 arg5 harg5 arg6 harg6 arg7 harg7 hc0 hc1 x0 x1).1) S1x1.size (by sl_kernel_rfl) y

/-- What the run at a point of this kind leaves in running sum 1: its pieces read back. -/
def sout0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) : Vec F S1x1 .f32 :=
  VS0_1.read (Elt F) (VS0_1.writes (Elt F) VS0_1.junk (run0_A c i arg2 harg2 arg3 harg3 arg4 harg4 arg5 harg5 arg6 harg6 arg7 harg7 hc0 hc1 x0 x1).2.1)
/-- Those pieces cover the one-element buffer. -/
theorem scover0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) (y : S1x1.Idx) :
    ∃ pc ∈ (run0_A c i arg2 harg2 arg3 harg3 arg4 harg4 arg5 harg5 arg6 harg6 arg7 harg7 hc0 hc1 x0 x1).2.1, y ∈ pc.1.set :=
  View.cover_of_tiledL ((run0_A c i arg2 harg2 arg3 harg3 arg4 harg4 arg5 harg5 arg6 harg6 arg7 harg7 hc0 hc1 x0 x1).2.1) S1x1.size (by sl_kernel_rfl) y

/-- What the run at a point of this kind leaves in running sum 0: its pieces read back. -/
def sout0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) : Vec F S1x1 .f32 :=
  VS0_0.read (Elt F) (VS0_0.writes (Elt F) VS0_0.junk (run0_B c i arg2 harg2 arg3 harg3 arg4 harg4 arg5 harg5 arg6 harg6 arg7 harg7 hc0 hc1 x0 x1 xs0 xs1).1)
/-- Those pieces cover the one-element buffer. -/
theorem scover0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) (y : S1x1.Idx) :
    ∃ pc ∈ (run0_B c i arg2 harg2 arg3 harg3 arg4 harg4 arg5 harg5 arg6 harg6 arg7 harg7 hc0 hc1 x0 x1 xs0 xs1).1, y ∈ pc.1.set :=
  View.cover_of_tiledL ((run0_B c i arg2 harg2 arg3 harg3 arg4 harg4 arg5 harg5 arg6 harg6 arg7 harg7 hc0 hc1 x0 x1 xs0 xs1).1) S1x1.size (by sl_kernel_rfl) y

/-- What the run at a point of this kind leaves in running sum 1: its pieces read back. -/
def sout0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) : Vec F S1x1 .f32 :=
  VS0_1.read (Elt F) (VS0_1.writes (Elt F) VS0_1.junk (run0_B c i arg2 harg2 arg3 harg3 arg4 harg4 arg5 harg5 arg6 harg6 arg7 harg7 hc0 hc1 x0 x1 xs0 xs1).2.1)
/-- Those pieces cover the one-element buffer. -/
theorem scover0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) (y : S1x1.Idx) :
    ∃ pc ∈ (run0_B c i arg2 harg2 arg3 harg3 arg4 harg4 arg5 harg5 arg6 harg6 arg7 harg7 hc0 hc1 x0 x1 xs0 xs1).2.1, y ∈ pc.1.set :=
  View.cover_of_tiledL ((run0_B c i arg2 harg2 arg3 harg3 arg4 harg4 arg5 harg5 arg6 harg6 arg7 harg7 hc0 hc1 x0 x1 xs0 xs1).2.1) S1x1.size (by sl_kernel_rfl) y

/-- What the run at a point of this kind leaves in running sum 0: its pieces read back. -/
def sout0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) : Vec F S1x1 .f32 :=
  VS0_0.read (Elt F) (VS0_0.writes (Elt F) VS0_0.junk (run0_C c i arg2 harg2 arg3 harg3 arg4 harg4 arg5 harg5 arg6 harg6 arg7 harg7 hc0 hc1 x0 x1 xs0 xs1).2.2.1)
/-- Those pieces cover the one-element buffer. -/
theorem scover0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).2.2.1, y ∈ pc.1.set :=
  View.cover_of_tiledL ((run0_C c i arg2 harg2 arg3 harg3 arg4 harg4 arg5 harg5 arg6 harg6 arg7 harg7 hc0 hc1 x0 x1 xs0 xs1).2.2.1) S1x1.size (by sl_kernel_rfl) y

/-- What the run at a point of this kind leaves in running sum 1: its pieces read back. -/
def sout0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) : Vec F S1x1 .f32 :=
  VS0_1.read (Elt F) (VS0_1.writes (Elt F) VS0_1.junk (run0_C c i arg2 harg2 arg3 harg3 arg4 harg4 arg5 harg5 arg6 harg6 arg7 harg7 hc0 hc1 x0 x1 xs0 xs1).2.2.2.1)
/-- Those pieces cover the one-element buffer. -/
theorem scover0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).2.2.2.1, y ∈ pc.1.set :=
  View.cover_of_tiledL ((run0_C c i arg2 harg2 arg3 harg3 arg4 harg4 arg5 harg5 arg6 harg6 arg7 harg7 hc0 hc1 x0 x1 xs0 xs1).2.2.2.1) S1x1.size (by sl_kernel_rfl) y

/-- What the last point leaves in output 0's staging buffer: its pieces read back. -/
def out0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) : Vec F S1x1 .f32 :=
  VO0_2.read (Elt F) (VO0_2.writes (Elt F) VO0_2.junk (run0_C c i arg2 harg2 arg3 harg3 arg4 harg4 arg5 harg5 arg6 harg6 arg7 harg7 hc0 hc1 x0 x1 xs0 xs1).1)
theorem cover0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).1, y ∈ pc.1.set :=
  View.cover_of_tiledL ((run0_C c i arg2 harg2 arg3 harg3 arg4 harg4 arg5 harg5 arg6 harg6 arg7 harg7 hc0 hc1 x0 x1 xs0 xs1).1) S1x1.size (by sl_kernel_rfl) y

/-- What the last point leaves in output 1's staging buffer: its pieces read back. -/
def out0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) : Vec F S1x1 .f32 :=
  VO0_3.read (Elt F) (VO0_3.writes (Elt F) VO0_3.junk (run0_C c i arg2 harg2 arg3 harg3 arg4 harg4 arg5 harg5 arg6 harg6 arg7 harg7 hc0 hc1 x0 x1 xs0 xs1).2.1)
theorem cover0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).2.1, y ∈ pc.1.set :=
  View.cover_of_tiledL ((run0_C c i arg2 harg2 arg3 harg3 arg4 harg4 arg5 harg5 arg6 harg6 arg7 harg7 hc0 hc1 x0 x1 xs0 xs1).2.1) S1x1.size (by sl_kernel_rfl) y

/-- THE ACCUMULATION. After the body at point n: the two outputs' staging buffers (nothing named before the last
    point) and the two running sums — at the first point what the reset-and-add run leaves, afterwards what the
    carried run leaves over the sums of the point before. -/
def outsAt0 (c : Dev nD) : (n : ℕ) → n < cfg0.N → (Vec F S1x1 .f32 × Vec F S1x1 .f32) × (Vec F S1x1 .f32 × Vec F S1x1 .f32)
  | 0, hn => ((VO0_2.read (Elt F) VO0_2.junk, VO0_3.read (Elt F) VO0_3.junk), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcondR0 ⟨0, hn⟩).mpr rfl) (fun h => absurd ((hcondW0 ⟨0, hn⟩).mp h) (show ¬ (0 : ℕ) = 255 by omega)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcondR0 ⟨0, hn⟩).mpr rfl) (fun h => absurd ((hcondW0 ⟨0, hn⟩).mp h) (show ¬ (0 : ℕ) = 255 by omega)) (iblk0 V c 0 ⟨0, hn⟩) (iblk0 V c 1 ⟨0, hn⟩)))
  | n + 1, hn =>
    if hW : n + 1 = 255 then
      ((out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) ((hcondW0 ⟨n + 1, hn⟩).mpr hW) (iblk0 V c 0 ⟨n + 1, hn⟩) (iblk0 V c 1 ⟨n + 1, hn⟩) (outsAt0 c n (Nat.lt_of_succ_lt hn)).2.1 (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) ((hcondW0 ⟨n + 1, hn⟩).mpr hW) (iblk0 V c 0 ⟨n + 1, hn⟩) (iblk0 V c 1 ⟨n + 1, hn⟩) (outsAt0 c n (Nat.lt_of_succ_lt hn)).2.1 (outsAt0 c n (Nat.lt_of_succ_lt hn)).2.2), (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) ((hcondW0 ⟨n + 1, hn⟩).mpr hW) (iblk0 V c 0 ⟨n + 1, hn⟩) (iblk0 V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) ((hcondW0 ⟨n + 1, hn⟩).mpr hW) (iblk0 V c 0 ⟨n + 1, hn⟩) (iblk0 V c 1 ⟨n + 1, hn⟩) (outsAt0 c n (Nat.lt_of_succ_lt hn)).2.1 (outsAt0 c n (Nat.lt_of_succ_lt hn)).2.2))
    else
      ((VO0_2.read (Elt F) VO0_2.junk, VO0_3.read (Elt F) VO0_3.junk), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) (fun h => hW ((hcondW0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) (fun h => hW ((hcondW0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2))

theorem outsAt0_A (c : Dev nD) (t : Fin cfg0.N) (hz : t.val = 0) (hW : ¬t.val = 255) :
    outsAt0 V c t.val t.isLt = ((VO0_2.read (Elt F) VO0_2.junk, VO0_3.read (Elt F) VO0_3.junk), (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcondR0 t).mpr hz) (fun h => hW ((hcondW0 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcondR0 t).mpr hz) (fun h => hW ((hcondW0 t).mp h)) (iblk0 V c 0 t) (iblk0 V c 1 t))) := by
  obtain ⟨n, hn⟩ := t
  cases n with
  | zero => exact rfl
  | succ n => exact absurd hz (Nat.succ_ne_zero n)
theorem outsAt0_B (c : Dev nD) (t : Fin cfg0.N) (hz : ¬t.val = 0) (hW : ¬t.val = 255) :
    outsAt0 V c t.val t.isLt = ((VO0_2.read (Elt F) VO0_2.junk, VO0_3.read (Elt F) VO0_3.junk), (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) (fun h => hW ((hcondW0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) (fun h => hW ((hcondW0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact absurd rfl hz
  | succ n => exact (dif_neg hW).trans rfl
theorem outsAt0_C (c : Dev nD) (t : Fin cfg0.N) (hz : ¬t.val = 0) (hW : t.val = 255) :
    outsAt0 V c t.val t.isLt = ((out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) ((hcondW0 t).mpr hW) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) ((hcondW0 t).mpr hW) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2), (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) ((hcondW0 t).mpr hW) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) ((hcondW0 t).mpr hW) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact absurd rfl hz
  | succ n => exact (dif_pos hW).trans rfl

/-- The core's scoped buffers that are no staging buffer of this call, with the two running sums at S0 and S1 and
    every other one at some contents. -/
abbrev wrap0 (c : Dev nD) (S0 S1 : sProp 𝕄) : sProp 𝕄 := iprop(S0 ∗ S1 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class's invariant is that, the running sums at some contents. -/
theorem PhiA0_eq (c : Dev nD) :
    (Pipeline.ΦA spec0 c : sProp 𝕄) = iprop(wrap0 c iprop(∃ f : Buf (Elt F) ((c : Thread nD τ).loc cc0_scratch0), ((c : Thread nD τ).loc cc0_scratch0) ↦{fullShare} f) iprop(∃ f : Buf (Elt F) ((c : Thread nD τ).loc cc0_scratch1), ((c : Thread nD τ).loc cc0_scratch1) ↦{fullShare} f) ∗ (∃ r, prngReg c r)) := by
  unfold Pipeline.ΦA; rw [scopedRest0_eq]

/-- The region invariant before position n: before the first point the class's; afterwards the running sums at what
    the point before left. -/
def PhiS0 (c : Dev nD) : (n : ℕ) → n ≤ cfg0.N → sProp 𝕄
  | 0, _ => Pipeline.ΦA spec0 c
  | n + 1, hn => iprop(wrap0 c (owns (c : Thread nD τ) scM0_0 fullShare ((outsAt0 V c n hn).2.1)) (owns (c : Thread nD τ) scM0_1 fullShare ((outsAt0 V c n hn).2.2)) ∗ (∃ r, prngReg c r))
theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(wrap0 c (owns (c : Thread nD τ) scM0_0 fullShare ((outsAt0 V c n hn).2.1)) (owns (c : Thread nD τ) scM0_1 fullShare ((outsAt0 V c n hn).2.2)) ∗ (∃ r, prngReg c r)) := rfl
theorem PhiS0_pos (c : Dev nD) (n : ℕ) (h : n ≤ cfg0.N) (hz : ¬n = 0) :
    PhiS0 V c n h = iprop(wrap0 c (owns (c : Thread nD τ) scM0_0 fullShare ((outsAt0 V c (n - 1) (by omega)).2.1)) (owns (c : Thread nD τ) scM0_1 fullShare ((outsAt0 V c (n - 1) (by omega)).2.2)) ∗ (∃ r, prngReg c r)) := by
  cases n with
  | zero => exact absurd rfl hz
  | succ n => rfl

/-- The proof data of this pipeline on core c: the arrays as the region finds them; the input windows (two
    windows of ONE array, each holding half of the full share of it) at their blocks; the outputs and the invariant
    by the accumulation; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1.1
    | ⟨3, _⟩ => (outsAt0 V c t.val t.isLt).1.2
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1.1 := by dsimp only [dat0]
theorem after0_3 (c : Dev nD) (t : Fin cfg0.N) : (dat0 V c).after 3 t = (outsAt0 V c t.val t.isLt).1.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 8000000 in
/-- The body at any point: the inputs' memrefs hold their blocks; the point is the first, a middle or the last one,
    and that kind's run applies; the invariant hands over the running sums and takes them back at this point's
    contents; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  by_cases hz : t.val = 0
  · have hW : ¬t.val = 255 := by omega
    rw [show (dat0 V c).leavesExact 0 t = owns (c : Thread nD τ) (ms0_0 t) fullShare ((dat0 V c).after 0 t) from by
              unfold Dat.leavesExact; rw [liveAt0_0 t], after0_0]
    rw [show (dat0 V c).leavesExact 1 t = owns (c : Thread nD τ) (ms0_1 t) fullShare ((dat0 V c).after 1 t) from by
              unfold Dat.leavesExact; rw [liveAt0_1 t], after0_1]
    rw [Dat.leavesExact_idle (dat0 V c) 2 t (idleAt0_2 t (fun h => hW ((hcondW0 t).mp h))) (noFlush0_2 t (fun h => hW ((hcondW0 t).mp h)))]
    rw [Dat.leavesExact_idle (dat0 V c) 3 t (idleAt0_3 t (fun h => hW ((hcondW0 t).mp h))) (noFlush0_3 t (fun h => hW ((hcondW0 t).mp h)))]
    rw [outsAt0_A V c t hz hW]
    unfold sout0_A_0 sout0_A_1; (try dsimp only)
    rw [PhiS0_castSucc V c t, PhiS0_zero V c _ _ hz, PhiA0_eq]
    iintro ⟨⟨⟨HS0, HS1, HR2, HR3, HR4, HR5, HR6, HR7, HR8, HR9⟩, Hg⟩, Ho, ⟨%d0, H0⟩, ⟨%d1, H1⟩, ⟨%d2, H2⟩, ⟨%d3, H3⟩⟩
    iapply ((run0_A c (grid0.coords t) _ _ _ _ _ _ _ _ _ _ _ _ ((hcondR0 t).mpr hz) (fun h => hW ((hcondW0 t).mp h)) (iblk0 V c 0 t) (iblk0 V c 1 t)).2.2 _ _ Set.univ _)
    isplitl [H0]; · iexact H0
    isplitl [H1]; · iexact H1
    isplitl [H2]; · iexact H2
    isplitl [H3]; · iexact H3
    isplitl [HS0]
    · icases HS0 with ⟨%g0, HS0⟩; iexists g0; rw [owns_whole]; iexact HS0
    isplitl [HS1]
    · icases HS1 with ⟨%g1, HS1⟩; iexists g1; rw [owns_whole]; iexact HS1
    iintro ⟨H0, H1, H2, H3, ⟨%es0, HS0⟩, ⟨%es1, HS1⟩⟩
    isplitl [HS0 HS1 HR2 HR3 HR4 HR5 HR6 HR7 HR8 HR9 Hg]
    · isplitl [HS0 HS1 HR2 HR3 HR4 HR5 HR6 HR7 HR8 HR9]
      ·   isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          iexact HR9
      iexact Hg
    isplitl [Ho]; · iexact Ho
    isplitl [H0]; · iexact H0
    isplitl [H1]; · iexact H1
    isplitl [H2]; · iexists _; iexact H2
    iexists _; iexact H3
  · by_cases hW : t.val = 255
    · rw [show (dat0 V c).leavesExact 0 t = owns (c : Thread nD τ) (ms0_0 t) fullShare ((dat0 V c).after 0 t) from by
                unfold Dat.leavesExact; rw [liveAt0_0 t], after0_0]
      rw [show (dat0 V c).leavesExact 1 t = owns (c : Thread nD τ) (ms0_1 t) fullShare ((dat0 V c).after 1 t) from by
                unfold Dat.leavesExact; rw [liveAt0_1 t], after0_1]
      rw [show (dat0 V c).leavesExact 2 t = owns (c : Thread nD τ) (ms0_2 t) fullShare ((dat0 V c).after 2 t) from by
                unfold Dat.leavesExact; rw [liveAt0_2 t ((hcondW0 t).mpr hW)], after0_2]
      rw [show (dat0 V c).leavesExact 3 t = owns (c : Thread nD τ) (ms0_3 t) fullShare ((dat0 V c).after 3 t) from by
                unfold Dat.leavesExact; rw [liveAt0_3 t ((hcondW0 t).mpr hW)], after0_3]
      rw [outsAt0_C V c t hz hW]
      unfold out0_C_2 out0_C_3 sout0_C_0 sout0_C_1; (try dsimp only)
      rw [PhiS0_castSucc V c t, PhiS0_pos V c _ _ hz]
      iintro ⟨⟨⟨HS0, HS1, HR2, HR3, HR4, HR5, HR6, HR7, HR8, HR9⟩, Hg⟩, Ho, ⟨%d0, H0⟩, ⟨%d1, H1⟩, ⟨%d2, H2⟩, ⟨%d3, H3⟩⟩
      iapply ((run0_C c (grid0.coords t) _ _ _ _ _ _ _ _ _ _ _ _ (fun h => hz ((hcondR0 t).mp h)) ((hcondW0 t).mpr hW) (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR2 HR3 HR4 HR5 HR6 HR7 HR8 HR9 Hg]
      · isplitl [HS0 HS1 HR2 HR3 HR4 HR5 HR6 HR7 HR8 HR9]
        ·   isplitl [HS0]
            · unfold owns; iexists _; isplitr
              swap; · iexact HS0
              ipureintro; exact View.read_writes_of_cover _ _ _ _ _ (scover0_C_0 c _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _)
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexact HR9
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · rw [show (dat0 V c).leavesExact 0 t = owns (c : Thread nD τ) (ms0_0 t) fullShare ((dat0 V c).after 0 t) from by
                unfold Dat.leavesExact; rw [liveAt0_0 t], after0_0]
      rw [show (dat0 V c).leavesExact 1 t = owns (c : Thread nD τ) (ms0_1 t) fullShare ((dat0 V c).after 1 t) from by
                unfold Dat.leavesExact; rw [liveAt0_1 t], after0_1]
      rw [Dat.leavesExact_idle (dat0 V c) 2 t (idleAt0_2 t (fun h => hW ((hcondW0 t).mp h))) (noFlush0_2 t (fun h => hW ((hcondW0 t).mp h)))]
      rw [Dat.leavesExact_idle (dat0 V c) 3 t (idleAt0_3 t (fun h => hW ((hcondW0 t).mp h))) (noFlush0_3 t (fun h => hW ((hcondW0 t).mp h)))]
      rw [outsAt0_B V c t hz hW]
      unfold sout0_B_0 sout0_B_1; (try dsimp only)
      rw [PhiS0_castSucc V c t, PhiS0_pos V c _ _ hz]
      iintro ⟨⟨⟨HS0, HS1, HR2, HR3, HR4, HR5, HR6, HR7, HR8, HR9⟩, Hg⟩, Ho, ⟨%d0, H0⟩, ⟨%d1, H1⟩, ⟨%d2, H2⟩, ⟨%d3, H3⟩⟩
      iapply ((run0_B c (grid0.coords t) _ _ _ _ _ _ _ _ _ _ _ _ (fun h => hz ((hcondR0 t).mp h)) (fun h => hW ((hcondW0 t).mp h)) (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR2 HR3 HR4 HR5 HR6 HR7 HR8 HR9 Hg]
      · isplitl [HS0 HS1 HR2 HR3 HR4 HR5 HR6 HR7 HR8 HR9]
        ·   isplitl [HS0]
            · unfold owns; iexists _; isplitr
              swap; · iexact HS0
              ipureintro; exact View.read_writes_of_cover _ _ _ _ _ (scover0_B_0 c _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _)
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexact HR9
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
/-- After the last point the invariant gives the class's back: the running sums' contents are forgotten. -/
theorem Phi_out0 (c : Dev nD) (t : Fin (cfg0.N + 1)) (ht : ¬t.val = 0) : (dat0 V c).Φ t ⊢ Pipeline.ΦA spec0 c := by
  rw [show (dat0 V c).Φ t = PhiS0 V c t.val (Nat.le_of_lt_succ t.isLt) from rfl, PhiS0_pos V c _ _ ht, PhiA0_eq]
  simp only [owns_whole]
  iintro ⟨⟨HS0, HS1, HR2, HR3, HR4, HR5, HR6, HR7, HR8, HR9⟩, Hg⟩
  isplitl [HS0 HS1 HR2 HR3 HR4 HR5 HR6 HR7 HR8 HR9]
  · isplitl [HS0]
    · iexists _; iexact HS0
    isplitl [HS1]
    · iexists _; iexact HS1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    iexact HR9
  iexact Hg
theorem hout0 (c : Dev nD) : (dat0 V c).Φ (Fin.last cfg0.N) ⊢ Pipeline.ΦA spec0 c :=
  Phi_out0 V c _ (by rw [Fin.val_last]; have : cfg0.N = 256 := N_0; omega)

/-! # pallas_call 1, entered at buffer contents V -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The input windows are live at every point; the output windows are idle (neither stored into nor written back)
    except at the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬condW1 (grid1.coords t) → cfg1.idle 2 (grid1.coords t) = true := by decide +kernel
theorem idleAt1_3 : ∀ t : Fin cfg1.N, ¬condW1 (grid1.coords t) → cfg1.idle 3 (grid1.coords t) = true := by decide +kernel
theorem noFlush1_2 : ∀ t : Fin cfg1.N, ¬condW1 (grid1.coords t) → (cfg1.win 2).flush t = false := by decide +kernel
theorem noFlush1_3 : ∀ t : Fin cfg1.N, ¬condW1 (grid1.coords t) → (cfg1.win 3).flush t = false := by decide +kernel
theorem liveAt1_2 : ∀ t : Fin cfg1.N, condW1 (grid1.coords t) → cfg1.idle 2 (grid1.coords t) = false := by decide +kernel
theorem liveAt1_3 : ∀ t : Fin cfg1.N, condW1 (grid1.coords t) → cfg1.idle 3 (grid1.coords t) = false := by decide +kernel

/-- What the run at a point of this kind leaves in running sum 0: its pieces read back. -/
def sout1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) : Vec F S1x1 .f32 :=
  VS1_0.read (Elt F) (VS1_0.writes (Elt F) VS1_0.junk (run1_A c i arg2 harg2 arg3 harg3 arg4 harg4 arg5 harg5 arg6 harg6 arg7 harg7 hc0 hc1 x0 x1).1)
/-- Those pieces cover the one-element buffer. -/
theorem scover1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) (y : S1x1.Idx) :
    ∃ pc ∈ (run1_A c i arg2 harg2 arg3 harg3 arg4 harg4 arg5 harg5 arg6 harg6 arg7 harg7 hc0 hc1 x0 x1).1, y ∈ pc.1.set :=
  View.cover_of_tiledL ((run1_A c i arg2 harg2 arg3 harg3 arg4 harg4 arg5 harg5 arg6 harg6 arg7 harg7 hc0 hc1 x0 x1).1) S1x1.size (by sl_kernel_rfl) y

/-- What the run at a point of this kind leaves in running sum 1: its pieces read back. -/
def sout1_A_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) : Vec F S1x1 .f32 :=
  VS1_1.read (Elt F) (VS1_1.writes (Elt F) VS1_1.junk (run1_A c i arg2 harg2 arg3 harg3 arg4 harg4 arg5 harg5 arg6 harg6 arg7 harg7 hc0 hc1 x0 x1).2.1)
/-- Those pieces cover the one-element buffer. -/
theorem scover1_A_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) (y : S1x1.Idx) :
    ∃ pc ∈ (run1_A c i arg2 harg2 arg3 harg3 arg4 harg4 arg5 harg5 arg6 harg6 arg7 harg7 hc0 hc1 x0 x1).2.1, y ∈ pc.1.set :=
  View.cover_of_tiledL ((run1_A c i arg2 harg2 arg3 harg3 arg4 harg4 arg5 harg5 arg6 harg6 arg7 harg7 hc0 hc1 x0 x1).2.1) S1x1.size (by sl_kernel_rfl) y

/-- What the run at a point of this kind leaves in running sum 0: its pieces read back. -/
def sout1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) : Vec F S1x1 .f32 :=
  VS1_0.read (Elt F) (VS1_0.writes (Elt F) VS1_0.junk (run1_B c i arg2 harg2 arg3 harg3 arg4 harg4 arg5 harg5 arg6 harg6 arg7 harg7 hc0 hc1 x0 x1 xs0 xs1).1)
/-- Those pieces cover the one-element buffer. -/
theorem scover1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) (y : S1x1.Idx) :
    ∃ pc ∈ (run1_B c i arg2 harg2 arg3 harg3 arg4 harg4 arg5 harg5 arg6 harg6 arg7 harg7 hc0 hc1 x0 x1 xs0 xs1).1, y ∈ pc.1.set :=
  View.cover_of_tiledL ((run1_B c i arg2 harg2 arg3 harg3 arg4 harg4 arg5 harg5 arg6 harg6 arg7 harg7 hc0 hc1 x0 x1 xs0 xs1).1) S1x1.size (by sl_kernel_rfl) y

/-- What the run at a point of this kind leaves in running sum 1: its pieces read back. -/
def sout1_B_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) : Vec F S1x1 .f32 :=
  VS1_1.read (Elt F) (VS1_1.writes (Elt F) VS1_1.junk (run1_B c i arg2 harg2 arg3 harg3 arg4 harg4 arg5 harg5 arg6 harg6 arg7 harg7 hc0 hc1 x0 x1 xs0 xs1).2.1)
/-- Those pieces cover the one-element buffer. -/
theorem scover1_B_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) (y : S1x1.Idx) :
    ∃ pc ∈ (run1_B c i arg2 harg2 arg3 harg3 arg4 harg4 arg5 harg5 arg6 harg6 arg7 harg7 hc0 hc1 x0 x1 xs0 xs1).2.1, y ∈ pc.1.set :=
  View.cover_of_tiledL ((run1_B c i arg2 harg2 arg3 harg3 arg4 harg4 arg5 harg5 arg6 harg6 arg7 harg7 hc0 hc1 x0 x1 xs0 xs1).2.1) S1x1.size (by sl_kernel_rfl) y

/-- What the run at a point of this kind leaves in running sum 0: its pieces read back. -/
def sout1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) : Vec F S1x1 .f32 :=
  VS1_0.read (Elt F) (VS1_0.writes (Elt F) VS1_0.junk (run1_C c i arg2 harg2 arg3 harg3 arg4 harg4 arg5 harg5 arg6 harg6 arg7 harg7 hc0 hc1 x0 x1 xs0 xs1).2.2.1)
/-- Those pieces cover the one-element buffer. -/
theorem scover1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).2.2.1, y ∈ pc.1.set :=
  View.cover_of_tiledL ((run1_C c i arg2 harg2 arg3 harg3 arg4 harg4 arg5 harg5 arg6 harg6 arg7 harg7 hc0 hc1 x0 x1 xs0 xs1).2.2.1) S1x1.size (by sl_kernel_rfl) y

/-- What the run at a point of this kind leaves in running sum 1: its pieces read back. -/
def sout1_C_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) : Vec F S1x1 .f32 :=
  VS1_1.read (Elt F) (VS1_1.writes (Elt F) VS1_1.junk (run1_C c i arg2 harg2 arg3 harg3 arg4 harg4 arg5 harg5 arg6 harg6 arg7 harg7 hc0 hc1 x0 x1 xs0 xs1).2.2.2.1)
/-- Those pieces cover the one-element buffer. -/
theorem scover1_C_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).2.2.2.1, y ∈ pc.1.set :=
  View.cover_of_tiledL ((run1_C c i arg2 harg2 arg3 harg3 arg4 harg4 arg5 harg5 arg6 harg6 arg7 harg7 hc0 hc1 x0 x1 xs0 xs1).2.2.2.1) S1x1.size (by sl_kernel_rfl) y

/-- What the last point leaves in output 0's staging buffer: its pieces read back. -/
def out1_C_2 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) : Vec F S1x1 .f32 :=
  VO1_2.read (Elt F) (VO1_2.writes (Elt F) VO1_2.junk (run1_C c i arg2 harg2 arg3 harg3 arg4 harg4 arg5 harg5 arg6 harg6 arg7 harg7 hc0 hc1 x0 x1 xs0 xs1).1)
theorem cover1_C_2 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).1, y ∈ pc.1.set :=
  View.cover_of_tiledL ((run1_C c i arg2 harg2 arg3 harg3 arg4 harg4 arg5 harg5 arg6 harg6 arg7 harg7 hc0 hc1 x0 x1 xs0 xs1).1) S1x1.size (by sl_kernel_rfl) y

/-- What the last point leaves in output 1's staging buffer: its pieces read back. -/
def out1_C_3 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) : Vec F S1x1 .f32 :=
  VO1_3.read (Elt F) (VO1_3.writes (Elt F) VO1_3.junk (run1_C c i arg2 harg2 arg3 harg3 arg4 harg4 arg5 harg5 arg6 harg6 arg7 harg7 hc0 hc1 x0 x1 xs0 xs1).2.1)
theorem cover1_C_3 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).2.1, y ∈ pc.1.set :=
  View.cover_of_tiledL ((run1_C c i arg2 harg2 arg3 harg3 arg4 harg4 arg5 harg5 arg6 harg6 arg7 harg7 hc0 hc1 x0 x1 xs0 xs1).2.1) S1x1.size (by sl_kernel_rfl) y

/-- THE ACCUMULATION. After the body at point n: the two outputs' staging buffers (nothing named before the last
    point) and the two running sums — at the first point what the reset-and-add run leaves, afterwards what the
    carried run leaves over the sums of the point before. -/
def outsAt1 (c : Dev nD) : (n : ℕ) → n < cfg1.N → (Vec F S1x1 .f32 × Vec F S1x1 .f32) × (Vec F S1x1 .f32 × Vec F S1x1 .f32)
  | 0, hn => ((VO1_2.read (Elt F) VO1_2.junk, VO1_3.read (Elt F) VO1_3.junk), (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcondR1 ⟨0, hn⟩).mpr rfl) (fun h => absurd ((hcondW1 ⟨0, hn⟩).mp h) (show ¬ (0 : ℕ) = 255 by omega)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcondR1 ⟨0, hn⟩).mpr rfl) (fun h => absurd ((hcondW1 ⟨0, hn⟩).mp h) (show ¬ (0 : ℕ) = 255 by omega)) (iblk1 V c 0 ⟨0, hn⟩) (iblk1 V c 1 ⟨0, hn⟩)))
  | n + 1, hn =>
    if hW : n + 1 = 255 then
      ((out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) ((hcondW1 ⟨n + 1, hn⟩).mpr hW) (iblk1 V c 0 ⟨n + 1, hn⟩) (iblk1 V c 1 ⟨n + 1, hn⟩) (outsAt1 c n (Nat.lt_of_succ_lt hn)).2.1 (outsAt1 c n (Nat.lt_of_succ_lt hn)).2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) ((hcondW1 ⟨n + 1, hn⟩).mpr hW) (iblk1 V c 0 ⟨n + 1, hn⟩) (iblk1 V c 1 ⟨n + 1, hn⟩) (outsAt1 c n (Nat.lt_of_succ_lt hn)).2.1 (outsAt1 c n (Nat.lt_of_succ_lt hn)).2.2), (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) ((hcondW1 ⟨n + 1, hn⟩).mpr hW) (iblk1 V c 0 ⟨n + 1, hn⟩) (iblk1 V c 1 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) ((hcondW1 ⟨n + 1, hn⟩).mpr hW) (iblk1 V c 0 ⟨n + 1, hn⟩) (iblk1 V c 1 ⟨n + 1, hn⟩) (outsAt1 c n (Nat.lt_of_succ_lt hn)).2.1 (outsAt1 c n (Nat.lt_of_succ_lt hn)).2.2))
    else
      ((VO1_2.read (Elt F) VO1_2.junk, VO1_3.read (Elt F) VO1_3.junk), (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) (fun h => hW ((hcondW1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) (fun h => hW ((hcondW1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2))

theorem outsAt1_A (c : Dev nD) (t : Fin cfg1.N) (hz : t.val = 0) (hW : ¬t.val = 255) :
    outsAt1 V c t.val t.isLt = ((VO1_2.read (Elt F) VO1_2.junk, VO1_3.read (Elt F) VO1_3.junk), (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcondR1 t).mpr hz) (fun h => hW ((hcondW1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcondR1 t).mpr hz) (fun h => hW ((hcondW1 t).mp h)) (iblk1 V c 0 t) (iblk1 V c 1 t))) := by
  obtain ⟨n, hn⟩ := t
  cases n with
  | zero => exact rfl
  | succ n => exact absurd hz (Nat.succ_ne_zero n)
theorem outsAt1_B (c : Dev nD) (t : Fin cfg1.N) (hz : ¬t.val = 0) (hW : ¬t.val = 255) :
    outsAt1 V c t.val t.isLt = ((VO1_2.read (Elt F) VO1_2.junk, VO1_3.read (Elt F) VO1_3.junk), (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) (fun h => hW ((hcondW1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) (fun h => hW ((hcondW1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd rfl hz
  | succ n => exact (dif_neg hW).trans rfl
theorem outsAt1_C (c : Dev nD) (t : Fin cfg1.N) (hz : ¬t.val = 0) (hW : t.val = 255) :
    outsAt1 V c t.val t.isLt = ((out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) ((hcondW1 t).mpr hW) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) ((hcondW1 t).mpr hW) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2), (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) ((hcondW1 t).mpr hW) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) ((hcondW1 t).mpr hW) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd rfl hz
  | succ n => exact (dif_pos hW).trans rfl

/-- The core's scoped buffers that are no staging buffer of this call, with the two running sums at S0 and S1 and
    every other one at some contents. -/
abbrev wrap1 (c : Dev nD) (S0 S1 : sProp 𝕄) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S0 ∗ S1)

/-- The class's invariant is that, the running sums at some contents. -/
theorem PhiA1_eq (c : Dev nD) :
    (Pipeline.ΦA spec1 c : sProp 𝕄) = iprop(wrap1 c iprop(∃ f : Buf (Elt F) ((c : Thread nD τ).loc cc1_scratch0), ((c : Thread nD τ).loc cc1_scratch0) ↦{fullShare} f) iprop(∃ f : Buf (Elt F) ((c : Thread nD τ).loc cc1_scratch1), ((c : Thread nD τ).loc cc1_scratch1) ↦{fullShare} f) ∗ (∃ r, prngReg c r)) := by
  unfold Pipeline.ΦA; rw [scopedRest1_eq]

/-- The region invariant before position n: before the first point the class's; afterwards the running sums at what
    the point before left. -/
def PhiS1 (c : Dev nD) : (n : ℕ) → n ≤ cfg1.N → sProp 𝕄
  | 0, _ => Pipeline.ΦA spec1 c
  | n + 1, hn => iprop(wrap1 c (owns (c : Thread nD τ) scM1_0 fullShare ((outsAt1 V c n hn).2.1)) (owns (c : Thread nD τ) scM1_1 fullShare ((outsAt1 V c n hn).2.2)) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(wrap1 c (owns (c : Thread nD τ) scM1_0 fullShare ((outsAt1 V c n hn).2.1)) (owns (c : Thread nD τ) scM1_1 fullShare ((outsAt1 V c n hn).2.2)) ∗ (∃ r, prngReg c r)) := rfl
theorem PhiS1_pos (c : Dev nD) (n : ℕ) (h : n ≤ cfg1.N) (hz : ¬n = 0) :
    PhiS1 V c n h = iprop(wrap1 c (owns (c : Thread nD τ) scM1_0 fullShare ((outsAt1 V c (n - 1) (by omega)).2.1)) (owns (c : Thread nD τ) scM1_1 fullShare ((outsAt1 V c (n - 1) (by omega)).2.2)) ∗ (∃ r, prngReg c r)) := by
  cases n with
  | zero => exact absurd rfl hz
  | succ n => rfl

/-- The proof data of this pipeline on core c: the arrays as the region finds them; the input windows (two
    windows of ONE array, each holding half of the full share of it) at their blocks; the outputs and the invariant
    by the accumulation; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1.1
    | ⟨3, _⟩ => (outsAt1 V c t.val t.isLt).1.2
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1.1 := by dsimp only [dat1]
theorem after1_3 (c : Dev nD) (t : Fin cfg1.N) : (dat1 V c).after 3 t = (outsAt1 V c t.val t.isLt).1.2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the inputs' memrefs hold their blocks; the point is the first, a middle or the last one,
    and that kind's run applies; the invariant hands over the running sums and takes them back at this point's
    contents; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases hz : t.val = 0
  · have hW : ¬t.val = 255 := by omega
    rw [show (dat1 V c).leavesExact 0 t = owns (c : Thread nD τ) (ms1_0 t) fullShare ((dat1 V c).after 0 t) from by
              unfold Dat.leavesExact; rw [liveAt1_0 t], after1_0]
    rw [show (dat1 V c).leavesExact 1 t = owns (c : Thread nD τ) (ms1_1 t) fullShare ((dat1 V c).after 1 t) from by
              unfold Dat.leavesExact; rw [liveAt1_1 t], after1_1]
    rw [Dat.leavesExact_idle (dat1 V c) 2 t (idleAt1_2 t (fun h => hW ((hcondW1 t).mp h))) (noFlush1_2 t (fun h => hW ((hcondW1 t).mp h)))]
    rw [Dat.leavesExact_idle (dat1 V c) 3 t (idleAt1_3 t (fun h => hW ((hcondW1 t).mp h))) (noFlush1_3 t (fun h => hW ((hcondW1 t).mp h)))]
    rw [outsAt1_A V c t hz hW]
    unfold sout1_A_0 sout1_A_1; (try dsimp only)
    rw [PhiS1_castSucc V c t, PhiS1_zero V c _ _ hz, PhiA1_eq]
    iintro ⟨⟨⟨HR0, HR1, HR2, HR3, HR4, HR5, HR6, HR7, HS0, HS1⟩, Hg⟩, Ho, ⟨%d0, H0⟩, ⟨%d1, H1⟩, ⟨%d2, H2⟩, ⟨%d3, H3⟩⟩
    iapply ((run1_A c (grid1.coords t) _ _ _ _ _ _ _ _ _ _ _ _ ((hcondR1 t).mpr hz) (fun h => hW ((hcondW1 t).mp h)) (iblk1 V c 0 t) (iblk1 V c 1 t)).2.2 _ _ Set.univ _)
    isplitl [H0]; · iexact H0
    isplitl [H1]; · iexact H1
    isplitl [H2]; · iexact H2
    isplitl [H3]; · iexact H3
    isplitl [HS0]
    · icases HS0 with ⟨%g0, HS0⟩; iexists g0; rw [owns_whole]; iexact HS0
    isplitl [HS1]
    · icases HS1 with ⟨%g1, HS1⟩; iexists g1; rw [owns_whole]; iexact HS1
    iintro ⟨H0, H1, H2, H3, ⟨%es0, HS0⟩, ⟨%es1, HS1⟩⟩
    isplitl [HS0 HS1 HR0 HR1 HR2 HR3 HR4 HR5 HR6 HR7 Hg]
    · isplitl [HS0 HS1 HR0 HR1 HR2 HR3 HR4 HR5 HR6 HR7]
      ·   isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HS0]
          · unfold owns; iexists _; isplitr
            swap; · iexact HS0
            ipureintro; exact View.read_writes_of_cover _ _ _ _ _ (scover1_A_0 c _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _)
      iexact Hg
    isplitl [Ho]; · iexact Ho
    isplitl [H0]; · iexact H0
    isplitl [H1]; · iexact H1
    isplitl [H2]; · iexists _; iexact H2
    iexists _; iexact H3
  · by_cases hW : t.val = 255
    · rw [show (dat1 V c).leavesExact 0 t = owns (c : Thread nD τ) (ms1_0 t) fullShare ((dat1 V c).after 0 t) from by
                unfold Dat.leavesExact; rw [liveAt1_0 t], after1_0]
      rw [show (dat1 V c).leavesExact 1 t = owns (c : Thread nD τ) (ms1_1 t) fullShare ((dat1 V c).after 1 t) from by
                unfold Dat.leavesExact; rw [liveAt1_1 t], after1_1]
      rw [show (dat1 V c).leavesExact 2 t = owns (c : Thread nD τ) (ms1_2 t) fullShare ((dat1 V c).after 2 t) from by
                unfold Dat.leavesExact; rw [liveAt1_2 t ((hcondW1 t).mpr hW)], after1_2]
      rw [show (dat1 V c).leavesExact 3 t = owns (c : Thread nD τ) (ms1_3 t) fullShare ((dat1 V c).after 3 t) from by
                unfold Dat.leavesExact; rw [liveAt1_3 t ((hcondW1 t).mpr hW)], after1_3]
      rw [outsAt1_C V c t hz hW]
      unfold out1_C_2 out1_C_3 sout1_C_0 sout1_C_1; (try dsimp only)
      rw [PhiS1_castSucc V c t, PhiS1_pos V c _ _ hz]
      iintro ⟨⟨⟨HR0, HR1, HR2, HR3, HR4, HR5, HR6, HR7, HS0, HS1⟩, Hg⟩, Ho, ⟨%d0, H0⟩, ⟨%d1, H1⟩, ⟨%d2, H2⟩, ⟨%d3, H3⟩⟩
      iapply ((run1_C c (grid1.coords t) _ _ _ _ _ _ _ _ _ _ _ _ (fun h => hz ((hcondR1 t).mp h)) ((hcondW1 t).mpr hW) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR0 HR1 HR2 HR3 HR4 HR5 HR6 HR7 Hg]
      · isplitl [HS0 HS1 HR0 HR1 HR2 HR3 HR4 HR5 HR6 HR7]
        ·   isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_C_0 c _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [show (dat1 V c).leavesExact 0 t = owns (c : Thread nD τ) (ms1_0 t) fullShare ((dat1 V c).after 0 t) from by
                unfold Dat.leavesExact; rw [liveAt1_0 t], after1_0]
      rw [show (dat1 V c).leavesExact 1 t = owns (c : Thread nD τ) (ms1_1 t) fullShare ((dat1 V c).after 1 t) from by
                unfold Dat.leavesExact; rw [liveAt1_1 t], after1_1]
      rw [Dat.leavesExact_idle (dat1 V c) 2 t (idleAt1_2 t (fun h => hW ((hcondW1 t).mp h))) (noFlush1_2 t (fun h => hW ((hcondW1 t).mp h)))]
      rw [Dat.leavesExact_idle (dat1 V c) 3 t (idleAt1_3 t (fun h => hW ((hcondW1 t).mp h))) (noFlush1_3 t (fun h => hW ((hcondW1 t).mp h)))]
      rw [outsAt1_B V c t hz hW]
      unfold sout1_B_0 sout1_B_1; (try dsimp only)
      rw [PhiS1_castSucc V c t, PhiS1_pos V c _ _ hz]
      iintro ⟨⟨⟨HR0, HR1, HR2, HR3, HR4, HR5, HR6, HR7, HS0, HS1⟩, Hg⟩, Ho, ⟨%d0, H0⟩, ⟨%d1, H1⟩, ⟨%d2, H2⟩, ⟨%d3, H3⟩⟩
      iapply ((run1_B c (grid1.coords t) _ _ _ _ _ _ _ _ _ _ _ _ (fun h => hz ((hcondR1 t).mp h)) (fun h => hW ((hcondW1 t).mp h)) (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR0 HR1 HR2 HR3 HR4 HR5 HR6 HR7 Hg]
      · isplitl [HS0 HS1 HR0 HR1 HR2 HR3 HR4 HR5 HR6 HR7]
        ·   isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_B_0 c _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
/-- After the last point the invariant gives the class's back: the running sums' contents are forgotten. -/
theorem Phi_out1 (c : Dev nD) (t : Fin (cfg1.N + 1)) (ht : ¬t.val = 0) : (dat1 V c).Φ t ⊢ Pipeline.ΦA spec1 c := by
  rw [show (dat1 V c).Φ t = PhiS1 V c t.val (Nat.le_of_lt_succ t.isLt) from rfl, PhiS1_pos V c _ _ ht, PhiA1_eq]
  simp only [owns_whole]
  iintro ⟨⟨HR0, HR1, HR2, HR3, HR4, HR5, HR6, HR7, HS0, HS1⟩, Hg⟩
  isplitl [HS0 HS1 HR0 HR1 HR2 HR3 HR4 HR5 HR6 HR7]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HS0]
    · iexists _; iexact HS0
    iexists _; iexact HS1
  iexact Hg
theorem hout1 (c : Dev nD) : (dat1 V c).Φ (Fin.last cfg1.N) ⊢ Pipeline.ΦA spec1 c :=
  Phi_out1 V c _ (by rw [Fin.val_last]; have : cfg1.N = 256 := N_1; omega)

end Regions

end Cert.Kernel.Hand

end
-- ==== Proof.KBShare.lean ====
/-
  The entry and the exit of a kernel region whose two input windows read one array. The core holds every
  unscoped buffer whole at a valuation; the region's proof data hold the windows' arrays one window at a time, the
  two input windows each at one half share of the one input array. At the entry the full share of that array is
  split into its left and right halves; at the exit the two halves, at equal contents, are rejoined.
-/
import proofs.«168013_j80238579024621_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- A whole buffer held in full is its two half shares, the second spelt at an equal reference. -/
theorem pointsTo_halves (c : Dev nD) (V : (b : Ref sig .tc) → Buf (Elt F) ((c : Thread nD τ).loc b)) {b b' : Ref sig .tc} (h : b' = b) :
    ((((c : Thread nD τ).loc b) ↦{fullShare} V b : sProp 𝕄))
      ⊣⊢ iprop((((c : Thread nD τ).loc b) ↦{fullShare.left} V b) ∗ (((c : Thread nD τ).loc b') ↦{fullShare.right} V b')) := by
  subst h
  exact pointsTo_share (PosShare.mem_left_op_right fullShare)

/-! ## pallas_call 0 -/

set_option maxHeartbeats 400000 in
/-- The windows' arrays one by one: the two input windows hold the one input array at the left and the right half
    share, the two output windows their own arrays in full; every array is a whole buffer. -/
theorem arrays0_chain (c : Dev nD) (dat : Dat τ (Elt F) Unit ℕ (UR sig nD τ) ℕ cfg0 c)
    (hq0 : dat.q 0 = fullShare.left) (hq1 : dat.q 1 = fullShare.right)
    (Fv : (w : Fin cfg0.W) → Buf (Elt F) ((cfg0.win w).arr.view.loc (c : Thread nD τ))) :
    (dat.arrays Fv : sProp 𝕄)
      = iprop((((c : Thread nD τ).loc (Pipeline.arrRef spec0 0)) ↦{fullShare.left} Fv 0) ∗ (((c : Thread nD τ).loc (Pipeline.arrRef spec0 1)) ↦{fullShare.right} Fv 1)
          ∗ (((c : Thread nD τ).loc (Pipeline.arrRef spec0 2)) ↦{fullShare} Fv 2) ∗ (((c : Thread nD τ).loc (Pipeline.arrRef spec0 3)) ↦{fullShare} Fv 3)) := by
  have s0 : dat.share 0 = fullShare.left := by unfold Dat.share; exact (if_neg (by decide)).trans hq0
  have s1 : dat.share 1 = fullShare.right := by unfold Dat.share; exact (if_neg (by decide)).trans hq1
  have s2 : dat.share 2 = fullShare := by unfold Dat.share; exact if_pos (by decide)
  have s3 : dat.share 3 = fullShare := by unfold Dat.share; exact if_pos (by decide)
  have h : (dat.arrays Fv : sProp 𝕄) = bigSep Finset.univ fun w : Fin 4 => (((c : Thread nD τ).loc (Pipeline.arrRef spec0 w)) ↦{dat.share w} Fv w : sProp 𝕄) := by
    unfold Dat.arrays
    exact bigSep_congr fun w _ => by rw [(arr_whole0 w).set_eq_univ]
  rw [h, bigSep_W0, s0, s1, s2, s3]

set_option maxHeartbeats 400000 in
/-- The distinct buffers behind the windows are three: the input array once, and the two output arrays. -/
theorem arrBufs0_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc (Pipeline.arrRef spec0 0)) ↦{fullShare} V (Pipeline.arrRef spec0 0)) ∗ (((c : Thread nD τ).loc (Pipeline.arrRef spec0 2)) ↦{fullShare} V (Pipeline.arrRef spec0 2))
          ∗ (((c : Thread nD τ).loc (Pipeline.arrRef spec0 3)) ↦{fullShare} V (Pipeline.arrRef spec0 3))) := by
  unfold Pipeline.arrBufs
  exact bigSep_eq_bigSepL_of_eq [Pipeline.arrRef spec0 0, Pipeline.arrRef spec0 2, Pipeline.arrRef spec0 3] (by decide) (by decide) _

/-- The core's unscoped buffers are the buffers behind the windows and the rest. -/
theorem unscopedBufs0_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) :=
  Pipeline.unscopedBufs_split₀ cfgs 0 winFacts₀0.arr_unscoped c V

set_option maxHeartbeats 400000 in
/-- ENTRY: the core's unscoped buffers at a valuation are the windows' arrays at the contents read off it — the
    shared input array split into its two half shares — and the unscoped rest. -/
theorem entry_arrays0 (c : Dev nD) (dat : Dat τ (Elt F) Unit ℕ (UR sig nD τ) ℕ cfg0 c)
    (hq0 : dat.q 0 = fullShare.left) (hq1 : dat.q 1 = fullShare.right)
    (W : Valuation τ sig (Elt F)) (hA : ∀ w, dat.A w = W (Pipeline.arrRef spec0 w)) :
    (StableHlo.held (c : Thread nD τ) (Pipeline.ucRefs τ sig) W : sProp 𝕄)
      ⊢ iprop(dat.arrays dat.A ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W, unscopedBufs0_split, arrBufs0_chain,
    arrays0_chain c dat hq0 hq1, hA 0, hA 1, hA 2, hA 3]
  have hsplit := (pointsTo_halves c (fun b => W b) (b := Pipeline.arrRef spec0 0) (b' := Pipeline.arrRef spec0 1) (by decide)).1
  refine sep_mono ?_ .rfl
  iintro ⟨H0, H2, H3⟩
  ihave H := hsplit $$ H0
  icases H with ⟨HL, HR⟩
  isplitl [HL]; · iexact HL
  isplitl [HR]; · iexact HR
  isplitl [H2]; · iexact H2
  iexact H3

set_option maxHeartbeats 400000 in
/-- EXIT: the windows' arrays at contents that a valuation has at them — the two half shares of the shared input
    array rejoined — and the unscoped rest at the entry valuation are the core's unscoped buffers at that valuation,
    which agrees with the entry one off the arrays. -/
theorem exit_arrays0 (c : Dev nD) (dat : Dat τ (Elt F) Unit ℕ (UR sig nD τ) ℕ cfg0 c)
    (hq0 : dat.q 0 = fullShare.left) (hq1 : dat.q 1 = fullShare.right) (W W' : Valuation τ sig (Elt F))
    (Fv : (w : Fin cfg0.W) → Buf (Elt F) ((cfg0.win w).arr.view.loc (c : Thread nD τ))) (hF : ∀ w, Fv w = W' (Pipeline.arrRef spec0 w))
    (hrest : ∀ b : Ref sig .tc, b ∉ Finset.univ.image (Pipeline.arrRef spec0) → W' b = W b) :
    iprop(dat.arrays Fv ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W', unscopedBufs0_split, arrBufs0_chain,
    arrays0_chain c dat hq0 hq1, hF 0, hF 1, hF 2, hF 3]
  refine sep_mono ?_ (Entails.of_eq ?_)
  · iintro ⟨HL, HR, H2, H3⟩
    isplitl [HL HR]
    · iapply (pointsTo_halves c (fun b => W' b) (b := Pipeline.arrRef spec0 0) (b' := Pipeline.arrRef spec0 1) (by decide)).2
      isplitl [HL]; · iexact HL
      iexact HR
    isplitl [H2]; · iexact H2
    iexact H3
  · unfold Pipeline.unscopedRest
    exact bigSep_congr fun b hb => by
      beta_reduce
      rw [hrest b (Finset.mem_sdiff.mp hb).2]

/-! ## pallas_call 1 -/

set_option maxHeartbeats 400000 in
/-- The windows' arrays one by one: the two input windows hold the one input array at the left and the right half
    share, the two output windows their own arrays in full; every array is a whole buffer. -/
theorem arrays1_chain (c : Dev nD) (dat : Dat τ (Elt F) Unit ℕ (UR sig nD τ) ℕ cfg1 c)
    (hq0 : dat.q 0 = fullShare.left) (hq1 : dat.q 1 = fullShare.right)
    (Fv : (w : Fin cfg1.W) → Buf (Elt F) ((cfg1.win w).arr.view.loc (c : Thread nD τ))) :
    (dat.arrays Fv : sProp 𝕄)
      = iprop((((c : Thread nD τ).loc (Pipeline.arrRef spec1 0)) ↦{fullShare.left} Fv 0) ∗ (((c : Thread nD τ).loc (Pipeline.arrRef spec1 1)) ↦{fullShare.right} Fv 1)
          ∗ (((c : Thread nD τ).loc (Pipeline.arrRef spec1 2)) ↦{fullShare} Fv 2) ∗ (((c : Thread nD τ).loc (Pipeline.arrRef spec1 3)) ↦{fullShare} Fv 3)) := by
  have s0 : dat.share 0 = fullShare.left := by unfold Dat.share; exact (if_neg (by decide)).trans hq0
  have s1 : dat.share 1 = fullShare.right := by unfold Dat.share; exact (if_neg (by decide)).trans hq1
  have s2 : dat.share 2 = fullShare := by unfold Dat.share; exact if_pos (by decide)
  have s3 : dat.share 3 = fullShare := by unfold Dat.share; exact if_pos (by decide)
  have h : (dat.arrays Fv : sProp 𝕄) = bigSep Finset.univ fun w : Fin 4 => (((c : Thread nD τ).loc (Pipeline.arrRef spec1 w)) ↦{dat.share w} Fv w : sProp 𝕄) := by
    unfold Dat.arrays
    exact bigSep_congr fun w _ => by rw [(arr_whole1 w).set_eq_univ]
  rw [h, bigSep_W1, s0, s1, s2, s3]

set_option maxHeartbeats 400000 in
/-- The distinct buffers behind the windows are three: the input array once, and the two output arrays. -/
theorem arrBufs1_chain (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc (Pipeline.arrRef spec1 0)) ↦{fullShare} V (Pipeline.arrRef spec1 0)) ∗ (((c : Thread nD τ).loc (Pipeline.arrRef spec1 2)) ↦{fullShare} V (Pipeline.arrRef spec1 2))
          ∗ (((c : Thread nD τ).loc (Pipeline.arrRef spec1 3)) ↦{fullShare} V (Pipeline.arrRef spec1 3))) := by
  unfold Pipeline.arrBufs
  exact bigSep_eq_bigSepL_of_eq [Pipeline.arrRef spec1 0, Pipeline.arrRef spec1 2, Pipeline.arrRef spec1 3] (by decide) (by decide) _

/-- The core's unscoped buffers are the buffers behind the windows and the rest. -/
theorem unscopedBufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ cfgs 1 winFacts₀1.arr_unscoped c V

set_option maxHeartbeats 400000 in
/-- ENTRY: the core's unscoped buffers at a valuation are the windows' arrays at the contents read off it — the
    shared input array split into its two half shares — and the unscoped rest. -/
theorem entry_arrays1 (c : Dev nD) (dat : Dat τ (Elt F) Unit ℕ (UR sig nD τ) ℕ cfg1 c)
    (hq0 : dat.q 0 = fullShare.left) (hq1 : dat.q 1 = fullShare.right)
    (W : Valuation τ sig (Elt F)) (hA : ∀ w, dat.A w = W (Pipeline.arrRef spec1 w)) :
    (StableHlo.held (c : Thread nD τ) (Pipeline.ucRefs τ sig) W : sProp 𝕄)
      ⊢ iprop(dat.arrays dat.A ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W, unscopedBufs1_split, arrBufs1_chain,
    arrays1_chain c dat hq0 hq1, hA 0, hA 1, hA 2, hA 3]
  have hsplit := (pointsTo_halves c (fun b => W b) (b := Pipeline.arrRef spec1 0) (b' := Pipeline.arrRef spec1 1) (by decide)).1
  refine sep_mono ?_ .rfl
  iintro ⟨H0, H2, H3⟩
  ihave H := hsplit $$ H0
  icases H with ⟨HL, HR⟩
  isplitl [HL]; · iexact HL
  isplitl [HR]; · iexact HR
  isplitl [H2]; · iexact H2
  iexact H3

set_option maxHeartbeats 400000 in
/-- EXIT: the windows' arrays at contents that a valuation has at them — the two half shares of the shared input
    array rejoined — and the unscoped rest at the entry valuation are the core's unscoped buffers at that valuation,
    which agrees with the entry one off the arrays. -/
theorem exit_arrays1 (c : Dev nD) (dat : Dat τ (Elt F) Unit ℕ (UR sig nD τ) ℕ cfg1 c)
    (hq0 : dat.q 0 = fullShare.left) (hq1 : dat.q 1 = fullShare.right) (W W' : Valuation τ sig (Elt F))
    (Fv : (w : Fin cfg1.W) → Buf (Elt F) ((cfg1.win w).arr.view.loc (c : Thread nD τ))) (hF : ∀ w, Fv w = W' (Pipeline.arrRef spec1 w))
    (hrest : ∀ b : Ref sig .tc, b ∉ Finset.univ.image (Pipeline.arrRef spec1) → W' b = W b) :
    iprop(dat.arrays Fv ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W', unscopedBufs1_split, arrBufs1_chain,
    arrays1_chain c dat hq0 hq1, hF 0, hF 1, hF 2, hF 3]
  refine sep_mono ?_ (Entails.of_eq ?_)
  · iintro ⟨HL, HR, H2, H3⟩
    isplitl [HL HR]
    · iapply (pointsTo_halves c (fun b => W' b) (b := Pipeline.arrRef spec1 0) (b' := Pipeline.arrRef spec1 1) (by decide)).2
      isplitl [HL]; · iexact HL
      iexact HR
    isplitl [H2]; · iexact H2
    iexact H3
  · unfold Pipeline.unscopedRest
    exact bigSep_congr fun b hb => by
      beta_reduce
      rw [hrest b (Finset.mem_sdiff.mp hb).2]

end Cert.Kernel.Hand

end
-- ==== Proof.KBRegions.lean ====
/-
  The run of the whole program: @main's five items — host operations, the first similarity-statistics kernel on the
  upper half, two reshapes, the second kernel on the lower half, the host operations that combine the results — as
  segments, each kernel region entered from the buffers as the item before left them and left with its two outputs at
  what its pipeline wrote back; every weakly fair execution terminates with the result buffer at the last
  valuation and the argument unchanged.
-/
import proofs.«168013_j80238579024621_1_alg».proof.Proof.KBFrame
import proofs.«168013_j80238579024621_1_alg».proof.Proof.KBShare
import proofs.«168013_j80238579024621_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each region's entry, and what each region leaves -/

/-- The buffers when the first kernel is entered. -/
abbrev E1 : (c : Dev nD) → (b : Ref sig .tc) → Buf (Elt F) ((c : Thread nD τ).loc b) := fun c b => V1 m c b

/-- The buffers after the first kernel: its two outputs at what its pipeline wrote back. -/
def res0 (c : Dev nD) : (r : Ref sig .tc) → Buf (Elt F) ((c : Thread nD τ).loc r) :=
  Function.update (Function.update (fun r => E1 m c r) main_v19_0 ((dat0 (E1 m) c).arrAt 2 cfg0.N)) main_v19_1 ((dat0 (E1 m) c).arrAt 3 cfg0.N)
/-- The first kernel's outputs as the unknowns of the generated valuations. -/
def outsA : Outs (F := F) := fun _ r c => res0 m c r
/-- The buffers when the second kernel is entered. -/
abbrev E3 : (c : Dev nD) → (b : Ref sig .tc) → Buf (Elt F) ((c : Thread nD τ).loc b) := fun c b => V3 m (outsA m) c b
/-- The buffers after the second kernel. -/
def res1 (c : Dev nD) : (r : Ref sig .tc) → Buf (Elt F) ((c : Thread nD τ).loc r) :=
  Function.update (Function.update (fun r => E3 m c r) main_v22_0 ((dat1 (E3 m) c).arrAt 2 cfg1.N)) main_v22_1 ((dat1 (E3 m) c).arrAt 3 cfg1.N)
/-- What the two kernels leave, as the generated valuations read it: after item 1 the first kernel's outputs, after
    item 3 the second's. -/
def outs : Outs (F := F) := fun J r c => if J = 2 then res0 m c r else res1 m c r

theorem outs_19_0 (c : Dev nD) : outs m 2 main_v19_0 c = (dat0 (E1 m) c).arrAt 2 cfg0.N := by
  show (if (2 : ℕ) = 2 then res0 m c main_v19_0 else _) = _
  rw [if_pos rfl]; unfold res0
  rw [Function.update_of_ne (by decide : (main_v19_0 : Ref sig .tc) ≠ main_v19_1), Function.update_self]
theorem outs_19_1 (c : Dev nD) : outs m 2 main_v19_1 c = (dat0 (E1 m) c).arrAt 3 cfg0.N := by
  show (if (2 : ℕ) = 2 then res0 m c main_v19_1 else _) = _
  rw [if_pos rfl]; unfold res0
  rw [Function.update_self]
theorem outs_22_0 (c : Dev nD) : outs m 4 main_v22_0 c = (dat1 (E3 m) c).arrAt 2 cfg1.N := by
  show (if (4 : ℕ) = 2 then _ else res1 m c main_v22_0) = _
  rw [if_neg (by decide)]; unfold res1
  rw [Function.update_of_ne (by decide : (main_v22_0 : Ref sig .tc) ≠ main_v22_1), Function.update_self]
theorem outs_22_1 (c : Dev nD) : outs m 4 main_v22_1 c = (dat1 (E3 m) c).arrAt 3 cfg1.N := by
  show (if (4 : ℕ) = 2 then _ else res1 m c main_v22_1) = _
  rw [if_neg (by decide)]; unfold res1
  rw [Function.update_self]
/-- After item 1 the two families of unknowns agree. -/
theorem outs_two : outs m 2 = outsA m 2 := by
  funext r c; show (if (2 : ℕ) = 2 then res0 m c r else _) = _; rw [if_pos rfl]; rfl
theorem V2_outs (c : Dev nD) : V2 m (outs m) c = V2 m (outsA m) c := by
  show Function.update (Function.update (V1 m c) main_v19_0 (outs m 2 main_v19_0 c)) main_v19_1 (outs m 2 main_v19_1 c) = _
  rw [outs_two]
theorem V3_outs (c : Dev nD) : V3 m (outs m) c = V3 m (outsA m) c := by
  show StableHlo.after hostOps1 (V2 m (outs m) c) = _
  rw [V2_outs]

/-- The valuation after the first kernel at its output buffers. -/
theorem V2_19_0 (c : Dev nD) : V2 m (outs m) c main_v19_0 = (dat0 (E1 m) c).arrAt 2 cfg0.N := by
  show Function.update (Function.update (V1 m c) main_v19_0 (outs m 2 main_v19_0 c)) main_v19_1 (outs m 2 main_v19_1 c) main_v19_0 = _
  rw [Function.update_of_ne (StableHlo.devRef_ne_of_ne (by decide) : (Proc.devRef .tc main_v19_0 : DevRef τ sig) ≠ Proc.devRef .tc main_v19_1), Function.update_self, outs_19_0]
theorem V2_19_1 (c : Dev nD) : V2 m (outs m) c main_v19_1 = (dat0 (E1 m) c).arrAt 3 cfg0.N := by
  show Function.update (Function.update (V1 m c) main_v19_0 (outs m 2 main_v19_0 c)) main_v19_1 (outs m 2 main_v19_1 c) main_v19_1 = _
  rw [Function.update_self, outs_19_1]
theorem V4_22_0 (c : Dev nD) : V4 m (outs m) c main_v22_0 = (dat1 (E3 m) c).arrAt 2 cfg1.N := by
  show Function.update (Function.update (V3 m (outs m) c) main_v22_0 (outs m 4 main_v22_0 c)) main_v22_1 (outs m 4 main_v22_1 c) main_v22_0 = _
  rw [Function.update_of_ne (StableHlo.devRef_ne_of_ne (by decide) : (Proc.devRef .tc main_v22_0 : DevRef τ sig) ≠ Proc.devRef .tc main_v22_1), Function.update_self, outs_22_0]
theorem V4_22_1 (c : Dev nD) : V4 m (outs m) c main_v22_1 = (dat1 (E3 m) c).arrAt 3 cfg1.N := by
  show Function.update (Function.update (V3 m (outs m) c) main_v22_0 (outs m 4 main_v22_0 c)) main_v22_1 (outs m 4 main_v22_1 c) main_v22_1 = _
  rw [Function.update_self, outs_22_1]

/-- At the first kernel's exit each of its arrays holds what the valuation after it says. -/
theorem hF0 (c : Dev nD) : ∀ w : Fin cfg0.W, (dat0 (E1 m) c).arrAt w cfg0.N = V2 m (outs m) c (Pipeline.arrRef spec0 w) := fun
  | ⟨0, _⟩ => ((dat0 (E1 m) c).arrAt_in 0 rfl _).trans ((A_eq0 (E1 m) c 0).trans (V2_of m (outs m) c main_v0 (by decide)).symm)
  | ⟨1, _⟩ => ((dat0 (E1 m) c).arrAt_in 1 rfl _).trans ((A_eq0 (E1 m) c 1).trans (V2_of m (outs m) c main_v0 (by decide)).symm)
  | ⟨2, _⟩ => (V2_19_0 m c).symm
  | ⟨3, _⟩ => (V2_19_1 m c).symm
theorem hrest0 (c : Dev nD) : ∀ b : Ref sig .tc, b ∉ Finset.univ.image (Pipeline.arrRef spec0) → V2 m (outs m) c b = V1 m c b :=
  fun b hb => V2_of m (outs m) c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · exact absurd hmem (List.not_mem_nil))
theorem hF1 (c : Dev nD) : ∀ w : Fin cfg1.W, (dat1 (E3 m) c).arrAt w cfg1.N = V4 m (outs m) c (Pipeline.arrRef spec1 w) := fun
  | ⟨0, _⟩ => ((dat1 (E3 m) c).arrAt_in 0 rfl _).trans ((A_eq1 (E3 m) c 0).trans ((congrFun (V3_outs m c) _).symm.trans (V4_of m (outs m) c main_v1 (by decide)).symm))
  | ⟨1, _⟩ => ((dat1 (E3 m) c).arrAt_in 1 rfl _).trans ((A_eq1 (E3 m) c 1).trans ((congrFun (V3_outs m c) _).symm.trans (V4_of m (outs m) c main_v1 (by decide)).symm))
  | ⟨2, _⟩ => (V4_22_0 m c).symm
  | ⟨3, _⟩ => (V4_22_1 m c).symm
theorem hrest1 (c : Dev nD) : ∀ b : Ref sig .tc, b ∉ Finset.univ.image (Pipeline.arrRef spec1) → V4 m (outs m) c b = V3 m (outs m) c b :=
  fun b hb => V4_of m (outs m) c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · exact absurd hmem (List.not_mem_nil))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c
/-- No core owes another anything: no level is assigned. -/
abbrev L0 : GSem nD τ sig → Finset Unit := fun _ => ∅
abbrev lv0 : GSem nD τ sig → Unit → ℕ := fun _ _ => 0
/-- What rides beside the buffers through every item: the core's generator register at some state and its dues, none. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

set_option backward.isDefEq.respectTransparency.types false in
/-- The first kernel region: entered from the buffers after the first host stretch, left with its two outputs at what
    the pipeline wrote back; the one input array split between its two windows at entry and rejoined at exit. -/
def reg0 : Pipeline.RegionSeg (pcfgs (F := F)) adm (pdats m) () defs₀ Variants.none L0 lv0 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L0 lv0 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := entry_arrays0 (F := F) c (pdats m 0 c) rfl rfl (V1 m c) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    refine (hout0 (E1 m) c).trans ?_
    rw [Pipeline.ownSems0_none]; unfold Pipeline.ΦA
    iintro ⟨Hr, Hp⟩
    isplitl [Hp]; · iexact Hp
    isplitr; · iempintro
    iexact Hr
  hexit c := by
    have hjoin := exit_arrays0 (F := F) c (pdats m 0 c) rfl rfl (V1 m c) (V2 m (outs m) c) ((pdats m 0 c).arrAt · cfg0.N) (hF0 m c) (hrest0 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region, on the lower half, the same way. -/
def reg1 : Pipeline.RegionSeg (pcfgs (F := F)) adm (pdats m) () defs₀ Variants.none L0 lv0 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L0 lv0 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := entry_arrays1 (F := F) c (pdats m 1 c) rfl rfl (V3 m (outs m) c) (fun w => (congrFun (V3_outs m c) _).symm)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E3 m) c)
    unfold Pipeline.ΦA
    iintro ⟨Hp, -, Hr⟩
    isplitl [Hr]; · iexact Hr
    iexact Hp
  hout c := by
    refine (hout1 (E3 m) c).trans ?_
    rw [Pipeline.ownSems0_none]; unfold Pipeline.ΦA
    iintro ⟨Hr, Hp⟩
    isplitl [Hp]; · iexact Hp
    isplitr; · iempintro
    iexact Hr
  hexit c := by
    have hjoin := exit_arrays1 (F := F) c (pdats m 1 c) rfl rfl (V3 m (outs m) c) (V4 m (outs m) c) ((pdats m 1 c).arrAt · cfg1.N) (hF1 m c) (hrest1 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory m terminates, nothing faulting, with the result buffer at the
    last valuation (the host tail applied to the two kernels' outputs and the positive term) and the argument as
    launched. -/
theorem run_value : θ_run defs (onTc (τ := τ) (main (F := F))) ⟨m, fun _ => 0, ρ⟩ (fun r => ∀ c : Dev nD,
      r.2.mem ((c.tc : Thread nD τ).loc main_v31) = V5 m (outs m) c main_v31
      ∧ r.2.mem ((c.tc : Thread nD τ).loc main_arg0) = m ((c.tc : Thread nD τ).loc main_arg0)) := by
  refine Pipeline.θ_run_regions_kit_dev (pcfgs (F := F)) adm (pdats m) () cellOf_inj emb₁ defs₀ Variants.none L0 lv0 m ρ main
    (segs m (outs m) Variants.none L0 lv0 (Est (F := F)) () (pdats m) (reg0 m) (reg1 m))
    (fun c Q => by
      rewrite [main_chain c, Pipeline.Seg.run_eq_chain,
        show (segs m (outs m) Variants.none L0 lv0 (Est (F := F)) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V5 m (outs m) c))
    (hch := fun c => ⟨.rfl, .rfl, .rfl, .rfl, .rfl, sep_mono .rfl (by iintro ⟨-, HO⟩; iexact HO)⟩)
    (hinit := ?_)
    (QY := fun c s => s.mem ((c.tc : Thread nD τ).loc main_v31) = V5 m (outs m) c main_v31
      ∧ s.mem ((c.tc : Thread nD τ).loc main_arg0) = m ((c.tc : Thread nD τ).loc main_arg0))
    (hfin := fun c s' => ?_) (hQ := fun _ h => h)
  · refine Pipeline.initEach L0 lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v31) (Finset.mem_filter.mpr ⟨StableHlo.devRef_mem_tcRefs main_v31, by decide⟩),
        (h (Proc.devRef .tc main_arg0) (Finset.mem_filter.mpr ⟨StableHlo.devRef_mem_tcRefs main_arg0, by decide⟩)).trans (V5_main_arg0 m (outs m) c)⟩
    · iexact HSI

end Cert.Kernel.Hand

end
-- ==== Proof.KIShared.lean ====
/-
  What the body runs of the two similarity-statistics kernels share: the two branch conditions of the body
  (the accumulators are reset at the first grid point only, the outputs written at the last grid point only)
  decided over the 16 × 16 grid, and the staging and scratch memrefs the body is called with at a point.
-/
import proofs.«168013_j80238579024621_1_alg».proof.Proof.Gen.KernelIdeal.Launch
import proofs.«168013_j80238579024621_1_alg».proof.Proof.Gen.KernelIdeal.Skeleton
import proofs.«168013_j80238579024621_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## pallas_call 0 -/

/-- The body resets its two accumulators when both grid coordinates are zero. -/
abbrev condR0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first grid point only. -/
theorem hcondR0 : ∀ t : Fin cfg0.N, condR0 (grid0.coords t) ↔ t.val = 0 :=
  (by decide +kernel : ∀ t : Fin grid0.N, condR0 (grid0.coords t) ↔ t.val = 0)

/-- The body writes its two outputs when both grid coordinates are 15. -/
abbrev condW0 (i : grid0.Coords) : Prop := k0_cond2 i = 1#1
/-- That is the last grid point only. -/
theorem hcondW0 : ∀ t : Fin cfg0.N, condW0 (grid0.coords t) ↔ t.val = 255 :=
  (by decide +kernel : ∀ t : Fin grid0.N, condW0 (grid0.coords t) ↔ t.val = 255)

/-- The grid is walked row-major: point t is tile (t / 16, t % 16). -/
theorem coords0_0 : ∀ t : Fin cfg0.N, (grid0.coords t 0).val = t.val / 16 :=
  (by decide +kernel : ∀ t : Fin grid0.N, (grid0.coords t 0).val = t.val / 16)
theorem coords0_1 : ∀ t : Fin cfg0.N, (grid0.coords t 1).val = t.val % 16 :=
  (by decide +kernel : ∀ t : Fin grid0.N, (grid0.coords t 1).val = t.val % 16)

/-- Each window's current staging memref at point t, as the pipeline passes it, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The two running sums: whole scoped buffers of the kernel's own, carried from point to point. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view
/-- One staging buffer of each output window, through which its contents are stated. -/
abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view

/-! ## pallas_call 1 -/

/-- The body resets its two accumulators when both grid coordinates are zero. -/
abbrev condR1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first grid point only. -/
theorem hcondR1 : ∀ t : Fin cfg1.N, condR1 (grid1.coords t) ↔ t.val = 0 :=
  (by decide +kernel : ∀ t : Fin grid1.N, condR1 (grid1.coords t) ↔ t.val = 0)

/-- The body writes its two outputs when both grid coordinates are 15. -/
abbrev condW1 (i : grid1.Coords) : Prop := k1_cond2 i = 1#1
/-- That is the last grid point only. -/
theorem hcondW1 : ∀ t : Fin cfg1.N, condW1 (grid1.coords t) ↔ t.val = 255 :=
  (by decide +kernel : ∀ t : Fin grid1.N, condW1 (grid1.coords t) ↔ t.val = 255)

/-- The grid is walked row-major: point t is tile (t / 16, t % 16). -/
theorem coords1_0 : ∀ t : Fin cfg1.N, (grid1.coords t 0).val = t.val / 16 :=
  (by decide +kernel : ∀ t : Fin grid1.N, (grid1.coords t 0).val = t.val / 16)
theorem coords1_1 : ∀ t : Fin cfg1.N, (grid1.coords t 1).val = t.val % 16 :=
  (by decide +kernel : ∀ t : Fin grid1.N, (grid1.coords t 1).val = t.val % 16)

/-- Each window's current staging memref at point t, as the pipeline passes it, and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The two running sums: whole scoped buffers of the kernel's own, carried from point to point. -/
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view
/-- One staging buffer of each output window, through which its contents are stated. -/
abbrev VO1_2 : View sig .tc .vmem S1x1 .f32 := (Memref.whole cc1_stg2_0 : Memref sig .tc .vmem S1x1 .f32).view
abbrev VO1_3 : View sig .tc .vmem S1x1 .f32 := (Memref.whole cc1_stg3_0 : Memref sig .tc .vmem S1x1 .f32).view

end Cert.KernelIdeal.Hand

end
-- ==== Proof.KIRun0A.lean ====
/-
  The body of similarity-statistics kernel 0 run at the first grid point (the running sums reset, the outputs untouched): on whole staging memrefs holding the two row
  blocks, the body ends with each running sum's buffer overwritten by the pieces the run finds.
-/
import proofs.«168013_j80238579024621_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i)
    (x0 x1 : Vec F S512x128 .f32) :
    Σ' (LS0 : List (View.Piece (Elt F) S1x1 .f32)), { LS1 : List (View.Piece (Elt F) S1x1 .f32) //
      ∀ (xi2 xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__negstats_kernel i arg2 harg2 arg3 harg3 arg4 harg4 arg5 harg5 arg6 harg6 arg7 harg7) K } := by
  refine ⟨?_, ?_, fun xi2 xi3 E K => ?run⟩
  case run =>
    simp only [cc0__negstats_kernel_eq_skeleton]; unfold cc0__negstats_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRun0B.lean ====
/-
  The body of similarity-statistics kernel 0 run at a middle grid point (the running sums carried, the outputs untouched): on whole staging memrefs holding the two row
  blocks, the body ends with each running sum's buffer overwritten by the pieces the run finds.
-/
import proofs.«168013_j80238579024621_1_alg».proof.Proof.KIRun0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i)
    (x0 x1 : Vec F S512x128 .f32) (xs0 xs1 : Vec F S1x1 .f32) :
    Σ' (LS0 : List (View.Piece (Elt F) S1x1 .f32)), { LS1 : List (View.Piece (Elt F) S1x1 .f32) //
      ∀ (xi2 xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__negstats_kernel i arg2 harg2 arg3 harg3 arg4 harg4 arg5 harg5 arg6 harg6 arg7 harg7) K } := by
  refine ⟨?_, ?_, fun xi2 xi3 E K => ?run⟩
  case run =>
    simp only [cc0__negstats_kernel_eq_skeleton]; unfold cc0__negstats_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRun0C.lean ====
/-
  The body of similarity-statistics kernel 0 run at the last grid point (the running sums carried, then copied to the outputs): on whole staging memrefs holding the two row
  blocks, the body ends with each running sum's buffer overwritten by the pieces the run finds.
-/
import proofs.«168013_j80238579024621_1_alg».proof.Proof.KIRun0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i)
    (x0 x1 : Vec F S512x128 .f32) (xs0 xs1 : Vec F S1x1 .f32) :
    Σ' (L2 : List (View.Piece (Elt F) S1x1 .f32)) (L3 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__negstats_kernel i arg2 harg2 arg3 harg3 arg4 harg4 arg5 harg5 arg6 harg6 arg7 harg7) K } := by
  refine ⟨?_, ?_, ?_, ?_, fun E K => ?run⟩
  case run =>
    simp only [cc0__negstats_kernel_eq_skeleton]; unfold cc0__negstats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KIRun1A.lean ====
/-
  The body of similarity-statistics kernel 1 run at the first grid point (the running sums reset, the outputs untouched): on whole staging memrefs holding the two row
  blocks, the body ends with each running sum's buffer overwritten by the pieces the run finds.
-/
import proofs.«168013_j80238579024621_1_alg».proof.Proof.KIRun0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i)
    (x0 x1 : Vec F S512x128 .f32) :
    Σ' (LS0 : List (View.Piece (Elt F) S1x1 .f32)), { LS1 : List (View.Piece (Elt F) S1x1 .f32) //
      ∀ (xi2 xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__negstats_kernel i arg2 harg2 arg3 harg3 arg4 harg4 arg5 harg5 arg6 harg6 arg7 harg7) K } := by
  refine ⟨?_, ?_, fun xi2 xi3 E K => ?run⟩
  case run =>
    simp only [cc1__negstats_kernel_eq_skeleton]; unfold cc1__negstats_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRun1B.lean ====
/-
  The body of similarity-statistics kernel 1 run at a middle grid point (the running sums carried, the outputs untouched): on whole staging memrefs holding the two row
  blocks, the body ends with each running sum's buffer overwritten by the pieces the run finds.
-/
import proofs.«168013_j80238579024621_1_alg».proof.Proof.KIRun1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i)
    (x0 x1 : Vec F S512x128 .f32) (xs0 xs1 : Vec F S1x1 .f32) :
    Σ' (LS0 : List (View.Piece (Elt F) S1x1 .f32)), { LS1 : List (View.Piece (Elt F) S1x1 .f32) //
      ∀ (xi2 xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__negstats_kernel i arg2 harg2 arg3 harg3 arg4 harg4 arg5 harg5 arg6 harg6 arg7 harg7) K } := by
  refine ⟨?_, ?_, fun xi2 xi3 E K => ?run⟩
  case run =>
    simp only [cc1__negstats_kernel_eq_skeleton]; unfold cc1__negstats_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRun1C.lean ====
/-
  The body of similarity-statistics kernel 1 run at the last grid point (the running sums carried, then copied to the outputs): on whole staging memrefs holding the two row
  blocks, the body ends with each running sum's buffer overwritten by the pieces the run finds.
-/
import proofs.«168013_j80238579024621_1_alg».proof.Proof.KIRun1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave, with the proof that the body runs to a continuation holding them. -/
noncomputable def run1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i)
    (x0 x1 : Vec F S512x128 .f32) (xs0 xs1 : Vec F S1x1 .f32) :
    Σ' (L2 : List (View.Piece (Elt F) S1x1 .f32)) (L3 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__negstats_kernel i arg2 harg2 arg3 harg3 arg4 harg4 arg5 harg5 arg6 harg6 arg7 harg7) K } := by
  refine ⟨?_, ?_, ?_, ?_, fun E K => ?run⟩
  case run =>
    simp only [cc1__negstats_kernel_eq_skeleton]; unfold cc1__negstats_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KIFrame.lean ====
/-
  The two similarity-statistics kernels, each at the buffer contents V it is entered from: what a grid point leaves
  in the running sums and the outputs (the pieces the body's runs find), the accumulation point by point, the
  pipeline's proof data — the two input windows read ONE array, half of its share each — and the body obligation.
-/
import proofs.«168013_j80238579024621_1_alg».proof.Proof.KIRun1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # pallas_call 0, entered at buffer contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The input windows are live at every point; the output windows are idle (neither stored into nor written back)
    except at the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬condW0 (grid0.coords t) → cfg0.idle 2 (grid0.coords t) = true := by decide +kernel
theorem idleAt0_3 : ∀ t : Fin cfg0.N, ¬condW0 (grid0.coords t) → cfg0.idle 3 (grid0.coords t) = true := by decide +kernel
theorem noFlush0_2 : ∀ t : Fin cfg0.N, ¬condW0 (grid0.coords t) → (cfg0.win 2).flush t = false := by decide +kernel
theorem noFlush0_3 : ∀ t : Fin cfg0.N, ¬condW0 (grid0.coords t) → (cfg0.win 3).flush t = false := by decide +kernel
theorem liveAt0_2 : ∀ t : Fin cfg0.N, condW0 (grid0.coords t) → cfg0.idle 2 (grid0.coords t) = false := by decide +kernel
theorem liveAt0_3 : ∀ t : Fin cfg0.N, condW0 (grid0.coords t) → cfg0.idle 3 (grid0.coords t) = false := by decide +kernel

/-- What the run at a point of this kind leaves in running sum 0: its pieces read back. -/
def sout0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) : Vec F S1x1 .f32 :=
  VS0_0.read (Elt F) (VS0_0.writes (Elt F) VS0_0.junk (run0_A c i arg2 harg2 arg3 harg3 arg4 harg4 arg5 harg5 arg6 harg6 arg7 harg7 hc0 hc1 x0 x1).1)
/-- Those pieces cover the one-element buffer. -/
theorem scover0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) (y : S1x1.Idx) :
    ∃ pc ∈ (run0_A c i arg2 harg2 arg3 harg3 arg4 harg4 arg5 harg5 arg6 harg6 arg7 harg7 hc0 hc1 x0 x1).1, y ∈ pc.1.set :=
  View.cover_of_tiledL ((run0_A c i arg2 harg2 arg3 harg3 arg4 harg4 arg5 harg5 arg6 harg6 arg7 harg7 hc0 hc1 x0 x1).1) S1x1.size (by sl_kernel_rfl) y

/-- What the run at a point of this kind leaves in running sum 1: its pieces read back. -/
def sout0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) : Vec F S1x1 .f32 :=
  VS0_1.read (Elt F) (VS0_1.writes (Elt F) VS0_1.junk (run0_A c i arg2 harg2 arg3 harg3 arg4 harg4 arg5 harg5 arg6 harg6 arg7 harg7 hc0 hc1 x0 x1).2.1)
/-- Those pieces cover the one-element buffer. -/
theorem scover0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) (y : S1x1.Idx) :
    ∃ pc ∈ (run0_A c i arg2 harg2 arg3 harg3 arg4 harg4 arg5 harg5 arg6 harg6 arg7 harg7 hc0 hc1 x0 x1).2.1, y ∈ pc.1.set :=
  View.cover_of_tiledL ((run0_A c i arg2 harg2 arg3 harg3 arg4 harg4 arg5 harg5 arg6 harg6 arg7 harg7 hc0 hc1 x0 x1).2.1) S1x1.size (by sl_kernel_rfl) y

/-- What the run at a point of this kind leaves in running sum 0: its pieces read back. -/
def sout0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) : Vec F S1x1 .f32 :=
  VS0_0.read (Elt F) (VS0_0.writes (Elt F) VS0_0.junk (run0_B c i arg2 harg2 arg3 harg3 arg4 harg4 arg5 harg5 arg6 harg6 arg7 harg7 hc0 hc1 x0 x1 xs0 xs1).1)
/-- Those pieces cover the one-element buffer. -/
theorem scover0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) (y : S1x1.Idx) :
    ∃ pc ∈ (run0_B c i arg2 harg2 arg3 harg3 arg4 harg4 arg5 harg5 arg6 harg6 arg7 harg7 hc0 hc1 x0 x1 xs0 xs1).1, y ∈ pc.1.set :=
  View.cover_of_tiledL ((run0_B c i arg2 harg2 arg3 harg3 arg4 harg4 arg5 harg5 arg6 harg6 arg7 harg7 hc0 hc1 x0 x1 xs0 xs1).1) S1x1.size (by sl_kernel_rfl) y

/-- What the run at a point of this kind leaves in running sum 1: its pieces read back. -/
def sout0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) : Vec F S1x1 .f32 :=
  VS0_1.read (Elt F) (VS0_1.writes (Elt F) VS0_1.junk (run0_B c i arg2 harg2 arg3 harg3 arg4 harg4 arg5 harg5 arg6 harg6 arg7 harg7 hc0 hc1 x0 x1 xs0 xs1).2.1)
/-- Those pieces cover the one-element buffer. -/
theorem scover0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) (y : S1x1.Idx) :
    ∃ pc ∈ (run0_B c i arg2 harg2 arg3 harg3 arg4 harg4 arg5 harg5 arg6 harg6 arg7 harg7 hc0 hc1 x0 x1 xs0 xs1).2.1, y ∈ pc.1.set :=
  View.cover_of_tiledL ((run0_B c i arg2 harg2 arg3 harg3 arg4 harg4 arg5 harg5 arg6 harg6 arg7 harg7 hc0 hc1 x0 x1 xs0 xs1).2.1) S1x1.size (by sl_kernel_rfl) y

/-- What the run at a point of this kind leaves in running sum 0: its pieces read back. -/
def sout0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) : Vec F S1x1 .f32 :=
  VS0_0.read (Elt F) (VS0_0.writes (Elt F) VS0_0.junk (run0_C c i arg2 harg2 arg3 harg3 arg4 harg4 arg5 harg5 arg6 harg6 arg7 harg7 hc0 hc1 x0 x1 xs0 xs1).2.2.1)
/-- Those pieces cover the one-element buffer. -/
theorem scover0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).2.2.1, y ∈ pc.1.set :=
  View.cover_of_tiledL ((run0_C c i arg2 harg2 arg3 harg3 arg4 harg4 arg5 harg5 arg6 harg6 arg7 harg7 hc0 hc1 x0 x1 xs0 xs1).2.2.1) S1x1.size (by sl_kernel_rfl) y

/-- What the run at a point of this kind leaves in running sum 1: its pieces read back. -/
def sout0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) : Vec F S1x1 .f32 :=
  VS0_1.read (Elt F) (VS0_1.writes (Elt F) VS0_1.junk (run0_C c i arg2 harg2 arg3 harg3 arg4 harg4 arg5 harg5 arg6 harg6 arg7 harg7 hc0 hc1 x0 x1 xs0 xs1).2.2.2.1)
/-- Those pieces cover the one-element buffer. -/
theorem scover0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).2.2.2.1, y ∈ pc.1.set :=
  View.cover_of_tiledL ((run0_C c i arg2 harg2 arg3 harg3 arg4 harg4 arg5 harg5 arg6 harg6 arg7 harg7 hc0 hc1 x0 x1 xs0 xs1).2.2.2.1) S1x1.size (by sl_kernel_rfl) y

/-- What the last point leaves in output 0's staging buffer: its pieces read back. -/
def out0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) : Vec F S1x1 .f32 :=
  VO0_2.read (Elt F) (VO0_2.writes (Elt F) VO0_2.junk (run0_C c i arg2 harg2 arg3 harg3 arg4 harg4 arg5 harg5 arg6 harg6 arg7 harg7 hc0 hc1 x0 x1 xs0 xs1).1)
theorem cover0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).1, y ∈ pc.1.set :=
  View.cover_of_tiledL ((run0_C c i arg2 harg2 arg3 harg3 arg4 harg4 arg5 harg5 arg6 harg6 arg7 harg7 hc0 hc1 x0 x1 xs0 xs1).1) S1x1.size (by sl_kernel_rfl) y

/-- What the last point leaves in output 1's staging buffer: its pieces read back. -/
def out0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) : Vec F S1x1 .f32 :=
  VO0_3.read (Elt F) (VO0_3.writes (Elt F) VO0_3.junk (run0_C c i arg2 harg2 arg3 harg3 arg4 harg4 arg5 harg5 arg6 harg6 arg7 harg7 hc0 hc1 x0 x1 xs0 xs1).2.1)
theorem cover0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).2.1, y ∈ pc.1.set :=
  View.cover_of_tiledL ((run0_C c i arg2 harg2 arg3 harg3 arg4 harg4 arg5 harg5 arg6 harg6 arg7 harg7 hc0 hc1 x0 x1 xs0 xs1).2.1) S1x1.size (by sl_kernel_rfl) y

/-- THE ACCUMULATION. After the body at point n: the two outputs' staging buffers (nothing named before the last
    point) and the two running sums — at the first point what the reset-and-add run leaves, afterwards what the
    carried run leaves over the sums of the point before. -/
def outsAt0 (c : Dev nD) : (n : ℕ) → n < cfg0.N → (Vec F S1x1 .f32 × Vec F S1x1 .f32) × (Vec F S1x1 .f32 × Vec F S1x1 .f32)
  | 0, hn => ((VO0_2.read (Elt F) VO0_2.junk, VO0_3.read (Elt F) VO0_3.junk), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcondR0 ⟨0, hn⟩).mpr rfl) (fun h => absurd ((hcondW0 ⟨0, hn⟩).mp h) (show ¬ (0 : ℕ) = 255 by omega)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcondR0 ⟨0, hn⟩).mpr rfl) (fun h => absurd ((hcondW0 ⟨0, hn⟩).mp h) (show ¬ (0 : ℕ) = 255 by omega)) (iblk0 V c 0 ⟨0, hn⟩) (iblk0 V c 1 ⟨0, hn⟩)))
  | n + 1, hn =>
    if hW : n + 1 = 255 then
      ((out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) ((hcondW0 ⟨n + 1, hn⟩).mpr hW) (iblk0 V c 0 ⟨n + 1, hn⟩) (iblk0 V c 1 ⟨n + 1, hn⟩) (outsAt0 c n (Nat.lt_of_succ_lt hn)).2.1 (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) ((hcondW0 ⟨n + 1, hn⟩).mpr hW) (iblk0 V c 0 ⟨n + 1, hn⟩) (iblk0 V c 1 ⟨n + 1, hn⟩) (outsAt0 c n (Nat.lt_of_succ_lt hn)).2.1 (outsAt0 c n (Nat.lt_of_succ_lt hn)).2.2), (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) ((hcondW0 ⟨n + 1, hn⟩).mpr hW) (iblk0 V c 0 ⟨n + 1, hn⟩) (iblk0 V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) ((hcondW0 ⟨n + 1, hn⟩).mpr hW) (iblk0 V c 0 ⟨n + 1, hn⟩) (iblk0 V c 1 ⟨n + 1, hn⟩) (outsAt0 c n (Nat.lt_of_succ_lt hn)).2.1 (outsAt0 c n (Nat.lt_of_succ_lt hn)).2.2))
    else
      ((VO0_2.read (Elt F) VO0_2.junk, VO0_3.read (Elt F) VO0_3.junk), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) (fun h => hW ((hcondW0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcondR0 ⟨n + 1, hn⟩).mp h) (Nat.succ_ne_zero n)) (fun h => hW ((hcondW0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2))

theorem outsAt0_A (c : Dev nD) (t : Fin cfg0.N) (hz : t.val = 0) (hW : ¬t.val = 255) :
    outsAt0 V c t.val t.isLt = ((VO0_2.read (Elt F) VO0_2.junk, VO0_3.read (Elt F) VO0_3.junk), (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcondR0 t).mpr hz) (fun h => hW ((hcondW0 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcondR0 t).mpr hz) (fun h => hW ((hcondW0 t).mp h)) (iblk0 V c 0 t) (iblk0 V c 1 t))) := by
  obtain ⟨n, hn⟩ := t
  cases n with
  | zero => exact rfl
  | succ n => exact absurd hz (Nat.succ_ne_zero n)
theorem outsAt0_B (c : Dev nD) (t : Fin cfg0.N) (hz : ¬t.val = 0) (hW : ¬t.val = 255) :
    outsAt0 V c t.val t.isLt = ((VO0_2.read (Elt F) VO0_2.junk, VO0_3.read (Elt F) VO0_3.junk), (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) (fun h => hW ((hcondW0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) (fun h => hW ((hcondW0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact absurd rfl hz
  | succ n => exact (dif_neg hW).trans rfl
theorem outsAt0_C (c : Dev nD) (t : Fin cfg0.N) (hz : ¬t.val = 0) (hW : t.val = 255) :
    outsAt0 V c t.val t.isLt = ((out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) ((hcondW0 t).mpr hW) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) ((hcondW0 t).mpr hW) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2), (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) ((hcondW0 t).mpr hW) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz ((hcondR0 t).mp h)) ((hcondW0 t).mpr hW) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact absurd rfl hz
  | succ n => exact (dif_pos hW).trans rfl

/-- The core's scoped buffers that are no staging buffer of this call, with the two running sums at S0 and S1 and
    every other one at some contents. -/
abbrev wrap0 (c : Dev nD) (S0 S1 : sProp 𝕄) : sProp 𝕄 := iprop(S0 ∗ S1 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class's invariant is that, the running sums at some contents. -/
theorem PhiA0_eq (c : Dev nD) :
    (Pipeline.ΦA spec0 c : sProp 𝕄) = iprop(wrap0 c iprop(∃ f : Buf (Elt F) ((c : Thread nD τ).loc cc0_scratch0), ((c : Thread nD τ).loc cc0_scratch0) ↦{fullShare} f) iprop(∃ f : Buf (Elt F) ((c : Thread nD τ).loc cc0_scratch1), ((c : Thread nD τ).loc cc0_scratch1) ↦{fullShare} f) ∗ (∃ r, prngReg c r)) := by
  unfold Pipeline.ΦA; rw [scopedRest0_eq]

/-- The region invariant before position n: before the first point the class's; afterwards the running sums at what
    the point before left. -/
def PhiS0 (c : Dev nD) : (n : ℕ) → n ≤ cfg0.N → sProp 𝕄
  | 0, _ => Pipeline.ΦA spec0 c
  | n + 1, hn => iprop(wrap0 c (owns (c : Thread nD τ) scM0_0 fullShare ((outsAt0 V c n hn).2.1)) (owns (c : Thread nD τ) scM0_1 fullShare ((outsAt0 V c n hn).2.2)) ∗ (∃ r, prngReg c r))
theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(wrap0 c (owns (c : Thread nD τ) scM0_0 fullShare ((outsAt0 V c n hn).2.1)) (owns (c : Thread nD τ) scM0_1 fullShare ((outsAt0 V c n hn).2.2)) ∗ (∃ r, prngReg c r)) := rfl
theorem PhiS0_pos (c : Dev nD) (n : ℕ) (h : n ≤ cfg0.N) (hz : ¬n = 0) :
    PhiS0 V c n h = iprop(wrap0 c (owns (c : Thread nD τ) scM0_0 fullShare ((outsAt0 V c (n - 1) (by omega)).2.1)) (owns (c : Thread nD τ) scM0_1 fullShare ((outsAt0 V c (n - 1) (by omega)).2.2)) ∗ (∃ r, prngReg c r)) := by
  cases n with
  | zero => exact absurd rfl hz
  | succ n => rfl

/-- The proof data of this pipeline on core c: the arrays as the region finds them; the input windows (two
    windows of ONE array, each holding half of the full share of it) at their blocks; the outputs and the invariant
    by the accumulation; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1.1
    | ⟨3, _⟩ => (outsAt0 V c t.val t.isLt).1.2
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1.1 := by dsimp only [dat0]
theorem after0_3 (c : Dev nD) (t : Fin cfg0.N) : (dat0 V c).after 3 t = (outsAt0 V c t.val t.isLt).1.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 8000000 in
/-- The body at any point: the inputs' memrefs hold their blocks; the point is the first, a middle or the last one,
    and that kind's run applies; the invariant hands over the running sums and takes them back at this point's
    contents; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  by_cases hz : t.val = 0
  · have hW : ¬t.val = 255 := by omega
    rw [show (dat0 V c).leavesExact 0 t = owns (c : Thread nD τ) (ms0_0 t) fullShare ((dat0 V c).after 0 t) from by
              unfold Dat.leavesExact; rw [liveAt0_0 t], after0_0]
    rw [show (dat0 V c).leavesExact 1 t = owns (c : Thread nD τ) (ms0_1 t) fullShare ((dat0 V c).after 1 t) from by
              unfold Dat.leavesExact; rw [liveAt0_1 t], after0_1]
    rw [Dat.leavesExact_idle (dat0 V c) 2 t (idleAt0_2 t (fun h => hW ((hcondW0 t).mp h))) (noFlush0_2 t (fun h => hW ((hcondW0 t).mp h)))]
    rw [Dat.leavesExact_idle (dat0 V c) 3 t (idleAt0_3 t (fun h => hW ((hcondW0 t).mp h))) (noFlush0_3 t (fun h => hW ((hcondW0 t).mp h)))]
    rw [outsAt0_A V c t hz hW]
    unfold sout0_A_0 sout0_A_1; (try dsimp only)
    rw [PhiS0_castSucc V c t, PhiS0_zero V c _ _ hz, PhiA0_eq]
    iintro ⟨⟨⟨HS0, HS1, HR2, HR3, HR4, HR5, HR6, HR7, HR8, HR9⟩, Hg⟩, Ho, ⟨%d0, H0⟩, ⟨%d1, H1⟩, ⟨%d2, H2⟩, ⟨%d3, H3⟩⟩
    iapply ((run0_A c (grid0.coords t) _ _ _ _ _ _ _ _ _ _ _ _ ((hcondR0 t).mpr hz) (fun h => hW ((hcondW0 t).mp h)) (iblk0 V c 0 t) (iblk0 V c 1 t)).2.2 _ _ Set.univ _)
    isplitl [H0]; · iexact H0
    isplitl [H1]; · iexact H1
    isplitl [H2]; · iexact H2
    isplitl [H3]; · iexact H3
    isplitl [HS0]
    · icases HS0 with ⟨%g0, HS0⟩; iexists g0; rw [owns_whole]; iexact HS0
    isplitl [HS1]
    · icases HS1 with ⟨%g1, HS1⟩; iexists g1; rw [owns_whole]; iexact HS1
    iintro ⟨H0, H1, H2, H3, ⟨%es0, HS0⟩, ⟨%es1, HS1⟩⟩
    isplitl [HS0 HS1 HR2 HR3 HR4 HR5 HR6 HR7 HR8 HR9 Hg]
    · isplitl [HS0 HS1 HR2 HR3 HR4 HR5 HR6 HR7 HR8 HR9]
      ·   isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          iexact HR9
      iexact Hg
    isplitl [Ho]; · iexact Ho
    isplitl [H0]; · iexact H0
    isplitl [H1]; · iexact H1
    isplitl [H2]; · iexists _; iexact H2
    iexists _; iexact H3
  · by_cases hW : t.val = 255
    · rw [show (dat0 V c).leavesExact 0 t = owns (c : Thread nD τ) (ms0_0 t) fullShare ((dat0 V c).after 0 t) from by
                unfold Dat.leavesExact; rw [liveAt0_0 t], after0_0]
      rw [show (dat0 V c).leavesExact 1 t = owns (c : Thread nD τ) (ms0_1 t) fullShare ((dat0 V c).after 1 t) from by
                unfold Dat.leavesExact; rw [liveAt0_1 t], after0_1]
      rw [show (dat0 V c).leavesExact 2 t = owns (c : Thread nD τ) (ms0_2 t) fullShare ((dat0 V c).after 2 t) from by
                unfold Dat.leavesExact; rw [liveAt0_2 t ((hcondW0 t).mpr hW)], after0_2]
      rw [show (dat0 V c).leavesExact 3 t = owns (c : Thread nD τ) (ms0_3 t) fullShare ((dat0 V c).after 3 t) from by
                unfold Dat.leavesExact; rw [liveAt0_3 t ((hcondW0 t).mpr hW)], after0_3]
      rw [outsAt0_C V c t hz hW]
      unfold out0_C_2 out0_C_3 sout0_C_0 sout0_C_1; (try dsimp only)
      rw [PhiS0_castSucc V c t, PhiS0_pos V c _ _ hz]
      iintro ⟨⟨⟨HS0, HS1, HR2, HR3, HR4, HR5, HR6, HR7, HR8, HR9⟩, Hg⟩, Ho, ⟨%d0, H0⟩, ⟨%d1, H1⟩, ⟨%d2, H2⟩, ⟨%d3, H3⟩⟩
      iapply ((run0_C c (grid0.coords t) _ _ _ _ _ _ _ _ _ _ _ _ (fun h => hz ((hcondR0 t).mp h)) ((hcondW0 t).mpr hW) (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR2 HR3 HR4 HR5 HR6 HR7 HR8 HR9 Hg]
      · isplitl [HS0 HS1 HR2 HR3 HR4 HR5 HR6 HR7 HR8 HR9]
        ·   isplitl [HS0]
            · unfold owns; iexists _; isplitr
              swap; · iexact HS0
              ipureintro; exact View.read_writes_of_cover _ _ _ _ _ (scover0_C_0 c _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _)
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexact HR9
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · rw [show (dat0 V c).leavesExact 0 t = owns (c : Thread nD τ) (ms0_0 t) fullShare ((dat0 V c).after 0 t) from by
                unfold Dat.leavesExact; rw [liveAt0_0 t], after0_0]
      rw [show (dat0 V c).leavesExact 1 t = owns (c : Thread nD τ) (ms0_1 t) fullShare ((dat0 V c).after 1 t) from by
                unfold Dat.leavesExact; rw [liveAt0_1 t], after0_1]
      rw [Dat.leavesExact_idle (dat0 V c) 2 t (idleAt0_2 t (fun h => hW ((hcondW0 t).mp h))) (noFlush0_2 t (fun h => hW ((hcondW0 t).mp h)))]
      rw [Dat.leavesExact_idle (dat0 V c) 3 t (idleAt0_3 t (fun h => hW ((hcondW0 t).mp h))) (noFlush0_3 t (fun h => hW ((hcondW0 t).mp h)))]
      rw [outsAt0_B V c t hz hW]
      unfold sout0_B_0 sout0_B_1; (try dsimp only)
      rw [PhiS0_castSucc V c t, PhiS0_pos V c _ _ hz]
      iintro ⟨⟨⟨HS0, HS1, HR2, HR3, HR4, HR5, HR6, HR7, HR8, HR9⟩, Hg⟩, Ho, ⟨%d0, H0⟩, ⟨%d1, H1⟩, ⟨%d2, H2⟩, ⟨%d3, H3⟩⟩
      iapply ((run0_B c (grid0.coords t) _ _ _ _ _ _ _ _ _ _ _ _ (fun h => hz ((hcondR0 t).mp h)) (fun h => hW ((hcondW0 t).mp h)) (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR2 HR3 HR4 HR5 HR6 HR7 HR8 HR9 Hg]
      · isplitl [HS0 HS1 HR2 HR3 HR4 HR5 HR6 HR7 HR8 HR9]
        ·   isplitl [HS0]
            · unfold owns; iexists _; isplitr
              swap; · iexact HS0
              ipureintro; exact View.read_writes_of_cover _ _ _ _ _ (scover0_B_0 c _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _)
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            iexact HR9
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
/-- After the last point the invariant gives the class's back: the running sums' contents are forgotten. -/
theorem Phi_out0 (c : Dev nD) (t : Fin (cfg0.N + 1)) (ht : ¬t.val = 0) : (dat0 V c).Φ t ⊢ Pipeline.ΦA spec0 c := by
  rw [show (dat0 V c).Φ t = PhiS0 V c t.val (Nat.le_of_lt_succ t.isLt) from rfl, PhiS0_pos V c _ _ ht, PhiA0_eq]
  simp only [owns_whole]
  iintro ⟨⟨HS0, HS1, HR2, HR3, HR4, HR5, HR6, HR7, HR8, HR9⟩, Hg⟩
  isplitl [HS0 HS1 HR2 HR3 HR4 HR5 HR6 HR7 HR8 HR9]
  · isplitl [HS0]
    · iexists _; iexact HS0
    isplitl [HS1]
    · iexists _; iexact HS1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    iexact HR9
  iexact Hg
theorem hout0 (c : Dev nD) : (dat0 V c).Φ (Fin.last cfg0.N) ⊢ Pipeline.ΦA spec0 c :=
  Phi_out0 V c _ (by rw [Fin.val_last]; have : cfg0.N = 256 := N_0; omega)

/-! # pallas_call 1, entered at buffer contents V -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The input windows are live at every point; the output windows are idle (neither stored into nor written back)
    except at the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬condW1 (grid1.coords t) → cfg1.idle 2 (grid1.coords t) = true := by decide +kernel
theorem idleAt1_3 : ∀ t : Fin cfg1.N, ¬condW1 (grid1.coords t) → cfg1.idle 3 (grid1.coords t) = true := by decide +kernel
theorem noFlush1_2 : ∀ t : Fin cfg1.N, ¬condW1 (grid1.coords t) → (cfg1.win 2).flush t = false := by decide +kernel
theorem noFlush1_3 : ∀ t : Fin cfg1.N, ¬condW1 (grid1.coords t) → (cfg1.win 3).flush t = false := by decide +kernel
theorem liveAt1_2 : ∀ t : Fin cfg1.N, condW1 (grid1.coords t) → cfg1.idle 2 (grid1.coords t) = false := by decide +kernel
theorem liveAt1_3 : ∀ t : Fin cfg1.N, condW1 (grid1.coords t) → cfg1.idle 3 (grid1.coords t) = false := by decide +kernel

/-- What the run at a point of this kind leaves in running sum 0: its pieces read back. -/
def sout1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) : Vec F S1x1 .f32 :=
  VS1_0.read (Elt F) (VS1_0.writes (Elt F) VS1_0.junk (run1_A c i arg2 harg2 arg3 harg3 arg4 harg4 arg5 harg5 arg6 harg6 arg7 harg7 hc0 hc1 x0 x1).1)
/-- Those pieces cover the one-element buffer. -/
theorem scover1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) (y : S1x1.Idx) :
    ∃ pc ∈ (run1_A c i arg2 harg2 arg3 harg3 arg4 harg4 arg5 harg5 arg6 harg6 arg7 harg7 hc0 hc1 x0 x1).1, y ∈ pc.1.set :=
  View.cover_of_tiledL ((run1_A c i arg2 harg2 arg3 harg3 arg4 harg4 arg5 harg5 arg6 harg6 arg7 harg7 hc0 hc1 x0 x1).1) S1x1.size (by sl_kernel_rfl) y

/-- What the run at a point of this kind leaves in running sum 1: its pieces read back. -/
def sout1_A_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) : Vec F S1x1 .f32 :=
  VS1_1.read (Elt F) (VS1_1.writes (Elt F) VS1_1.junk (run1_A c i arg2 harg2 arg3 harg3 arg4 harg4 arg5 harg5 arg6 harg6 arg7 harg7 hc0 hc1 x0 x1).2.1)
/-- Those pieces cover the one-element buffer. -/
theorem scover1_A_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) (y : S1x1.Idx) :
    ∃ pc ∈ (run1_A c i arg2 harg2 arg3 harg3 arg4 harg4 arg5 harg5 arg6 harg6 arg7 harg7 hc0 hc1 x0 x1).2.1, y ∈ pc.1.set :=
  View.cover_of_tiledL ((run1_A c i arg2 harg2 arg3 harg3 arg4 harg4 arg5 harg5 arg6 harg6 arg7 harg7 hc0 hc1 x0 x1).2.1) S1x1.size (by sl_kernel_rfl) y

/-- What the run at a point of this kind leaves in running sum 0: its pieces read back. -/
def sout1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) : Vec F S1x1 .f32 :=
  VS1_0.read (Elt F) (VS1_0.writes (Elt F) VS1_0.junk (run1_B c i arg2 harg2 arg3 harg3 arg4 harg4 arg5 harg5 arg6 harg6 arg7 harg7 hc0 hc1 x0 x1 xs0 xs1).1)
/-- Those pieces cover the one-element buffer. -/
theorem scover1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) (y : S1x1.Idx) :
    ∃ pc ∈ (run1_B c i arg2 harg2 arg3 harg3 arg4 harg4 arg5 harg5 arg6 harg6 arg7 harg7 hc0 hc1 x0 x1 xs0 xs1).1, y ∈ pc.1.set :=
  View.cover_of_tiledL ((run1_B c i arg2 harg2 arg3 harg3 arg4 harg4 arg5 harg5 arg6 harg6 arg7 harg7 hc0 hc1 x0 x1 xs0 xs1).1) S1x1.size (by sl_kernel_rfl) y

/-- What the run at a point of this kind leaves in running sum 1: its pieces read back. -/
def sout1_B_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) : Vec F S1x1 .f32 :=
  VS1_1.read (Elt F) (VS1_1.writes (Elt F) VS1_1.junk (run1_B c i arg2 harg2 arg3 harg3 arg4 harg4 arg5 harg5 arg6 harg6 arg7 harg7 hc0 hc1 x0 x1 xs0 xs1).2.1)
/-- Those pieces cover the one-element buffer. -/
theorem scover1_B_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) (y : S1x1.Idx) :
    ∃ pc ∈ (run1_B c i arg2 harg2 arg3 harg3 arg4 harg4 arg5 harg5 arg6 harg6 arg7 harg7 hc0 hc1 x0 x1 xs0 xs1).2.1, y ∈ pc.1.set :=
  View.cover_of_tiledL ((run1_B c i arg2 harg2 arg3 harg3 arg4 harg4 arg5 harg5 arg6 harg6 arg7 harg7 hc0 hc1 x0 x1 xs0 xs1).2.1) S1x1.size (by sl_kernel_rfl) y

/-- What the run at a point of this kind leaves in running sum 0: its pieces read back. -/
def sout1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) : Vec F S1x1 .f32 :=
  VS1_0.read (Elt F) (VS1_0.writes (Elt F) VS1_0.junk (run1_C c i arg2 harg2 arg3 harg3 arg4 harg4 arg5 harg5 arg6 harg6 arg7 harg7 hc0 hc1 x0 x1 xs0 xs1).2.2.1)
/-- Those pieces cover the one-element buffer. -/
theorem scover1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).2.2.1, y ∈ pc.1.set :=
  View.cover_of_tiledL ((run1_C c i arg2 harg2 arg3 harg3 arg4 harg4 arg5 harg5 arg6 harg6 arg7 harg7 hc0 hc1 x0 x1 xs0 xs1).2.2.1) S1x1.size (by sl_kernel_rfl) y

/-- What the run at a point of this kind leaves in running sum 1: its pieces read back. -/
def sout1_C_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) : Vec F S1x1 .f32 :=
  VS1_1.read (Elt F) (VS1_1.writes (Elt F) VS1_1.junk (run1_C c i arg2 harg2 arg3 harg3 arg4 harg4 arg5 harg5 arg6 harg6 arg7 harg7 hc0 hc1 x0 x1 xs0 xs1).2.2.2.1)
/-- Those pieces cover the one-element buffer. -/
theorem scover1_C_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).2.2.2.1, y ∈ pc.1.set :=
  View.cover_of_tiledL ((run1_C c i arg2 harg2 arg3 harg3 arg4 harg4 arg5 harg5 arg6 harg6 arg7 harg7 hc0 hc1 x0 x1 xs0 xs1).2.2.2.1) S1x1.size (by sl_kernel_rfl) y

/-- What the last point leaves in output 0's staging buffer: its pieces read back. -/
def out1_C_2 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) : Vec F S1x1 .f32 :=
  VO1_2.read (Elt F) (VO1_2.writes (Elt F) VO1_2.junk (run1_C c i arg2 harg2 arg3 harg3 arg4 harg4 arg5 harg5 arg6 harg6 arg7 harg7 hc0 hc1 x0 x1 xs0 xs1).1)
theorem cover1_C_2 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).1, y ∈ pc.1.set :=
  View.cover_of_tiledL ((run1_C c i arg2 harg2 arg3 harg3 arg4 harg4 arg5 harg5 arg6 harg6 arg7 harg7 hc0 hc1 x0 x1 xs0 xs1).1) S1x1.size (by sl_kernel_rfl) y

/-- What the last point leaves in output 1's staging buffer: its pieces read back. -/
def out1_C_3 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) : Vec F S1x1 .f32 :=
  VO1_3.read (Elt F) (VO1_3.writes (Elt F) VO1_3.junk (run1_C c i arg2 harg2 arg3 harg3 arg4 harg4 arg5 harg5 arg6 harg6 arg7 harg7 hc0 hc1 x0 x1 xs0 xs1).2.1)
theorem cover1_C_3 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).2.1, y ∈ pc.1.set :=
  View.cover_of_tiledL ((run1_C c i arg2 harg2 arg3 harg3 arg4 harg4 arg5 harg5 arg6 harg6 arg7 harg7 hc0 hc1 x0 x1 xs0 xs1).2.1) S1x1.size (by sl_kernel_rfl) y

/-- THE ACCUMULATION. After the body at point n: the two outputs' staging buffers (nothing named before the last
    point) and the two running sums — at the first point what the reset-and-add run leaves, afterwards what the
    carried run leaves over the sums of the point before. -/
def outsAt1 (c : Dev nD) : (n : ℕ) → n < cfg1.N → (Vec F S1x1 .f32 × Vec F S1x1 .f32) × (Vec F S1x1 .f32 × Vec F S1x1 .f32)
  | 0, hn => ((VO1_2.read (Elt F) VO1_2.junk, VO1_3.read (Elt F) VO1_3.junk), (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcondR1 ⟨0, hn⟩).mpr rfl) (fun h => absurd ((hcondW1 ⟨0, hn⟩).mp h) (show ¬ (0 : ℕ) = 255 by omega)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcondR1 ⟨0, hn⟩).mpr rfl) (fun h => absurd ((hcondW1 ⟨0, hn⟩).mp h) (show ¬ (0 : ℕ) = 255 by omega)) (iblk1 V c 0 ⟨0, hn⟩) (iblk1 V c 1 ⟨0, hn⟩)))
  | n + 1, hn =>
    if hW : n + 1 = 255 then
      ((out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) ((hcondW1 ⟨n + 1, hn⟩).mpr hW) (iblk1 V c 0 ⟨n + 1, hn⟩) (iblk1 V c 1 ⟨n + 1, hn⟩) (outsAt1 c n (Nat.lt_of_succ_lt hn)).2.1 (outsAt1 c n (Nat.lt_of_succ_lt hn)).2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) ((hcondW1 ⟨n + 1, hn⟩).mpr hW) (iblk1 V c 0 ⟨n + 1, hn⟩) (iblk1 V c 1 ⟨n + 1, hn⟩) (outsAt1 c n (Nat.lt_of_succ_lt hn)).2.1 (outsAt1 c n (Nat.lt_of_succ_lt hn)).2.2), (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) ((hcondW1 ⟨n + 1, hn⟩).mpr hW) (iblk1 V c 0 ⟨n + 1, hn⟩) (iblk1 V c 1 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) ((hcondW1 ⟨n + 1, hn⟩).mpr hW) (iblk1 V c 0 ⟨n + 1, hn⟩) (iblk1 V c 1 ⟨n + 1, hn⟩) (outsAt1 c n (Nat.lt_of_succ_lt hn)).2.1 (outsAt1 c n (Nat.lt_of_succ_lt hn)).2.2))
    else
      ((VO1_2.read (Elt F) VO1_2.junk, VO1_3.read (Elt F) VO1_3.junk), (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) (fun h => hW ((hcondW1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcondR1 ⟨n + 1, hn⟩).mp h) (Nat.succ_ne_zero n)) (fun h => hW ((hcondW1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2))

theorem outsAt1_A (c : Dev nD) (t : Fin cfg1.N) (hz : t.val = 0) (hW : ¬t.val = 255) :
    outsAt1 V c t.val t.isLt = ((VO1_2.read (Elt F) VO1_2.junk, VO1_3.read (Elt F) VO1_3.junk), (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcondR1 t).mpr hz) (fun h => hW ((hcondW1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcondR1 t).mpr hz) (fun h => hW ((hcondW1 t).mp h)) (iblk1 V c 0 t) (iblk1 V c 1 t))) := by
  obtain ⟨n, hn⟩ := t
  cases n with
  | zero => exact rfl
  | succ n => exact absurd hz (Nat.succ_ne_zero n)
theorem outsAt1_B (c : Dev nD) (t : Fin cfg1.N) (hz : ¬t.val = 0) (hW : ¬t.val = 255) :
    outsAt1 V c t.val t.isLt = ((VO1_2.read (Elt F) VO1_2.junk, VO1_3.read (Elt F) VO1_3.junk), (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) (fun h => hW ((hcondW1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) (fun h => hW ((hcondW1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd rfl hz
  | succ n => exact (dif_neg hW).trans rfl
theorem outsAt1_C (c : Dev nD) (t : Fin cfg1.N) (hz : ¬t.val = 0) (hW : t.val = 255) :
    outsAt1 V c t.val t.isLt = ((out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) ((hcondW1 t).mpr hW) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) ((hcondW1 t).mpr hW) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2), (sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) ((hcondW1 t).mpr hW) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => hz ((hcondR1 t).mp h)) ((hcondW1 t).mpr hW) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2)) := by
  obtain ⟨n, hn⟩ := t
  cases n with
  | zero => exact absurd rfl hz
  | succ n => exact (dif_pos hW).trans rfl

/-- The core's scoped buffers that are no staging buffer of this call, with the two running sums at S0 and S1 and
    every other one at some contents. -/
abbrev wrap1 (c : Dev nD) (S0 S1 : sProp 𝕄) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ S0 ∗ S1)

/-- The class's invariant is that, the running sums at some contents. -/
theorem PhiA1_eq (c : Dev nD) :
    (Pipeline.ΦA spec1 c : sProp 𝕄) = iprop(wrap1 c iprop(∃ f : Buf (Elt F) ((c : Thread nD τ).loc cc1_scratch0), ((c : Thread nD τ).loc cc1_scratch0) ↦{fullShare} f) iprop(∃ f : Buf (Elt F) ((c : Thread nD τ).loc cc1_scratch1), ((c : Thread nD τ).loc cc1_scratch1) ↦{fullShare} f) ∗ (∃ r, prngReg c r)) := by
  unfold Pipeline.ΦA; rw [scopedRest1_eq]

/-- The region invariant before position n: before the first point the class's; afterwards the running sums at what
    the point before left. -/
def PhiS1 (c : Dev nD) : (n : ℕ) → n ≤ cfg1.N → sProp 𝕄
  | 0, _ => Pipeline.ΦA spec1 c
  | n + 1, hn => iprop(wrap1 c (owns (c : Thread nD τ) scM1_0 fullShare ((outsAt1 V c n hn).2.1)) (owns (c : Thread nD τ) scM1_1 fullShare ((outsAt1 V c n hn).2.2)) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(wrap1 c (owns (c : Thread nD τ) scM1_0 fullShare ((outsAt1 V c n hn).2.1)) (owns (c : Thread nD τ) scM1_1 fullShare ((outsAt1 V c n hn).2.2)) ∗ (∃ r, prngReg c r)) := rfl
theorem PhiS1_pos (c : Dev nD) (n : ℕ) (h : n ≤ cfg1.N) (hz : ¬n = 0) :
    PhiS1 V c n h = iprop(wrap1 c (owns (c : Thread nD τ) scM1_0 fullShare ((outsAt1 V c (n - 1) (by omega)).2.1)) (owns (c : Thread nD τ) scM1_1 fullShare ((outsAt1 V c (n - 1) (by omega)).2.2)) ∗ (∃ r, prngReg c r)) := by
  cases n with
  | zero => exact absurd rfl hz
  | succ n => rfl

/-- The proof data of this pipeline on core c: the arrays as the region finds them; the input windows (two
    windows of ONE array, each holding half of the full share of it) at their blocks; the outputs and the invariant
    by the accumulation; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1.1
    | ⟨3, _⟩ => (outsAt1 V c t.val t.isLt).1.2
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1.1 := by dsimp only [dat1]
theorem after1_3 (c : Dev nD) (t : Fin cfg1.N) : (dat1 V c).after 3 t = (outsAt1 V c t.val t.isLt).1.2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the inputs' memrefs hold their blocks; the point is the first, a middle or the last one,
    and that kind's run applies; the invariant hands over the running sums and takes them back at this point's
    contents; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases hz : t.val = 0
  · have hW : ¬t.val = 255 := by omega
    rw [show (dat1 V c).leavesExact 0 t = owns (c : Thread nD τ) (ms1_0 t) fullShare ((dat1 V c).after 0 t) from by
              unfold Dat.leavesExact; rw [liveAt1_0 t], after1_0]
    rw [show (dat1 V c).leavesExact 1 t = owns (c : Thread nD τ) (ms1_1 t) fullShare ((dat1 V c).after 1 t) from by
              unfold Dat.leavesExact; rw [liveAt1_1 t], after1_1]
    rw [Dat.leavesExact_idle (dat1 V c) 2 t (idleAt1_2 t (fun h => hW ((hcondW1 t).mp h))) (noFlush1_2 t (fun h => hW ((hcondW1 t).mp h)))]
    rw [Dat.leavesExact_idle (dat1 V c) 3 t (idleAt1_3 t (fun h => hW ((hcondW1 t).mp h))) (noFlush1_3 t (fun h => hW ((hcondW1 t).mp h)))]
    rw [outsAt1_A V c t hz hW]
    unfold sout1_A_0 sout1_A_1; (try dsimp only)
    rw [PhiS1_castSucc V c t, PhiS1_zero V c _ _ hz, PhiA1_eq]
    iintro ⟨⟨⟨HR0, HR1, HR2, HR3, HR4, HR5, HR6, HR7, HS0, HS1⟩, Hg⟩, Ho, ⟨%d0, H0⟩, ⟨%d1, H1⟩, ⟨%d2, H2⟩, ⟨%d3, H3⟩⟩
    iapply ((run1_A c (grid1.coords t) _ _ _ _ _ _ _ _ _ _ _ _ ((hcondR1 t).mpr hz) (fun h => hW ((hcondW1 t).mp h)) (iblk1 V c 0 t) (iblk1 V c 1 t)).2.2 _ _ Set.univ _)
    isplitl [H0]; · iexact H0
    isplitl [H1]; · iexact H1
    isplitl [H2]; · iexact H2
    isplitl [H3]; · iexact H3
    isplitl [HS0]
    · icases HS0 with ⟨%g0, HS0⟩; iexists g0; rw [owns_whole]; iexact HS0
    isplitl [HS1]
    · icases HS1 with ⟨%g1, HS1⟩; iexists g1; rw [owns_whole]; iexact HS1
    iintro ⟨H0, H1, H2, H3, ⟨%es0, HS0⟩, ⟨%es1, HS1⟩⟩
    isplitl [HS0 HS1 HR0 HR1 HR2 HR3 HR4 HR5 HR6 HR7 Hg]
    · isplitl [HS0 HS1 HR0 HR1 HR2 HR3 HR4 HR5 HR6 HR7]
      ·   isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HS0]
          · unfold owns; iexists _; isplitr
            swap; · iexact HS0
            ipureintro; exact View.read_writes_of_cover _ _ _ _ _ (scover1_A_0 c _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _)
      iexact Hg
    isplitl [Ho]; · iexact Ho
    isplitl [H0]; · iexact H0
    isplitl [H1]; · iexact H1
    isplitl [H2]; · iexists _; iexact H2
    iexists _; iexact H3
  · by_cases hW : t.val = 255
    · rw [show (dat1 V c).leavesExact 0 t = owns (c : Thread nD τ) (ms1_0 t) fullShare ((dat1 V c).after 0 t) from by
                unfold Dat.leavesExact; rw [liveAt1_0 t], after1_0]
      rw [show (dat1 V c).leavesExact 1 t = owns (c : Thread nD τ) (ms1_1 t) fullShare ((dat1 V c).after 1 t) from by
                unfold Dat.leavesExact; rw [liveAt1_1 t], after1_1]
      rw [show (dat1 V c).leavesExact 2 t = owns (c : Thread nD τ) (ms1_2 t) fullShare ((dat1 V c).after 2 t) from by
                unfold Dat.leavesExact; rw [liveAt1_2 t ((hcondW1 t).mpr hW)], after1_2]
      rw [show (dat1 V c).leavesExact 3 t = owns (c : Thread nD τ) (ms1_3 t) fullShare ((dat1 V c).after 3 t) from by
                unfold Dat.leavesExact; rw [liveAt1_3 t ((hcondW1 t).mpr hW)], after1_3]
      rw [outsAt1_C V c t hz hW]
      unfold out1_C_2 out1_C_3 sout1_C_0 sout1_C_1; (try dsimp only)
      rw [PhiS1_castSucc V c t, PhiS1_pos V c _ _ hz]
      iintro ⟨⟨⟨HR0, HR1, HR2, HR3, HR4, HR5, HR6, HR7, HS0, HS1⟩, Hg⟩, Ho, ⟨%d0, H0⟩, ⟨%d1, H1⟩, ⟨%d2, H2⟩, ⟨%d3, H3⟩⟩
      iapply ((run1_C c (grid1.coords t) _ _ _ _ _ _ _ _ _ _ _ _ (fun h => hz ((hcondR1 t).mp h)) ((hcondW1 t).mpr hW) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR0 HR1 HR2 HR3 HR4 HR5 HR6 HR7 Hg]
      · isplitl [HS0 HS1 HR0 HR1 HR2 HR3 HR4 HR5 HR6 HR7]
        ·   isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_C_0 c _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [show (dat1 V c).leavesExact 0 t = owns (c : Thread nD τ) (ms1_0 t) fullShare ((dat1 V c).after 0 t) from by
                unfold Dat.leavesExact; rw [liveAt1_0 t], after1_0]
      rw [show (dat1 V c).leavesExact 1 t = owns (c : Thread nD τ) (ms1_1 t) fullShare ((dat1 V c).after 1 t) from by
                unfold Dat.leavesExact; rw [liveAt1_1 t], after1_1]
      rw [Dat.leavesExact_idle (dat1 V c) 2 t (idleAt1_2 t (fun h => hW ((hcondW1 t).mp h))) (noFlush1_2 t (fun h => hW ((hcondW1 t).mp h)))]
      rw [Dat.leavesExact_idle (dat1 V c) 3 t (idleAt1_3 t (fun h => hW ((hcondW1 t).mp h))) (noFlush1_3 t (fun h => hW ((hcondW1 t).mp h)))]
      rw [outsAt1_B V c t hz hW]
      unfold sout1_B_0 sout1_B_1; (try dsimp only)
      rw [PhiS1_castSucc V c t, PhiS1_pos V c _ _ hz]
      iintro ⟨⟨⟨HR0, HR1, HR2, HR3, HR4, HR5, HR6, HR7, HS0, HS1⟩, Hg⟩, Ho, ⟨%d0, H0⟩, ⟨%d1, H1⟩, ⟨%d2, H2⟩, ⟨%d3, H3⟩⟩
      iapply ((run1_B c (grid1.coords t) _ _ _ _ _ _ _ _ _ _ _ _ (fun h => hz ((hcondR1 t).mp h)) (fun h => hW ((hcondW1 t).mp h)) (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR0 HR1 HR2 HR3 HR4 HR5 HR6 HR7 Hg]
      · isplitl [HS0 HS1 HR0 HR1 HR2 HR3 HR4 HR5 HR6 HR7]
        ·   isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HS0]
            · unfold owns; iexists _; isplitr
              swap; · iexact HS0
              ipureintro; exact View.read_writes_of_cover _ _ _ _ _ (scover1_B_0 c _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
/-- After the last point the invariant gives the class's back: the running sums' contents are forgotten. -/
theorem Phi_out1 (c : Dev nD) (t : Fin (cfg1.N + 1)) (ht : ¬t.val = 0) : (dat1 V c).Φ t ⊢ Pipeline.ΦA spec1 c := by
  rw [show (dat1 V c).Φ t = PhiS1 V c t.val (Nat.le_of_lt_succ t.isLt) from rfl, PhiS1_pos V c _ _ ht, PhiA1_eq]
  simp only [owns_whole]
  iintro ⟨⟨HR0, HR1, HR2, HR3, HR4, HR5, HR6, HR7, HS0, HS1⟩, Hg⟩
  isplitl [HS0 HS1 HR0 HR1 HR2 HR3 HR4 HR5 HR6 HR7]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HS0]
    · iexists _; iexact HS0
    iexists _; iexact HS1
  iexact Hg
theorem hout1 (c : Dev nD) : (dat1 V c).Φ (Fin.last cfg1.N) ⊢ Pipeline.ΦA spec1 c :=
  Phi_out1 V c _ (by rw [Fin.val_last]; have : cfg1.N = 256 := N_1; omega)

end Regions

end Cert.KernelIdeal.Hand

end
-- ==== Proof.KIShare.lean ====
/-
  The entry and the exit of a kernel region whose two input windows read one array. The core holds every
  unscoped buffer whole at a valuation; the region's proof data hold the windows' arrays one window at a time, the
  two input windows each at one half share of the one input array. At the entry the full share of that array is
  split into its left and right halves; at the exit the two halves, at equal contents, are rejoined.
-/
import proofs.«168013_j80238579024621_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- A whole buffer held in full is its two half shares, the second spelt at an equal reference. -/
theorem pointsTo_halves (c : Dev nD) (V : (b : Ref sig .tc) → Buf (Elt F) ((c : Thread nD τ).loc b)) {b b' : Ref sig .tc} (h : b' = b) :
    ((((c : Thread nD τ).loc b) ↦{fullShare} V b : sProp 𝕄))
      ⊣⊢ iprop((((c : Thread nD τ).loc b) ↦{fullShare.left} V b) ∗ (((c : Thread nD τ).loc b') ↦{fullShare.right} V b')) := by
  subst h
  exact pointsTo_share (PosShare.mem_left_op_right fullShare)

/-! ## pallas_call 0 -/

set_option maxHeartbeats 400000 in
/-- The windows' arrays one by one: the two input windows hold the one input array at the left and the right half
    share, the two output windows their own arrays in full; every array is a whole buffer. -/
theorem arrays0_chain (c : Dev nD) (dat : Dat τ (Elt F) Unit ℕ (UR sig nD τ) ℕ cfg0 c)
    (hq0 : dat.q 0 = fullShare.left) (hq1 : dat.q 1 = fullShare.right)
    (Fv : (w : Fin cfg0.W) → Buf (Elt F) ((cfg0.win w).arr.view.loc (c : Thread nD τ))) :
    (dat.arrays Fv : sProp 𝕄)
      = iprop((((c : Thread nD τ).loc (Pipeline.arrRef spec0 0)) ↦{fullShare.left} Fv 0) ∗ (((c : Thread nD τ).loc (Pipeline.arrRef spec0 1)) ↦{fullShare.right} Fv 1)
          ∗ (((c : Thread nD τ).loc (Pipeline.arrRef spec0 2)) ↦{fullShare} Fv 2) ∗ (((c : Thread nD τ).loc (Pipeline.arrRef spec0 3)) ↦{fullShare} Fv 3)) := by
  have s0 : dat.share 0 = fullShare.left := by unfold Dat.share; exact (if_neg (by decide)).trans hq0
  have s1 : dat.share 1 = fullShare.right := by unfold Dat.share; exact (if_neg (by decide)).trans hq1
  have s2 : dat.share 2 = fullShare := by unfold Dat.share; exact if_pos (by decide)
  have s3 : dat.share 3 = fullShare := by unfold Dat.share; exact if_pos (by decide)
  have h : (dat.arrays Fv : sProp 𝕄) = bigSep Finset.univ fun w : Fin 4 => (((c : Thread nD τ).loc (Pipeline.arrRef spec0 w)) ↦{dat.share w} Fv w : sProp 𝕄) := by
    unfold Dat.arrays
    exact bigSep_congr fun w _ => by rw [(arr_whole0 w).set_eq_univ]
  rw [h, bigSep_W0, s0, s1, s2, s3]

set_option maxHeartbeats 400000 in
/-- The distinct buffers behind the windows are three: the input array once, and the two output arrays. -/
theorem arrBufs0_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc (Pipeline.arrRef spec0 0)) ↦{fullShare} V (Pipeline.arrRef spec0 0)) ∗ (((c : Thread nD τ).loc (Pipeline.arrRef spec0 2)) ↦{fullShare} V (Pipeline.arrRef spec0 2))
          ∗ (((c : Thread nD τ).loc (Pipeline.arrRef spec0 3)) ↦{fullShare} V (Pipeline.arrRef spec0 3))) := by
  unfold Pipeline.arrBufs
  exact bigSep_eq_bigSepL_of_eq [Pipeline.arrRef spec0 0, Pipeline.arrRef spec0 2, Pipeline.arrRef spec0 3] (by decide) (by decide) _

/-- The core's unscoped buffers are the buffers behind the windows and the rest. -/
theorem unscopedBufs0_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec0 c V ∗ Pipeline.unscopedRest spec0 c V) :=
  Pipeline.unscopedBufs_split₀ cfgs 0 winFacts₀0.arr_unscoped c V

set_option maxHeartbeats 400000 in
/-- ENTRY: the core's unscoped buffers at a valuation are the windows' arrays at the contents read off it — the
    shared input array split into its two half shares — and the unscoped rest. -/
theorem entry_arrays0 (c : Dev nD) (dat : Dat τ (Elt F) Unit ℕ (UR sig nD τ) ℕ cfg0 c)
    (hq0 : dat.q 0 = fullShare.left) (hq1 : dat.q 1 = fullShare.right)
    (W : Valuation τ sig (Elt F)) (hA : ∀ w, dat.A w = W (Pipeline.arrRef spec0 w)) :
    (StableHlo.held (c : Thread nD τ) (Pipeline.ucRefs τ sig) W : sProp 𝕄)
      ⊢ iprop(dat.arrays dat.A ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W, unscopedBufs0_split, arrBufs0_chain,
    arrays0_chain c dat hq0 hq1, hA 0, hA 1, hA 2, hA 3]
  have hsplit := (pointsTo_halves c (fun b => W b) (b := Pipeline.arrRef spec0 0) (b' := Pipeline.arrRef spec0 1) (by decide)).1
  refine sep_mono ?_ .rfl
  iintro ⟨H0, H2, H3⟩
  ihave H := hsplit $$ H0
  icases H with ⟨HL, HR⟩
  isplitl [HL]; · iexact HL
  isplitl [HR]; · iexact HR
  isplitl [H2]; · iexact H2
  iexact H3

set_option maxHeartbeats 400000 in
/-- EXIT: the windows' arrays at contents that a valuation has at them — the two half shares of the shared input
    array rejoined — and the unscoped rest at the entry valuation are the core's unscoped buffers at that valuation,
    which agrees with the entry one off the arrays. -/
theorem exit_arrays0 (c : Dev nD) (dat : Dat τ (Elt F) Unit ℕ (UR sig nD τ) ℕ cfg0 c)
    (hq0 : dat.q 0 = fullShare.left) (hq1 : dat.q 1 = fullShare.right) (W W' : Valuation τ sig (Elt F))
    (Fv : (w : Fin cfg0.W) → Buf (Elt F) ((cfg0.win w).arr.view.loc (c : Thread nD τ))) (hF : ∀ w, Fv w = W' (Pipeline.arrRef spec0 w))
    (hrest : ∀ b : Ref sig .tc, b ∉ Finset.univ.image (Pipeline.arrRef spec0) → W' b = W b) :
    iprop(dat.arrays Fv ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W', unscopedBufs0_split, arrBufs0_chain,
    arrays0_chain c dat hq0 hq1, hF 0, hF 1, hF 2, hF 3]
  refine sep_mono ?_ (Entails.of_eq ?_)
  · iintro ⟨HL, HR, H2, H3⟩
    isplitl [HL HR]
    · iapply (pointsTo_halves c (fun b => W' b) (b := Pipeline.arrRef spec0 0) (b' := Pipeline.arrRef spec0 1) (by decide)).2
      isplitl [HL]; · iexact HL
      iexact HR
    isplitl [H2]; · iexact H2
    iexact H3
  · unfold Pipeline.unscopedRest
    exact bigSep_congr fun b hb => by
      beta_reduce
      rw [hrest b (Finset.mem_sdiff.mp hb).2]

/-! ## pallas_call 1 -/

set_option maxHeartbeats 400000 in
/-- The windows' arrays one by one: the two input windows hold the one input array at the left and the right half
    share, the two output windows their own arrays in full; every array is a whole buffer. -/
theorem arrays1_chain (c : Dev nD) (dat : Dat τ (Elt F) Unit ℕ (UR sig nD τ) ℕ cfg1 c)
    (hq0 : dat.q 0 = fullShare.left) (hq1 : dat.q 1 = fullShare.right)
    (Fv : (w : Fin cfg1.W) → Buf (Elt F) ((cfg1.win w).arr.view.loc (c : Thread nD τ))) :
    (dat.arrays Fv : sProp 𝕄)
      = iprop((((c : Thread nD τ).loc (Pipeline.arrRef spec1 0)) ↦{fullShare.left} Fv 0) ∗ (((c : Thread nD τ).loc (Pipeline.arrRef spec1 1)) ↦{fullShare.right} Fv 1)
          ∗ (((c : Thread nD τ).loc (Pipeline.arrRef spec1 2)) ↦{fullShare} Fv 2) ∗ (((c : Thread nD τ).loc (Pipeline.arrRef spec1 3)) ↦{fullShare} Fv 3)) := by
  have s0 : dat.share 0 = fullShare.left := by unfold Dat.share; exact (if_neg (by decide)).trans hq0
  have s1 : dat.share 1 = fullShare.right := by unfold Dat.share; exact (if_neg (by decide)).trans hq1
  have s2 : dat.share 2 = fullShare := by unfold Dat.share; exact if_pos (by decide)
  have s3 : dat.share 3 = fullShare := by unfold Dat.share; exact if_pos (by decide)
  have h : (dat.arrays Fv : sProp 𝕄) = bigSep Finset.univ fun w : Fin 4 => (((c : Thread nD τ).loc (Pipeline.arrRef spec1 w)) ↦{dat.share w} Fv w : sProp 𝕄) := by
    unfold Dat.arrays
    exact bigSep_congr fun w _ => by rw [(arr_whole1 w).set_eq_univ]
  rw [h, bigSep_W1, s0, s1, s2, s3]

set_option maxHeartbeats 400000 in
/-- The distinct buffers behind the windows are three: the input array once, and the two output arrays. -/
theorem arrBufs1_chain (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc (Pipeline.arrRef spec1 0)) ↦{fullShare} V (Pipeline.arrRef spec1 0)) ∗ (((c : Thread nD τ).loc (Pipeline.arrRef spec1 2)) ↦{fullShare} V (Pipeline.arrRef spec1 2))
          ∗ (((c : Thread nD τ).loc (Pipeline.arrRef spec1 3)) ↦{fullShare} V (Pipeline.arrRef spec1 3))) := by
  unfold Pipeline.arrBufs
  exact bigSep_eq_bigSepL_of_eq [Pipeline.arrRef spec1 0, Pipeline.arrRef spec1 2, Pipeline.arrRef spec1 3] (by decide) (by decide) _

/-- The core's unscoped buffers are the buffers behind the windows and the rest. -/
theorem unscopedBufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ cfgs 1 winFacts₀1.arr_unscoped c V

set_option maxHeartbeats 400000 in
/-- ENTRY: the core's unscoped buffers at a valuation are the windows' arrays at the contents read off it — the
    shared input array split into its two half shares — and the unscoped rest. -/
theorem entry_arrays1 (c : Dev nD) (dat : Dat τ (Elt F) Unit ℕ (UR sig nD τ) ℕ cfg1 c)
    (hq0 : dat.q 0 = fullShare.left) (hq1 : dat.q 1 = fullShare.right)
    (W : Valuation τ sig (Elt F)) (hA : ∀ w, dat.A w = W (Pipeline.arrRef spec1 w)) :
    (StableHlo.held (c : Thread nD τ) (Pipeline.ucRefs τ sig) W : sProp 𝕄)
      ⊢ iprop(dat.arrays dat.A ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W, unscopedBufs1_split, arrBufs1_chain,
    arrays1_chain c dat hq0 hq1, hA 0, hA 1, hA 2, hA 3]
  have hsplit := (pointsTo_halves c (fun b => W b) (b := Pipeline.arrRef spec1 0) (b' := Pipeline.arrRef spec1 1) (by decide)).1
  refine sep_mono ?_ .rfl
  iintro ⟨H0, H2, H3⟩
  ihave H := hsplit $$ H0
  icases H with ⟨HL, HR⟩
  isplitl [HL]; · iexact HL
  isplitl [HR]; · iexact HR
  isplitl [H2]; · iexact H2
  iexact H3

set_option maxHeartbeats 400000 in
/-- EXIT: the windows' arrays at contents that a valuation has at them — the two half shares of the shared input
    array rejoined — and the unscoped rest at the entry valuation are the core's unscoped buffers at that valuation,
    which agrees with the entry one off the arrays. -/
theorem exit_arrays1 (c : Dev nD) (dat : Dat τ (Elt F) Unit ℕ (UR sig nD τ) ℕ cfg1 c)
    (hq0 : dat.q 0 = fullShare.left) (hq1 : dat.q 1 = fullShare.right) (W W' : Valuation τ sig (Elt F))
    (Fv : (w : Fin cfg1.W) → Buf (Elt F) ((cfg1.win w).arr.view.loc (c : Thread nD τ))) (hF : ∀ w, Fv w = W' (Pipeline.arrRef spec1 w))
    (hrest : ∀ b : Ref sig .tc, b ∉ Finset.univ.image (Pipeline.arrRef spec1) → W' b = W b) :
    iprop(dat.arrays Fv ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W', unscopedBufs1_split, arrBufs1_chain,
    arrays1_chain c dat hq0 hq1, hF 0, hF 1, hF 2, hF 3]
  refine sep_mono ?_ (Entails.of_eq ?_)
  · iintro ⟨HL, HR, H2, H3⟩
    isplitl [HL HR]
    · iapply (pointsTo_halves c (fun b => W' b) (b := Pipeline.arrRef spec1 0) (b' := Pipeline.arrRef spec1 1) (by decide)).2
      isplitl [HL]; · iexact HL
      iexact HR
    isplitl [H2]; · iexact H2
    iexact H3
  · unfold Pipeline.unscopedRest
    exact bigSep_congr fun b hb => by
      beta_reduce
      rw [hrest b (Finset.mem_sdiff.mp hb).2]

end Cert.KernelIdeal.Hand

end
-- ==== Proof.KIRegions.lean ====
/-
  The run of the whole program: @main's five items — host operations, the first similarity-statistics kernel on the
  upper half, two reshapes, the second kernel on the lower half, the host operations that combine the results — as
  segments, each kernel region entered from the buffers as the item before left them and left with its two outputs at
  what its pipeline wrote back; every weakly fair execution terminates with the result buffer at the last
  valuation and the argument unchanged.
-/
import proofs.«168013_j80238579024621_1_alg».proof.Proof.KIFrame
import proofs.«168013_j80238579024621_1_alg».proof.Proof.KIShare
import proofs.«168013_j80238579024621_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each region's entry, and what each region leaves -/

/-- The buffers when the first kernel is entered. -/
abbrev E1 : (c : Dev nD) → (b : Ref sig .tc) → Buf (Elt F) ((c : Thread nD τ).loc b) := fun c b => V1 m c b

/-- The buffers after the first kernel: its two outputs at what its pipeline wrote back. -/
def res0 (c : Dev nD) : (r : Ref sig .tc) → Buf (Elt F) ((c : Thread nD τ).loc r) :=
  Function.update (Function.update (fun r => E1 m c r) main_v19_0 ((dat0 (E1 m) c).arrAt 2 cfg0.N)) main_v19_1 ((dat0 (E1 m) c).arrAt 3 cfg0.N)
/-- The first kernel's outputs as the unknowns of the generated valuations. -/
def outsA : Outs (F := F) := fun _ r c => res0 m c r
/-- The buffers when the second kernel is entered. -/
abbrev E3 : (c : Dev nD) → (b : Ref sig .tc) → Buf (Elt F) ((c : Thread nD τ).loc b) := fun c b => V3 m (outsA m) c b
/-- The buffers after the second kernel. -/
def res1 (c : Dev nD) : (r : Ref sig .tc) → Buf (Elt F) ((c : Thread nD τ).loc r) :=
  Function.update (Function.update (fun r => E3 m c r) main_v22_0 ((dat1 (E3 m) c).arrAt 2 cfg1.N)) main_v22_1 ((dat1 (E3 m) c).arrAt 3 cfg1.N)
/-- What the two kernels leave, as the generated valuations read it: after item 1 the first kernel's outputs, after
    item 3 the second's. -/
def outs : Outs (F := F) := fun J r c => if J = 2 then res0 m c r else res1 m c r

theorem outs_19_0 (c : Dev nD) : outs m 2 main_v19_0 c = (dat0 (E1 m) c).arrAt 2 cfg0.N := by
  show (if (2 : ℕ) = 2 then res0 m c main_v19_0 else _) = _
  rw [if_pos rfl]; unfold res0
  rw [Function.update_of_ne (by decide : (main_v19_0 : Ref sig .tc) ≠ main_v19_1), Function.update_self]
theorem outs_19_1 (c : Dev nD) : outs m 2 main_v19_1 c = (dat0 (E1 m) c).arrAt 3 cfg0.N := by
  show (if (2 : ℕ) = 2 then res0 m c main_v19_1 else _) = _
  rw [if_pos rfl]; unfold res0
  rw [Function.update_self]
theorem outs_22_0 (c : Dev nD) : outs m 4 main_v22_0 c = (dat1 (E3 m) c).arrAt 2 cfg1.N := by
  show (if (4 : ℕ) = 2 then _ else res1 m c main_v22_0) = _
  rw [if_neg (by decide)]; unfold res1
  rw [Function.update_of_ne (by decide : (main_v22_0 : Ref sig .tc) ≠ main_v22_1), Function.update_self]
theorem outs_22_1 (c : Dev nD) : outs m 4 main_v22_1 c = (dat1 (E3 m) c).arrAt 3 cfg1.N := by
  show (if (4 : ℕ) = 2 then _ else res1 m c main_v22_1) = _
  rw [if_neg (by decide)]; unfold res1
  rw [Function.update_self]
/-- After item 1 the two families of unknowns agree. -/
theorem outs_two : outs m 2 = outsA m 2 := by
  funext r c; show (if (2 : ℕ) = 2 then res0 m c r else _) = _; rw [if_pos rfl]; rfl
theorem V2_outs (c : Dev nD) : V2 m (outs m) c = V2 m (outsA m) c := by
  show Function.update (Function.update (V1 m c) main_v19_0 (outs m 2 main_v19_0 c)) main_v19_1 (outs m 2 main_v19_1 c) = _
  rw [outs_two]
theorem V3_outs (c : Dev nD) : V3 m (outs m) c = V3 m (outsA m) c := by
  show StableHlo.after hostOps1 (V2 m (outs m) c) = _
  rw [V2_outs]

/-- The valuation after the first kernel at its output buffers. -/
theorem V2_19_0 (c : Dev nD) : V2 m (outs m) c main_v19_0 = (dat0 (E1 m) c).arrAt 2 cfg0.N := by
  show Function.update (Function.update (V1 m c) main_v19_0 (outs m 2 main_v19_0 c)) main_v19_1 (outs m 2 main_v19_1 c) main_v19_0 = _
  rw [Function.update_of_ne (StableHlo.devRef_ne_of_ne (by decide) : (Proc.devRef .tc main_v19_0 : DevRef τ sig) ≠ Proc.devRef .tc main_v19_1), Function.update_self, outs_19_0]
theorem V2_19_1 (c : Dev nD) : V2 m (outs m) c main_v19_1 = (dat0 (E1 m) c).arrAt 3 cfg0.N := by
  show Function.update (Function.update (V1 m c) main_v19_0 (outs m 2 main_v19_0 c)) main_v19_1 (outs m 2 main_v19_1 c) main_v19_1 = _
  rw [Function.update_self, outs_19_1]
theorem V4_22_0 (c : Dev nD) : V4 m (outs m) c main_v22_0 = (dat1 (E3 m) c).arrAt 2 cfg1.N := by
  show Function.update (Function.update (V3 m (outs m) c) main_v22_0 (outs m 4 main_v22_0 c)) main_v22_1 (outs m 4 main_v22_1 c) main_v22_0 = _
  rw [Function.update_of_ne (StableHlo.devRef_ne_of_ne (by decide) : (Proc.devRef .tc main_v22_0 : DevRef τ sig) ≠ Proc.devRef .tc main_v22_1), Function.update_self, outs_22_0]
theorem V4_22_1 (c : Dev nD) : V4 m (outs m) c main_v22_1 = (dat1 (E3 m) c).arrAt 3 cfg1.N := by
  show Function.update (Function.update (V3 m (outs m) c) main_v22_0 (outs m 4 main_v22_0 c)) main_v22_1 (outs m 4 main_v22_1 c) main_v22_1 = _
  rw [Function.update_self, outs_22_1]

/-- At the first kernel's exit each of its arrays holds what the valuation after it says. -/
theorem hF0 (c : Dev nD) : ∀ w : Fin cfg0.W, (dat0 (E1 m) c).arrAt w cfg0.N = V2 m (outs m) c (Pipeline.arrRef spec0 w) := fun
  | ⟨0, _⟩ => ((dat0 (E1 m) c).arrAt_in 0 rfl _).trans ((A_eq0 (E1 m) c 0).trans (V2_of m (outs m) c main_v0 (by decide)).symm)
  | ⟨1, _⟩ => ((dat0 (E1 m) c).arrAt_in 1 rfl _).trans ((A_eq0 (E1 m) c 1).trans (V2_of m (outs m) c main_v0 (by decide)).symm)
  | ⟨2, _⟩ => (V2_19_0 m c).symm
  | ⟨3, _⟩ => (V2_19_1 m c).symm
theorem hrest0 (c : Dev nD) : ∀ b : Ref sig .tc, b ∉ Finset.univ.image (Pipeline.arrRef spec0) → V2 m (outs m) c b = V1 m c b :=
  fun b hb => V2_of m (outs m) c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · exact absurd hmem (List.not_mem_nil))
theorem hF1 (c : Dev nD) : ∀ w : Fin cfg1.W, (dat1 (E3 m) c).arrAt w cfg1.N = V4 m (outs m) c (Pipeline.arrRef spec1 w) := fun
  | ⟨0, _⟩ => ((dat1 (E3 m) c).arrAt_in 0 rfl _).trans ((A_eq1 (E3 m) c 0).trans ((congrFun (V3_outs m c) _).symm.trans (V4_of m (outs m) c main_v1 (by decide)).symm))
  | ⟨1, _⟩ => ((dat1 (E3 m) c).arrAt_in 1 rfl _).trans ((A_eq1 (E3 m) c 1).trans ((congrFun (V3_outs m c) _).symm.trans (V4_of m (outs m) c main_v1 (by decide)).symm))
  | ⟨2, _⟩ => (V4_22_0 m c).symm
  | ⟨3, _⟩ => (V4_22_1 m c).symm
theorem hrest1 (c : Dev nD) : ∀ b : Ref sig .tc, b ∉ Finset.univ.image (Pipeline.arrRef spec1) → V4 m (outs m) c b = V3 m (outs m) c b :=
  fun b hb => V4_of m (outs m) c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · exact absurd hmem (List.not_mem_nil))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c
/-- No core owes another anything: no level is assigned. -/
abbrev L0 : GSem nD τ sig → Finset Unit := fun _ => ∅
abbrev lv0 : GSem nD τ sig → Unit → ℕ := fun _ _ => 0
/-- What rides beside the buffers through every item: the core's generator register at some state and its dues, none. -/
abbrev Rst (c : Dev nD) : sProp 𝕄 := iprop((∃ r, prngReg c r) ∗ ∃ W, owes (c : Thread nD τ) (0 : CellTallies nD τ sig Unit) W)
abbrev Est : Fin 3 → Dev nD → sProp 𝕄 := fun _ c => Rst c

set_option backward.isDefEq.respectTransparency.types false in
/-- The first kernel region: entered from the buffers after the first host stretch, left with its two outputs at what
    the pipeline wrote back; the one input array split between its two windows at entry and rejoined at exit. -/
def reg0 : Pipeline.RegionSeg (pcfgs (F := F)) adm (pdats m) () defs₀ Variants.none L0 lv0 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L0 lv0 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := entry_arrays0 (F := F) c (pdats m 0 c) rfl rfl (V1 m c) (fun _ => rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    refine (hout0 (E1 m) c).trans ?_
    rw [Pipeline.ownSems0_none]; unfold Pipeline.ΦA
    iintro ⟨Hr, Hp⟩
    isplitl [Hp]; · iexact Hp
    isplitr; · iempintro
    iexact Hr
  hexit c := by
    have hjoin := exit_arrays0 (F := F) c (pdats m 0 c) rfl rfl (V1 m c) (V2 m (outs m) c) ((pdats m 0 c).arrAt · cfg0.N) (hF0 m c) (hrest0 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region, on the lower half, the same way. -/
def reg1 : Pipeline.RegionSeg (pcfgs (F := F)) adm (pdats m) () defs₀ Variants.none L0 lv0 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L0 lv0 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := entry_arrays1 (F := F) c (pdats m 1 c) rfl rfl (V3 m (outs m) c) (fun w => (congrFun (V3_outs m c) _).symm)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E3 m) c)
    unfold Pipeline.ΦA
    iintro ⟨Hp, -, Hr⟩
    isplitl [Hr]; · iexact Hr
    iexact Hp
  hout c := by
    refine (hout1 (E3 m) c).trans ?_
    rw [Pipeline.ownSems0_none]; unfold Pipeline.ΦA
    iintro ⟨Hr, Hp⟩
    isplitl [Hp]; · iexact Hp
    isplitr; · iempintro
    iexact Hr
  hexit c := by
    have hjoin := exit_arrays1 (F := F) c (pdats m 1 c) rfl rfl (V3 m (outs m) c) (V4 m (outs m) c) ((pdats m 1 c).arrAt · cfg1.N) (hF1 m c) (hrest1 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory m terminates, nothing faulting, with the result buffer at the
    last valuation (the host tail applied to the two kernels' outputs and the positive term) and the argument as
    launched. -/
theorem run_value : θ_run defs (onTc (τ := τ) (main (F := F))) ⟨m, fun _ => 0, ρ⟩ (fun r => ∀ c : Dev nD,
      r.2.mem ((c.tc : Thread nD τ).loc main_v31) = V5 m (outs m) c main_v31
      ∧ r.2.mem ((c.tc : Thread nD τ).loc main_arg0) = m ((c.tc : Thread nD τ).loc main_arg0)) := by
  refine Pipeline.θ_run_regions_kit_dev (pcfgs (F := F)) adm (pdats m) () cellOf_inj emb₁ defs₀ Variants.none L0 lv0 m ρ main
    (segs m (outs m) Variants.none L0 lv0 (Est (F := F)) () (pdats m) (reg0 m) (reg1 m))
    (fun c Q => by
      rewrite [main_chain c, Pipeline.Seg.run_eq_chain,
        show (segs m (outs m) Variants.none L0 lv0 (Est (F := F)) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V5 m (outs m) c))
    (hch := fun c => ⟨.rfl, .rfl, .rfl, .rfl, .rfl, sep_mono .rfl (by iintro ⟨-, HO⟩; iexact HO)⟩)
    (hinit := ?_)
    (QY := fun c s => s.mem ((c.tc : Thread nD τ).loc main_v31) = V5 m (outs m) c main_v31
      ∧ s.mem ((c.tc : Thread nD τ).loc main_arg0) = m ((c.tc : Thread nD τ).loc main_arg0))
    (hfin := fun c s' => ?_) (hQ := fun _ h => h)
  · refine Pipeline.initEach L0 lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v31) (Finset.mem_filter.mpr ⟨StableHlo.devRef_mem_tcRefs main_v31, by decide⟩),
        (h (Proc.devRef .tc main_arg0) (Finset.mem_filter.mpr ⟨StableHlo.devRef_mem_tcRefs main_arg0, by decide⟩)).trans (V5_main_arg0 m (outs m) c)⟩
    · iexact HSI

end Cert.KernelIdeal.Hand

end
-- ==== Proof.Piece0.lean ====
/-
  What the body of similarity-statistics call 0 leaves in its buffers, read back as the body's own arithmetic: at each kind
  of grid point the stores the run found tile the 1 × 1 buffer they go to, so the buffer ends holding the last
  store's value, and that value is the body's running sum of the two loaded row blocks, the grid point and the
  entry the buffer held (the zero start at the first point); at the last point each output's block is the
  running sum's buffer read back after its store.
-/
import proofs.«168013_j80238579024621_1_alg».proof.Proof.KIRun0C
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-- The zero offsets of a whole-buffer access. -/
theorem piece_hz : (![0, 0] : Fin 2 → Nat) = fun _ => 0 := funext fun a => by fin_cases a <;> rfl

/-- At the first grid point the first running sum's buffer is stored the zero start and then the start plus the tile's share: its two stores tile the 1 × 1 buffer. -/
theorem pcover0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) (y : S1x1.Idx) :
    ∃ pc ∈ (run0_A c i arg2 harg2 arg3 harg3 arg4 harg4 arg5 harg5 arg6 harg6 arg7 harg7 hc0 hc1 x0 x1).1, y ∈ pc.1.set :=
  View.cover_of_tiledL (run0_A c i arg2 harg2 arg3 harg3 arg4 harg4 arg5 harg5 arg6 harg6 arg7 harg7 hc0 hc1 x0 x1).1 S1x1.size (by sl_kernel_rfl) y

/-- At the first grid point the first running sum's buffer ends holding the body's first sum taken from the zero start. -/
theorem piece0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) :
    VS0_0.read (Elt F) (VS0_0.writes (Elt F) VS0_0.junk (run0_A c i arg2 harg2 arg3 harg3 arg4 harg4 arg5 harg5 arg6 harg6 arg7 harg7 hc0 hc1 x0 x1).1)
      = k0_pay2 (k0_pay6 x0 x1) (k0_pay7 i) (Scalar.muli (BitVec.ofNat 32 (i 1).val) 512#32) (iota .tc S512x512 32 [1] iota_S512x512_d1_w32) (k0_pay4 (F := F)) := by
  rw [View.read_writes_eq_canon _ _ _ (pcover0_A_0 c i arg2 harg2 arg3 harg3 arg4 harg4 arg5 harg5 arg6 harg6 arg7 harg7 hc0 hc1 x0 x1)]
  unfold run0_A
  dsimp only
  try sl_unfold_words
  rw [View.canon_cons_unit_zero piece_hz, View.readCov_unit_zero (S := S1x1) _ piece_hz]
  simp only [View.readAt_eq_ld, harg2.read_unread, harg3.read_unread, View.ld_unit_zero (S := S512x128) piece_hz]

/-- At the first grid point the second running sum's two stores tile its 1 × 1 buffer. -/
theorem pcover0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) (y : S1x1.Idx) :
    ∃ pc ∈ (run0_A c i arg2 harg2 arg3 harg3 arg4 harg4 arg5 harg5 arg6 harg6 arg7 harg7 hc0 hc1 x0 x1).2.1, y ∈ pc.1.set :=
  View.cover_of_tiledL (run0_A c i arg2 harg2 arg3 harg3 arg4 harg4 arg5 harg5 arg6 harg6 arg7 harg7 hc0 hc1 x0 x1).2.1 S1x1.size (by sl_kernel_rfl) y

/-- At the first grid point the second running sum's buffer ends holding the body's second sum taken from the zero start. -/
theorem piece0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec F S512x128 .f32) :
    VS0_1.read (Elt F) (VS0_1.writes (Elt F) VS0_1.junk (run0_A c i arg2 harg2 arg3 harg3 arg4 harg4 arg5 harg5 arg6 harg6 arg7 harg7 hc0 hc1 x0 x1).2.1)
      = k0_pay3 (k0_pay6 x0 x1) (k0_pay7 i) (Scalar.muli (BitVec.ofNat 32 (i 1).val) 512#32) (iota .tc S512x512 32 [1] iota_S512x512_d1_w32) (k0_pay5 (F := F)) := by
  rw [View.read_writes_eq_canon _ _ _ (pcover0_A_1 c i arg2 harg2 arg3 harg3 arg4 harg4 arg5 harg5 arg6 harg6 arg7 harg7 hc0 hc1 x0 x1)]
  unfold run0_A
  dsimp only
  try sl_unfold_words
  rw [View.canon_cons_unit_zero piece_hz, View.readCov_unit_zero (S := S1x1) _ piece_hz]
  simp only [View.readAt_eq_ld, harg2.read_unread, harg3.read_unread, View.ld_unit_zero (S := S512x128) piece_hz]

/-- At a middle grid point the first running sum's one store tiles its 1 × 1 buffer. -/
theorem pcover0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) (y : S1x1.Idx) :
    ∃ pc ∈ (run0_B c i arg2 harg2 arg3 harg3 arg4 harg4 arg5 harg5 arg6 harg6 arg7 harg7 hc0 hc1 x0 x1 xs0 xs1).1, y ∈ pc.1.set :=
  View.cover_of_tiledL (run0_B c i arg2 harg2 arg3 harg3 arg4 harg4 arg5 harg5 arg6 harg6 arg7 harg7 hc0 hc1 x0 x1 xs0 xs1).1 S1x1.size (by sl_kernel_rfl) y

/-- At a middle grid point the first running sum's buffer ends holding the body's first sum taken from what it held. -/
theorem piece0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) :
    VS0_0.read (Elt F) (VS0_0.writes (Elt F) VS0_0.junk (run0_B c i arg2 harg2 arg3 harg3 arg4 harg4 arg5 harg5 arg6 harg6 arg7 harg7 hc0 hc1 x0 x1 xs0 xs1).1)
      = k0_pay2 (k0_pay6 x0 x1) (k0_pay7 i) (Scalar.muli (BitVec.ofNat 32 (i 1).val) 512#32) (iota .tc S512x512 32 [1] iota_S512x512_d1_w32) xs0 := by
  rw [View.read_writes_eq_canon _ _ _ (pcover0_B_0 c i arg2 harg2 arg3 harg3 arg4 harg4 arg5 harg5 arg6 harg6 arg7 harg7 hc0 hc1 x0 x1 xs0 xs1)]
  unfold run0_B
  dsimp only
  try sl_unfold_words
  rw [View.canon_unit_zero piece_hz]
  simp only [View.readAt_eq_ld, harg2.read_unread, harg3.read_unread, harg6.read_unread, View.ld_unit_zero (S := S512x128) piece_hz, View.ld_unit_zero (S := S1x1) piece_hz]

/-- At a middle grid point the second running sum's one store tiles its 1 × 1 buffer. -/
theorem pcover0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) (y : S1x1.Idx) :
    ∃ pc ∈ (run0_B c i arg2 harg2 arg3 harg3 arg4 harg4 arg5 harg5 arg6 harg6 arg7 harg7 hc0 hc1 x0 x1 xs0 xs1).2.1, y ∈ pc.1.set :=
  View.cover_of_tiledL (run0_B c i arg2 harg2 arg3 harg3 arg4 harg4 arg5 harg5 arg6 harg6 arg7 harg7 hc0 hc1 x0 x1 xs0 xs1).2.1 S1x1.size (by sl_kernel_rfl) y

/-- At a middle grid point the second running sum's buffer ends holding the body's second sum taken from what it held. -/
theorem piece0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec F S512x128 .f32) (xs0 xs1 : Vec F S1x1 .f32) :
    VS0_1.read (Elt F) (VS0_1.writes (Elt F) VS0_1.junk (run0_B c i arg2 harg2 arg3 harg3 arg4 harg4 arg5 harg5 arg6 harg6 arg7 harg7 hc0 hc1 x0 x1 xs0 xs1).2.1)
      = k0_pay3 (k0_pay6 x0 x1) (k0_pay7 i) (Scalar.muli (BitVec.ofNat 32 (i 1).val) 512#32) (iota .tc S512x512 32 [1] iota_S512x512_d1_w32) xs1 := by
  rw [View.read_writes_eq_canon _ _ _ (pcover0_B_1 c i arg2 harg2 arg3 harg3 arg4 harg4 arg5 harg5 arg6 harg6 arg7 harg7 hc0 hc1 x0 x1 xs0 xs1)]
  unfold run0_B
  dsimp only
  try sl_unfold_words
  rw [View.canon_unit_zero piece_hz]
  simp only [View.readAt_eq_ld, harg2.read_unread, harg3.read_unread, harg7.read_unread, View.ld_unit_zero (S := S512x128) piece_hz, View.ld_unit_zero (S := S1x1) piece_hz]

/-- At the last grid point the first running sum's one store tiles its 1 × 1 buffer. -/
theorem pcover0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).2.2.1, y ∈ pc.1.set :=
  View.cover_of_tiledL (run0_C c i arg2 harg2 arg3 harg3 arg4 harg4 arg5 harg5 arg6 harg6 arg7 harg7 hc0 hc1 x0 x1 xs0 xs1).2.2.1 S1x1.size (by sl_kernel_rfl) y

/-- At the last grid point the first running sum's buffer ends holding the body's first sum taken from what it held. -/
theorem piece0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) :
    VS0_0.read (Elt F) (VS0_0.writes (Elt F) VS0_0.junk (run0_C c i arg2 harg2 arg3 harg3 arg4 harg4 arg5 harg5 arg6 harg6 arg7 harg7 hc0 hc1 x0 x1 xs0 xs1).2.2.1)
      = k0_pay2 (k0_pay6 x0 x1) (k0_pay7 i) (Scalar.muli (BitVec.ofNat 32 (i 1).val) 512#32) (iota .tc S512x512 32 [1] iota_S512x512_d1_w32) xs0 := by
  rw [View.read_writes_eq_canon _ _ _ (pcover0_C_0 c i arg2 harg2 arg3 harg3 arg4 harg4 arg5 harg5 arg6 harg6 arg7 harg7 hc0 hc1 x0 x1 xs0 xs1)]
  unfold run0_C
  dsimp only
  try sl_unfold_words
  rw [View.canon_unit_zero piece_hz]
  simp only [View.readAt_eq_ld, harg2.read_unread, harg3.read_unread, harg6.read_unread, View.ld_unit_zero (S := S512x128) piece_hz, View.ld_unit_zero (S := S1x1) piece_hz]

/-- At the last grid point the second running sum's one store tiles its 1 × 1 buffer. -/
theorem pcover0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).2.2.2.1, y ∈ pc.1.set :=
  View.cover_of_tiledL (run0_C c i arg2 harg2 arg3 harg3 arg4 harg4 arg5 harg5 arg6 harg6 arg7 harg7 hc0 hc1 x0 x1 xs0 xs1).2.2.2.1 S1x1.size (by sl_kernel_rfl) y

/-- At the last grid point the second running sum's buffer ends holding the body's second sum taken from what it held. -/
theorem piece0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) :
    VS0_1.read (Elt F) (VS0_1.writes (Elt F) VS0_1.junk (run0_C c i arg2 harg2 arg3 harg3 arg4 harg4 arg5 harg5 arg6 harg6 arg7 harg7 hc0 hc1 x0 x1 xs0 xs1).2.2.2.1)
      = k0_pay3 (k0_pay6 x0 x1) (k0_pay7 i) (Scalar.muli (BitVec.ofNat 32 (i 1).val) 512#32) (iota .tc S512x512 32 [1] iota_S512x512_d1_w32) xs1 := by
  rw [View.read_writes_eq_canon _ _ _ (pcover0_C_1 c i arg2 harg2 arg3 harg3 arg4 harg4 arg5 harg5 arg6 harg6 arg7 harg7 hc0 hc1 x0 x1 xs0 xs1)]
  unfold run0_C
  dsimp only
  try sl_unfold_words
  rw [View.canon_unit_zero piece_hz]
  simp only [View.readAt_eq_ld, harg2.read_unread, harg3.read_unread, harg7.read_unread, View.ld_unit_zero (S := S512x128) piece_hz, View.ld_unit_zero (S := S1x1) piece_hz]

/-- At the last grid point the first output's one store tiles its 1 × 1 block. -/
theorem pcover0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).1, y ∈ pc.1.set :=
  View.cover_of_tiledL (run0_C c i arg2 harg2 arg3 harg3 arg4 harg4 arg5 harg5 arg6 harg6 arg7 harg7 hc0 hc1 x0 x1 xs0 xs1).1 S1x1.size (by sl_kernel_rfl) y

/-- At the last grid point the first output's block ends holding the first running sum's new contents, read back after its store. -/
theorem piece0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) :
    VO0_2.read (Elt F) (VO0_2.writes (Elt F) VO0_2.junk (run0_C c i arg2 harg2 arg3 harg3 arg4 harg4 arg5 harg5 arg6 harg6 arg7 harg7 hc0 hc1 x0 x1 xs0 xs1).1)
      = k0_pay2 (k0_pay6 x0 x1) (k0_pay7 i) (Scalar.muli (BitVec.ofNat 32 (i 1).val) 512#32) (iota .tc S512x512 32 [1] iota_S512x512_d1_w32) xs0 := by
  rw [View.read_writes_eq_canon _ _ _ (pcover0_C_2 c i arg2 harg2 arg3 harg3 arg4 harg4 arg5 harg5 arg6 harg6 arg7 harg7 hc0 hc1 x0 x1 xs0 xs1)]
  unfold run0_C
  dsimp only
  try sl_unfold_words
  rw [View.canon_unit_zero piece_hz, View.readCov_unit_zero (S := S1x1) _ piece_hz]
  simp only [View.readAt_eq_ld, harg2.read_unread, harg3.read_unread, harg6.read_unread, View.ld_unit_zero (S := S512x128) piece_hz, View.ld_unit_zero (S := S1x1) piece_hz]

/-- At the last grid point the second output's one store tiles its 1 × 1 block. -/
theorem pcover0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) (y : S1x1.Idx) :
    ∃ pc ∈ (run0_C c i arg2 harg2 arg3 harg3 arg4 harg4 arg5 harg5 arg6 harg6 arg7 harg7 hc0 hc1 x0 x1 xs0 xs1).2.1, y ∈ pc.1.set :=
  View.cover_of_tiledL (run0_C c i arg2 harg2 arg3 harg3 arg4 harg4 arg5 harg5 arg6 harg6 arg7 harg7 hc0 hc1 x0 x1 xs0 xs1).2.1 S1x1.size (by sl_kernel_rfl) y

/-- At the last grid point the second output's block ends holding the second running sum's new contents, read back after its store. -/
theorem piece0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) :
    VO0_3.read (Elt F) (VO0_3.writes (Elt F) VO0_3.junk (run0_C c i arg2 harg2 arg3 harg3 arg4 harg4 arg5 harg5 arg6 harg6 arg7 harg7 hc0 hc1 x0 x1 xs0 xs1).2.1)
      = k0_pay3 (k0_pay6 x0 x1) (k0_pay7 i) (Scalar.muli (BitVec.ofNat 32 (i 1).val) 512#32) (iota .tc S512x512 32 [1] iota_S512x512_d1_w32) xs1 := by
  rw [View.read_writes_eq_canon _ _ _ (pcover0_C_3 c i arg2 harg2 arg3 harg3 arg4 harg4 arg5 harg5 arg6 harg6 arg7 harg7 hc0 hc1 x0 x1 xs0 xs1)]
  unfold run0_C
  dsimp only
  try sl_unfold_words
  rw [View.canon_unit_zero piece_hz, View.readCov_unit_zero (S := S1x1) _ piece_hz]
  simp only [View.readAt_eq_ld, harg2.read_unread, harg3.read_unread, harg7.read_unread, View.ld_unit_zero (S := S512x128) piece_hz, View.ld_unit_zero (S := S1x1) piece_hz]

end Cert.KernelIdeal.Hand

end
-- ==== Proof.Piece1.lean ====
/-
  What the body of similarity-statistics call 1 leaves in its buffers, read back as the body's own arithmetic: at each kind
  of grid point the stores the run found tile the 1 × 1 buffer they go to, so the buffer ends holding the last
  store's value, and that value is the body's running sum of the two loaded row blocks, the grid point and the
  entry the buffer held (the zero start at the first point); at the last point each output's block is the
  running sum's buffer read back after its store.
-/
import proofs.«168013_j80238579024621_1_alg».proof.Proof.KIRun1C
import proofs.«168013_j80238579024621_1_alg».proof.Proof.Piece0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-- At the first grid point the first running sum's buffer is stored the zero start and then the start plus the tile's share: its two stores tile the 1 × 1 buffer. -/
theorem pcover1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) (y : S1x1.Idx) :
    ∃ pc ∈ (run1_A c i arg2 harg2 arg3 harg3 arg4 harg4 arg5 harg5 arg6 harg6 arg7 harg7 hc0 hc1 x0 x1).1, y ∈ pc.1.set :=
  View.cover_of_tiledL (run1_A c i arg2 harg2 arg3 harg3 arg4 harg4 arg5 harg5 arg6 harg6 arg7 harg7 hc0 hc1 x0 x1).1 S1x1.size (by sl_kernel_rfl) y

/-- At the first grid point the first running sum's buffer ends holding the body's first sum taken from the zero start. -/
theorem piece1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) :
    VS1_0.read (Elt F) (VS1_0.writes (Elt F) VS1_0.junk (run1_A c i arg2 harg2 arg3 harg3 arg4 harg4 arg5 harg5 arg6 harg6 arg7 harg7 hc0 hc1 x0 x1).1)
      = k1_pay2 (k1_pay6 x0 x1) (k1_pay7 i) (Scalar.muli (BitVec.ofNat 32 (i 1).val) 512#32) (iota .tc S512x512 32 [1] iota_S512x512_d1_w32) (k1_pay4 (F := F)) := by
  rw [View.read_writes_eq_canon _ _ _ (pcover1_A_0 c i arg2 harg2 arg3 harg3 arg4 harg4 arg5 harg5 arg6 harg6 arg7 harg7 hc0 hc1 x0 x1)]
  unfold run1_A
  dsimp only
  try sl_unfold_words
  rw [View.canon_cons_unit_zero piece_hz, View.readCov_unit_zero (S := S1x1) _ piece_hz]
  simp only [View.readAt_eq_ld, harg2.read_unread, harg3.read_unread, View.ld_unit_zero (S := S512x128) piece_hz]

/-- At the first grid point the second running sum's two stores tile its 1 × 1 buffer. -/
theorem pcover1_A_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) (y : S1x1.Idx) :
    ∃ pc ∈ (run1_A c i arg2 harg2 arg3 harg3 arg4 harg4 arg5 harg5 arg6 harg6 arg7 harg7 hc0 hc1 x0 x1).2.1, y ∈ pc.1.set :=
  View.cover_of_tiledL (run1_A c i arg2 harg2 arg3 harg3 arg4 harg4 arg5 harg5 arg6 harg6 arg7 harg7 hc0 hc1 x0 x1).2.1 S1x1.size (by sl_kernel_rfl) y

/-- At the first grid point the second running sum's buffer ends holding the body's second sum taken from the zero start. -/
theorem piece1_A_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec F S512x128 .f32) :
    VS1_1.read (Elt F) (VS1_1.writes (Elt F) VS1_1.junk (run1_A c i arg2 harg2 arg3 harg3 arg4 harg4 arg5 harg5 arg6 harg6 arg7 harg7 hc0 hc1 x0 x1).2.1)
      = k1_pay3 (k1_pay6 x0 x1) (k1_pay7 i) (Scalar.muli (BitVec.ofNat 32 (i 1).val) 512#32) (iota .tc S512x512 32 [1] iota_S512x512_d1_w32) (k1_pay5 (F := F)) := by
  rw [View.read_writes_eq_canon _ _ _ (pcover1_A_1 c i arg2 harg2 arg3 harg3 arg4 harg4 arg5 harg5 arg6 harg6 arg7 harg7 hc0 hc1 x0 x1)]
  unfold run1_A
  dsimp only
  try sl_unfold_words
  rw [View.canon_cons_unit_zero piece_hz, View.readCov_unit_zero (S := S1x1) _ piece_hz]
  simp only [View.readAt_eq_ld, harg2.read_unread, harg3.read_unread, View.ld_unit_zero (S := S512x128) piece_hz]

/-- At a middle grid point the first running sum's one store tiles its 1 × 1 buffer. -/
theorem pcover1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) (y : S1x1.Idx) :
    ∃ pc ∈ (run1_B c i arg2 harg2 arg3 harg3 arg4 harg4 arg5 harg5 arg6 harg6 arg7 harg7 hc0 hc1 x0 x1 xs0 xs1).1, y ∈ pc.1.set :=
  View.cover_of_tiledL (run1_B c i arg2 harg2 arg3 harg3 arg4 harg4 arg5 harg5 arg6 harg6 arg7 harg7 hc0 hc1 x0 x1 xs0 xs1).1 S1x1.size (by sl_kernel_rfl) y

/-- At a middle grid point the first running sum's buffer ends holding the body's first sum taken from what it held. -/
theorem piece1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) :
    VS1_0.read (Elt F) (VS1_0.writes (Elt F) VS1_0.junk (run1_B c i arg2 harg2 arg3 harg3 arg4 harg4 arg5 harg5 arg6 harg6 arg7 harg7 hc0 hc1 x0 x1 xs0 xs1).1)
      = k1_pay2 (k1_pay6 x0 x1) (k1_pay7 i) (Scalar.muli (BitVec.ofNat 32 (i 1).val) 512#32) (iota .tc S512x512 32 [1] iota_S512x512_d1_w32) xs0 := by
  rw [View.read_writes_eq_canon _ _ _ (pcover1_B_0 c i arg2 harg2 arg3 harg3 arg4 harg4 arg5 harg5 arg6 harg6 arg7 harg7 hc0 hc1 x0 x1 xs0 xs1)]
  unfold run1_B
  dsimp only
  try sl_unfold_words
  rw [View.canon_unit_zero piece_hz]
  simp only [View.readAt_eq_ld, harg2.read_unread, harg3.read_unread, harg6.read_unread, View.ld_unit_zero (S := S512x128) piece_hz, View.ld_unit_zero (S := S1x1) piece_hz]

/-- At a middle grid point the second running sum's one store tiles its 1 × 1 buffer. -/
theorem pcover1_B_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) (y : S1x1.Idx) :
    ∃ pc ∈ (run1_B c i arg2 harg2 arg3 harg3 arg4 harg4 arg5 harg5 arg6 harg6 arg7 harg7 hc0 hc1 x0 x1 xs0 xs1).2.1, y ∈ pc.1.set :=
  View.cover_of_tiledL (run1_B c i arg2 harg2 arg3 harg3 arg4 harg4 arg5 harg5 arg6 harg6 arg7 harg7 hc0 hc1 x0 x1 xs0 xs1).2.1 S1x1.size (by sl_kernel_rfl) y

/-- At a middle grid point the second running sum's buffer ends holding the body's second sum taken from what it held. -/
theorem piece1_B_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec F S512x128 .f32) (xs0 xs1 : Vec F S1x1 .f32) :
    VS1_1.read (Elt F) (VS1_1.writes (Elt F) VS1_1.junk (run1_B c i arg2 harg2 arg3 harg3 arg4 harg4 arg5 harg5 arg6 harg6 arg7 harg7 hc0 hc1 x0 x1 xs0 xs1).2.1)
      = k1_pay3 (k1_pay6 x0 x1) (k1_pay7 i) (Scalar.muli (BitVec.ofNat 32 (i 1).val) 512#32) (iota .tc S512x512 32 [1] iota_S512x512_d1_w32) xs1 := by
  rw [View.read_writes_eq_canon _ _ _ (pcover1_B_1 c i arg2 harg2 arg3 harg3 arg4 harg4 arg5 harg5 arg6 harg6 arg7 harg7 hc0 hc1 x0 x1 xs0 xs1)]
  unfold run1_B
  dsimp only
  try sl_unfold_words
  rw [View.canon_unit_zero piece_hz]
  simp only [View.readAt_eq_ld, harg2.read_unread, harg3.read_unread, harg7.read_unread, View.ld_unit_zero (S := S512x128) piece_hz, View.ld_unit_zero (S := S1x1) piece_hz]

/-- At the last grid point the first running sum's one store tiles its 1 × 1 buffer. -/
theorem pcover1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).2.2.1, y ∈ pc.1.set :=
  View.cover_of_tiledL (run1_C c i arg2 harg2 arg3 harg3 arg4 harg4 arg5 harg5 arg6 harg6 arg7 harg7 hc0 hc1 x0 x1 xs0 xs1).2.2.1 S1x1.size (by sl_kernel_rfl) y

/-- At the last grid point the first running sum's buffer ends holding the body's first sum taken from what it held. -/
theorem piece1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) :
    VS1_0.read (Elt F) (VS1_0.writes (Elt F) VS1_0.junk (run1_C c i arg2 harg2 arg3 harg3 arg4 harg4 arg5 harg5 arg6 harg6 arg7 harg7 hc0 hc1 x0 x1 xs0 xs1).2.2.1)
      = k1_pay2 (k1_pay6 x0 x1) (k1_pay7 i) (Scalar.muli (BitVec.ofNat 32 (i 1).val) 512#32) (iota .tc S512x512 32 [1] iota_S512x512_d1_w32) xs0 := by
  rw [View.read_writes_eq_canon _ _ _ (pcover1_C_0 c i arg2 harg2 arg3 harg3 arg4 harg4 arg5 harg5 arg6 harg6 arg7 harg7 hc0 hc1 x0 x1 xs0 xs1)]
  unfold run1_C
  dsimp only
  try sl_unfold_words
  rw [View.canon_unit_zero piece_hz]
  simp only [View.readAt_eq_ld, harg2.read_unread, harg3.read_unread, harg6.read_unread, View.ld_unit_zero (S := S512x128) piece_hz, View.ld_unit_zero (S := S1x1) piece_hz]

/-- At the last grid point the second running sum's one store tiles its 1 × 1 buffer. -/
theorem pcover1_C_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).2.2.2.1, y ∈ pc.1.set :=
  View.cover_of_tiledL (run1_C c i arg2 harg2 arg3 harg3 arg4 harg4 arg5 harg5 arg6 harg6 arg7 harg7 hc0 hc1 x0 x1 xs0 xs1).2.2.2.1 S1x1.size (by sl_kernel_rfl) y

/-- At the last grid point the second running sum's buffer ends holding the body's second sum taken from what it held. -/
theorem piece1_C_1 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) :
    VS1_1.read (Elt F) (VS1_1.writes (Elt F) VS1_1.junk (run1_C c i arg2 harg2 arg3 harg3 arg4 harg4 arg5 harg5 arg6 harg6 arg7 harg7 hc0 hc1 x0 x1 xs0 xs1).2.2.2.1)
      = k1_pay3 (k1_pay6 x0 x1) (k1_pay7 i) (Scalar.muli (BitVec.ofNat 32 (i 1).val) 512#32) (iota .tc S512x512 32 [1] iota_S512x512_d1_w32) xs1 := by
  rw [View.read_writes_eq_canon _ _ _ (pcover1_C_1 c i arg2 harg2 arg3 harg3 arg4 harg4 arg5 harg5 arg6 harg6 arg7 harg7 hc0 hc1 x0 x1 xs0 xs1)]
  unfold run1_C
  dsimp only
  try sl_unfold_words
  rw [View.canon_unit_zero piece_hz]
  simp only [View.readAt_eq_ld, harg2.read_unread, harg3.read_unread, harg7.read_unread, View.ld_unit_zero (S := S512x128) piece_hz, View.ld_unit_zero (S := S1x1) piece_hz]

/-- At the last grid point the first output's one store tiles its 1 × 1 block. -/
theorem pcover1_C_2 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).1, y ∈ pc.1.set :=
  View.cover_of_tiledL (run1_C c i arg2 harg2 arg3 harg3 arg4 harg4 arg5 harg5 arg6 harg6 arg7 harg7 hc0 hc1 x0 x1 xs0 xs1).1 S1x1.size (by sl_kernel_rfl) y

/-- At the last grid point the first output's block ends holding the first running sum's new contents, read back after its store. -/
theorem piece1_C_2 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) :
    VO1_2.read (Elt F) (VO1_2.writes (Elt F) VO1_2.junk (run1_C c i arg2 harg2 arg3 harg3 arg4 harg4 arg5 harg5 arg6 harg6 arg7 harg7 hc0 hc1 x0 x1 xs0 xs1).1)
      = k1_pay2 (k1_pay6 x0 x1) (k1_pay7 i) (Scalar.muli (BitVec.ofNat 32 (i 1).val) 512#32) (iota .tc S512x512 32 [1] iota_S512x512_d1_w32) xs0 := by
  rw [View.read_writes_eq_canon _ _ _ (pcover1_C_2 c i arg2 harg2 arg3 harg3 arg4 harg4 arg5 harg5 arg6 harg6 arg7 harg7 hc0 hc1 x0 x1 xs0 xs1)]
  unfold run1_C
  dsimp only
  try sl_unfold_words
  rw [View.canon_unit_zero piece_hz, View.readCov_unit_zero (S := S1x1) _ piece_hz]
  simp only [View.readAt_eq_ld, harg2.read_unread, harg3.read_unread, harg6.read_unread, View.ld_unit_zero (S := S512x128) piece_hz, View.ld_unit_zero (S := S1x1) piece_hz]

/-- At the last grid point the second output's one store tiles its 1 × 1 block. -/
theorem pcover1_C_3 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) (y : S1x1.Idx) :
    ∃ pc ∈ (run1_C c i arg2 harg2 arg3 harg3 arg4 harg4 arg5 harg5 arg6 harg6 arg7 harg7 hc0 hc1 x0 x1 xs0 xs1).2.1, y ∈ pc.1.set :=
  View.cover_of_tiledL (run1_C c i arg2 harg2 arg3 harg3 arg4 harg4 arg5 harg5 arg6 harg6 arg7 harg7 hc0 hc1 x0 x1 xs0 xs1).2.1 S1x1.size (by sl_kernel_rfl) y

/-- At the last grid point the second output's block ends holding the second running sum's new contents, read back after its store. -/
theorem piece1_C_3 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) :
    VO1_3.read (Elt F) (VO1_3.writes (Elt F) VO1_3.junk (run1_C c i arg2 harg2 arg3 harg3 arg4 harg4 arg5 harg5 arg6 harg6 arg7 harg7 hc0 hc1 x0 x1 xs0 xs1).2.1)
      = k1_pay3 (k1_pay6 x0 x1) (k1_pay7 i) (Scalar.muli (BitVec.ofNat 32 (i 1).val) 512#32) (iota .tc S512x512 32 [1] iota_S512x512_d1_w32) xs1 := by
  rw [View.read_writes_eq_canon _ _ _ (pcover1_C_3 c i arg2 harg2 arg3 harg3 arg4 harg4 arg5 harg5 arg6 harg6 arg7 harg7 hc0 hc1 x0 x1 xs0 xs1)]
  unfold run1_C
  dsimp only
  try sl_unfold_words
  rw [View.canon_unit_zero piece_hz, View.readCov_unit_zero (S := S1x1) _ piece_hz]
  simp only [View.readAt_eq_ld, harg2.read_unread, harg3.read_unread, harg7.read_unread, View.ld_unit_zero (S := S512x128) piece_hz, View.ld_unit_zero (S := S1x1) piece_hz]

end Cert.KernelIdeal.Hand

end
-- ==== Proof.Spec.lean ====
/-
  The loss both programs compute, as one function of the feature matrix over the extended reals.

  The 16384 feature rows are two halves a (rows 0..8191) and b (rows 8192..16383) of 128 entries each.
  For one half x, the Cauchy similarity of rows p and q is 1 / (1·max(|x_p|² + |x_q|² − 2⟨x_p, x_q⟩, 0) + 1),
  forced to 0 on the diagonal p = q.  S1 x is the sum over all pairs of exp(½·sim)·sim and S2 x the sum over all
  pairs of sim.  The positive term is the mean over p of (s_p − 10)² − 1·s_p with s_p = 1 / (1·|a_p − b_p|² + 1).
  The loss is  pos + (S1 a / 8192 + S1 b / 8192) + ½·(S2 a + S2 b).

  The float literals stay as the words both programs print (the same word on both sides is never evaluated).
  The tile-level forms (simOff between two different row blocks, the diagonal decided by an arbitrary
  proposition) are what a grid point of the kernel computes on a 512 × 512 tile.
-/
import Idealize.ShloMosaic.PureOps.Ideal
import Idealize.ShloMosaic.Lib.ValueIdx

noncomputable section

open scoped BigOperators

namespace Cert.CauchyLoss

open Idealize.ShloMosaic Idealize.ShloMosaic.ValueIdx

/-- The literals of both programs, as the words they print. -/
abbrev zero : EReal := Ideal.ofBits .f32 0x00000000#32
abbrev one : EReal := Ideal.ofBits .f32 0x3F800000#32
abbrev two : EReal := Ideal.ofBits .f32 0x40000000#32
abbrev half : EReal := Ideal.ofBits .f32 0x3F000000#32
abbrev ten : EReal := Ideal.ofBits .f32 0x41200000#32
/-- 8192.0, the number of rows of a half. -/
abbrev nB : EReal := Ideal.ofBits .f32 0x46000000#32

/-- A block of n rows of 128 entries. -/
abbrev Rows (n : Nat) : Type := Fin n → Fin 128 → EReal

/-- The squared norm of row p. -/
def sqn {n : Nat} (a : Rows n) (p : Fin n) : EReal := ∑ k : Fin 128, a p k * a p k

/-- The inner product of row p of a and row q of b. -/
def dot {n m : Nat} (a : Rows n) (b : Rows m) (p : Fin n) (q : Fin m) : EReal := ∑ k : Fin 128, a p k * b q k

/-- The Cauchy similarity of row p of a and row q of b, off the diagonal. -/
def simOff {n m : Nat} (a : Rows n) (b : Rows m) (p : Fin n) (q : Fin m) : EReal :=
  Ideal.div one (one * max (sqn a p + sqn b q - two * dot a b p q) zero + one)

/-- A similarity forced to zero where the pair is on the diagonal. -/
def masked (d : Prop) [Decidable d] (s : EReal) : EReal := if d then zero else s

/-- The summand of S1. -/
def expTerm (s : EReal) : EReal := Ideal.exp (half * s) * s

/-- The similarity matrix of one half, its diagonal zero. -/
def sim (x : Rows 8192) (p q : Fin 8192) : EReal := masked (p = q) (simOff x x p q)

/-- The sum over all pairs of exp(½·sim)·sim. -/
def S1 (x : Rows 8192) : EReal := ∑ p : Fin 8192, ∑ q : Fin 8192, expTerm (sim x p q)

/-- The sum over all pairs of sim. -/
def S2 (x : Rows 8192) : EReal := ∑ p : Fin 8192, ∑ q : Fin 8192, sim x p q

/-- The similarity of the positive pair (a_p, b_p). -/
def posSim (a b : Rows 8192) (p : Fin 8192) : EReal :=
  Ideal.div one (one * (∑ k : Fin 128, (a p k - b p k) * (a p k - b p k)) + one)

/-- The positive term: the mean over the pairs of (s − 10)² − 1·s. -/
def pos (a b : Rows 8192) : EReal :=
  Ideal.div (∑ p : Fin 8192, ((posSim a b p - ten) * (posSim a b p - ten) - one * posSim a b p)) nB

/-- The loss. -/
def loss (a b : Rows 8192) : EReal :=
  pos a b + (Ideal.div (S1 a) nB + Ideal.div (S1 b) nB) + half * (S2 a + S2 b)

/-- The upper half of the feature matrix: rows 0 … 8191. -/
def upper (x : (⟨2, ![16384, 128]⟩ : Shape).Idx → EReal) : Rows 8192 :=
  fun p k => x (ix2 (⟨p.val, by omega⟩ : Fin 16384) k)

/-- The lower half of the feature matrix: rows 8192 … 16383. -/
def lower (x : (⟨2, ![16384, 128]⟩ : Shape).Idx → EReal) : Rows 8192 :=
  fun p k => x (ix2 (⟨8192 + p.val, by omega⟩ : Fin 16384) k)

/-- The loss of a feature matrix. -/
def lossOf (x : (⟨2, ![16384, 128]⟩ : Shape).Idx → EReal) : EReal := loss (upper x) (lower x)

/-! ## What one grid point adds

A grid point (i, j) of the 16 × 16 grid sees rows 512·i … 512·i + 511 as u and rows 512·j … 512·j + 511 as v, and
adds to its two running sums the tile's share of S1 and S2; the pair (r, c) of the tile is on the diagonal when
512·i + r = 512·j + c. -/

/-- The 512 rows of x from row 512·i on. -/
def tileRows (x : Rows 8192) (i : Fin 16) : Rows 512 := fun r k => x ⟨512 * i.val + r.val, by omega⟩ k

/-- The similarity at pair (r, c) of tile (i, j). -/
def tileSim (u v : Rows 512) (i j : Fin 16) (r c : Fin 512) : EReal :=
  masked (512 * i.val + r.val = 512 * j.val + c.val) (simOff u v r c)

/-- Tile (i, j)'s share of S1. -/
def tileS1 (u v : Rows 512) (i j : Fin 16) : EReal := ∑ r : Fin 512, ∑ c : Fin 512, expTerm (tileSim u v i j r c)

/-- Tile (i, j)'s share of S2. -/
def tileS2 (u v : Rows 512) (i j : Fin 16) : EReal := ∑ r : Fin 512, ∑ c : Fin 512, tileSim u v i j r c

end Cert.CauchyLoss

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.TileLib.lean ====
/-
  Reading one similarity tile at coordinates: sums along one axis of a matrix, and the comparison of two
  global row numbers that are carried as 32-bit words.
-/
import Idealize.ShloMosaic.PureOps.Ideal.Laws
import Idealize.ShloMosaic.Lib.ValueIdx
import Idealize.ShloMosaic.Lib.ValueLayout

noncomputable section

namespace Cert.KernelIdeal.TileValue

open Idealize.ShloMosaic Idealize.ShloMosaic.ValueIdx
open scoped BigOperators

/-- The sum along axis 1 of an `[a, b]` matrix, at row `r`: the sum over the columns of that row's entries. -/
theorem rowSum_apply {a b : Nat} (src : FVec Ideal ⟨2, ![a, b]⟩ .f32)
    (h : (⟨2, ![a, b]⟩ : Shape).Reduces [1] ⟨1, ![a]⟩)
    (hacc : (0x00000000#32 : BitVec 32) = 0x00000000#32) (r : Fin a) :
    multiReduction (F := Ideal) .add [1] ⟨1, ![a]⟩ src 0x00000000#32 h (.inl rfl) hacc (ix1 r)
      = ∑ k : Fin b, src (ix2 r k) := by
  refine (Ideal.multiReduction_add_single src 0x00000000#32 h (.inl rfl) hacc (ix1 r)).trans ?_
  show ∑ k : Fin b, src (h.lift (ix1 r) k) = _
  refine Finset.sum_congr rfl fun k _ => congrArg src ?_
  funext c
  match c with
  | ⟨0, _⟩ => rfl
  | ⟨1, _⟩ => rfl

/-- The sum along axis 0 of an `[a, b]` matrix, at column `c`: the sum over the rows of that column's entries. -/
theorem colSum_apply {a b : Nat} (src : FVec Ideal ⟨2, ![a, b]⟩ .f32)
    (h : (⟨2, ![a, b]⟩ : Shape).Reduces [0] ⟨1, ![b]⟩)
    (hacc : (0x00000000#32 : BitVec 32) = 0x00000000#32) (c : Fin b) :
    multiReduction (F := Ideal) .add [0] ⟨1, ![b]⟩ src 0x00000000#32 h (.inl rfl) hacc (ix1 c)
      = ∑ r : Fin a, src (ix2 r c) := by
  refine (Ideal.multiReduction_add_single src 0x00000000#32 h (.inl rfl) hacc (ix1 c)).trans ?_
  show ∑ r : Fin a, src (h.lift (ix1 c) r) = _
  refine Finset.sum_congr rfl fun r _ => congrArg src ?_
  funext d
  match d with
  | ⟨0, _⟩ => rfl
  | ⟨1, _⟩ => rfl

/-- The one-bit word of an integer equality test is set exactly when the two words are equal. -/
theorem cmpi_eq_one_iff {w : Nat} (x y : BitVec w) : IntOp.cmpi .eq x y = 1#1 ↔ x = y := by
  show BitVec.ofBool (x == y) = 1#1 ↔ x = y
  by_cases h : x = y
  · subst h; simp
  · have hb : (x == y) = false := beq_eq_false_iff_ne.2 h
    rw [hb]
    exact ⟨fun hw => absurd hw (by decide), fun hq => absurd hq h⟩

/-- The global row number `512·x + y` of a 16 × 16 grid of 512-row blocks, computed in 32-bit words, is that
    number: it stays below 8192. -/
theorem rowWord_toNat (x y : Nat) (hx : x < 16) (hy : y < 512) :
    (IntOp.addi (IntOp.muli (BitVec.ofNat 32 x) 512#32) (BitVec.ofNat 32 y)).toNat = 512 * x + y := by
  unfold IntOp.addi IntOp.muli
  rw [BitVec.toNat_add, BitVec.toNat_mul, BitVec.toNat_ofNat, BitVec.toNat_ofNat, BitVec.toNat_ofNat]
  omega

/-- Two global row numbers `512·i + r` and `512·j + c`, computed in 32-bit words, are equal as words exactly when
    they are equal as numbers. -/
theorem rowWord_eq_iff (i j : Nat) (r c : Nat) (hi : i < 16) (hj : j < 16) (hr : r < 512) (hc : c < 512) :
    IntOp.cmpi .eq (IntOp.addi (IntOp.muli (BitVec.ofNat 32 i) 512#32) (BitVec.ofNat 32 r))
        (IntOp.addi (IntOp.muli (BitVec.ofNat 32 j) 512#32) (BitVec.ofNat 32 c)) = 1#1
      ↔ 512 * i + r = 512 * j + c := by
  rw [cmpi_eq_one_iff]
  constructor
  · intro hw
    have hq := congrArg BitVec.toNat hw
    rw [rowWord_toNat i r hi hr, rowWord_toNat j c hj hc] at hq
    exact hq
  · intro hn
    exact BitVec.eq_of_toNat_eq (by rw [rowWord_toNat i r hi hr, rowWord_toNat j c hj hc, hn])

end Cert.KernelIdeal.TileValue

end
-- ==== Proof.TileSim.lean ====
/-
  The similarity tile of one grid point, read at a pair (r, c): the kernel's 512 × 512 array of
  1 / (1·max(|u_r|² + |v_c|² − 2⟨u_r, v_c⟩, 0) + 1), where u and v are the two 512 × 128 blocks the point sees.
  The squared norms arrive as a column (kept by the row sums of u ∘ u) and as a row (the column of v ∘ v,
  transposed); the inner products arrive as the matrix product u · vᵀ accumulated into zeros.
-/
import proofs.«168013_j80238579024621_1_alg».proof.Proof.Gen.KernelIdeal.Skeleton
import proofs.«168013_j80238579024621_1_alg».proof.Proof.Spec
import proofs.«168013_j80238579024621_1_alg».proof.Proof.LibMatmul
import proofs.«168013_j80238579024621_1_alg».proof.Proof.LibColumn
import proofs.«168013_j80238579024621_1_alg».proof.Proof.TileLib

noncomputable section

namespace Cert.KernelIdeal.TileValue

open Idealize.ShloMosaic Idealize.ShloMosaic.ValueIdx Cert.KernelIdeal Cert.KernelIdeal.Gen
open scoped BigOperators

/-- A loaded 512 × 128 block as 512 rows of 128 entries. -/
def rowsOf (v : FVec Ideal S512x128 .f32) : Cert.CauchyLoss.Rows 512 := fun r k => v (ix2 r k)

/-- The row sums of the block's entrywise square: the squared norm of each row. -/
theorem sqnVec_apply (v : FVec Ideal S512x128 .f32) (r : Fin 512) :
    multiReduction (F := Ideal) .add [1] S512
        (mulf (shapeCast S512x128 v shapeCasts_S512x128_S512x128) (shapeCast S512x128 v shapeCasts_S512x128_S512x128))
        0x00000000#32 reduces_S512x128_S512 (.inl rfl) rfl (ix1 r)
      = Cert.CauchyLoss.sqn (rowsOf v) r := by
  refine (rowSum_apply _ _ rfl r).trans ?_
  rw [shapeCast_self]
  rfl

/-- The matrix product of the first block with the transposed second block, accumulated into zeros, at (r, c): the
    inner product of row r of the first with row c of the second (the narrowing to bf16 is the identity on
    the exact values). -/
theorem gram_apply (v5 v7 : FVec Ideal S512x128 .f32) (r c : Fin 512) :
    matmul (F := Ideal) dot_S512x128_S128x512_S512x512_1_0_0_1_n_n none
        (truncf .bf16 (shapeCast S512x128 v5 shapeCasts_S512x128_S512x128) bitsLt_bf16_f32)
        (transpose S128x512 [1, 0] (truncf .bf16 (shapeCast S512x128 v7 shapeCasts_S512x128_S512x128) bitsLt_bf16_f32)
          transposes_S512x128_p1_0_S128x512)
        (constant S512x512 .f32 0x00000000#32) (ix2 r c)
      = Cert.CauchyLoss.dot (rowsOf v5) (rowsOf v7) r c := by
  refine (Cert.LibMatmul.matmul_zero_ix2 dot_S512x128_S128x512_S512x512_1_0_0_1_n_n none rfl rfl
    (fun j q => ?_) (fun j q => ?_) (fun j q => ?_) (fun j q => ?_) _ _ (ix2 r c)).trans ?_
  · unfold DotDims.lhsIdx
    rw [dif_neg (show ¬(0 : Fin S512x128.rank) ∈ dot_S512x128_S128x512_S512x512_1_0_0_1_n_n.lhsBatch by decide),
      dif_pos (show (0 : Fin S512x128.rank) ∈ dot_S512x128_S128x512_S512x512_1_0_0_1_n_n.lhsNonContracting by decide)]
    rfl
  · exact dot_S512x128_S128x512_S512x512_1_0_0_1_n_n.lhsIdx_val_of_single rfl j q
  · exact dot_S512x128_S128x512_S512x512_1_0_0_1_n_n.rhsIdx_val_of_single rfl j q
  · unfold DotDims.rhsIdx
    rw [dif_neg (show ¬(1 : Fin S128x512.rank) ∈ dot_S512x128_S128x512_S512x512_1_0_0_1_n_n.rhsBatch by decide),
      dif_pos (show (1 : Fin S128x512.rank) ∈ dot_S512x128_S128x512_S512x512_1_0_0_1_n_n.rhsNonContracting by decide)]
    rfl
  · refine Finset.sum_congr rfl fun k _ => congrArg₂ (· * ·) ?_ ?_
    · show shapeCast S512x128 v5 shapeCasts_S512x128_S512x128 (ix2 r k) = v5 (ix2 r k)
      rw [shapeCast_self]
    · refine (transpose_ix2_apply _ _ k c).trans ?_
      show shapeCast S512x128 v7 shapeCasts_S512x128_S512x128 (ix2 c k) = v7 (ix2 c k)
      rw [shapeCast_self]

/-- The similarity tile at the pair (r, c), before the diagonal is masked. -/
theorem pay6_apply (v5 v7 : FVec Ideal S512x128 .f32) (r c : Fin 512) :
    k0_pay6 (F := Ideal) v5 v7 (ix2 r c) = Cert.CauchyLoss.simOff (rowsOf v5) (rowsOf v7) r c := by
  unfold k0_pay6 Cert.CauchyLoss.simOff
  dsimp only
  refine congrArg (fun t => Ideal.div Cert.CauchyLoss.one
    (Cert.CauchyLoss.one * max t Cert.CauchyLoss.zero + Cert.CauchyLoss.one)) ?_
  refine congrArg₂ (fun x y => x - Cert.CauchyLoss.two * y) (congrArg₂ (fun x y => x + y) ?_ ?_) ?_
  · refine (broadcastTo_a1_ab_apply _ _ r c).trans ?_
    refine (shapeCast_a_a1_apply _ _ r 0).trans ?_
    exact sqnVec_apply v5 r
  · refine (broadcastTo_1b_ab_apply _ _ r c).trans ?_
    refine (transpose_ix2_apply _ _ 0 c).trans ?_
    refine (shapeCast_a_a1_apply _ _ c 0).trans ?_
    exact sqnVec_apply v7 c
  · exact gram_apply v5 v7 r c

end Cert.KernelIdeal.TileValue

end
-- ==== Proof.TileMask.lean ====
/-
  The masked similarity tile of one grid point, read at a pair (r, c): the pair is on the diagonal of the full
  similarity matrix exactly when its two global row numbers 512·i₀ + r and 512·i₁ + c agree, and there the
  similarity is replaced by zero.  The kernel compares the two numbers as 32-bit words; they never overflow.
-/
import proofs.«168013_j80238579024621_1_alg».proof.Proof.TileSim

noncomputable section

namespace Cert.KernelIdeal.TileValue

open Idealize.ShloMosaic Idealize.ShloMosaic.ValueIdx Cert.KernelIdeal Cert.KernelIdeal.Gen
open scoped BigOperators

/-- The diagonal mask applied to any tile `s`, at the pair (r, c) of grid point (i₀, i₁). -/
theorem pay1_apply (s : FVec Ideal S512x512 .f32) (i : grid0.Coords) (i0 i1 : Fin 16)
    (h0 : (i 0).val = i0.val) (h1 : (i 1).val = i1.val) (r c : Fin 512) :
    k0_pay1 (F := Ideal) s (k0_pay7 i) (Scalar.muli (BitVec.ofNat 32 (i 1).val) 512#32)
        (iota .tc S512x512 32 [1] iota_S512x512_d1_w32) (ix2 r c)
      = Cert.CauchyLoss.masked (512 * i0.val + r.val = 512 * i1.val + c.val) (s (ix2 r c)) := by
  unfold k0_pay1 k0_pay7 Cert.CauchyLoss.masked
  dsimp only
  show Scalar.select
      (IntOp.cmpi .eq
        (IntOp.addi (IntOp.muli (BitVec.ofNat 32 (i 0).val) 512#32) (iota .tc S512x512 32 [0] iota_S512x512_d0_w32 (ix2 r c)))
        (IntOp.addi (IntOp.muli (BitVec.ofNat 32 (i 1).val) 512#32) (iota .tc S512x512 32 [1] iota_S512x512_d1_w32 (ix2 r c))))
      (Ideal.ofBits .f32 0x00000000#32) (s (ix2 r c)) = _
  rw [iota_single_apply, iota_single_apply, h0, h1]
  show Scalar.select
      (IntOp.cmpi .eq
        (IntOp.addi (IntOp.muli (BitVec.ofNat 32 i0.val) 512#32) (BitVec.ofNat 32 r.val))
        (IntOp.addi (IntOp.muli (BitVec.ofNat 32 i1.val) 512#32) (BitVec.ofNat 32 c.val)))
      (Ideal.ofBits .f32 0x00000000#32) (s (ix2 r c)) = _
  have hw := rowWord_eq_iff i0.val i1.val r.val c.val i0.isLt i1.isLt r.isLt c.isLt
  by_cases hd : 512 * i0.val + r.val = 512 * i1.val + c.val
  · rw [if_pos hd, hw.2 hd, select_one]
  · rw [if_neg hd, eq_zero_of_ne_one (fun hq => hd (hw.1 hq)), select_zero]

/-- The kernel's masked similarity tile at the pair (r, c). -/
theorem pay1_tile (v5 v7 : FVec Ideal S512x128 .f32) (i : grid0.Coords) (i0 i1 : Fin 16)
    (h0 : (i 0).val = i0.val) (h1 : (i 1).val = i1.val) (r c : Fin 512) :
    k0_pay1 (F := Ideal) (k0_pay6 v5 v7) (k0_pay7 i) (Scalar.muli (BitVec.ofNat 32 (i 1).val) 512#32)
        (iota .tc S512x512 32 [1] iota_S512x512_d1_w32) (ix2 r c)
      = Cert.CauchyLoss.tileSim (rowsOf v5) (rowsOf v7) i0 i1 r c := by
  refine (pay1_apply (k0_pay6 v5 v7) i i0 i1 h0 h1 r c).trans ?_
  unfold Cert.CauchyLoss.tileSim
  rw [pay6_apply]

end Cert.KernelIdeal.TileValue

end
-- ==== Proof.TileSums.lean ====
/-
  What one grid point adds to the two running sums.  The masked similarity tile is summed along its rows, the
  512 row sums are kept as a column, the column is summed, and the single result is added to the accumulator's
  one entry: the entry grows by the tile's share of S1 (the sum of exp(½·s)·s over the tile) and of S2 (the sum of s).
-/
import proofs.«168013_j80238579024621_1_alg».proof.Proof.TileMask

noncomputable section

namespace Cert.KernelIdeal.TileValue

open Idealize.ShloMosaic Idealize.ShloMosaic.ValueIdx Cert.KernelIdeal Cert.KernelIdeal.Gen
open scoped BigOperators

/-- Every index of a 1 × 1 array is (0, 0). -/
theorem idx11_eq (j : S1x1.Idx) : j = ix2 (0 : Fin 1) (0 : Fin 1) := by
  funext ax
  match ax with
  | ⟨0, _⟩ => exact Fin.ext (by have := idx2_lt0 j; show (j 0).val = 0; omega)
  | ⟨1, _⟩ => exact Fin.ext (by have := idx2_lt1 j; show (j 1).val = 0; omega)

/-- The sum over a whole 512 × 512 tile as the kernel takes it: row sums, kept as a column, then the column's sum,
    kept as a 1 × 1 array. -/
theorem tileTotal_apply (M : FVec Ideal S512x512 .f32) :
    shapeCast S1x1
        (multiReduction (F := Ideal) .add [0] S1
          (shapeCast S512x1
            (multiReduction (F := Ideal) .add [1] S512 M 0x00000000#32 reduces_S512x512_S512 (.inl rfl) rfl)
            shapeCasts_S512_S512x1)
          0x00000000#32 reduces_S512x1_S1 (.inl rfl) rfl)
        shapeCasts_S1_S1x1 (ix2 (0 : Fin 1) (0 : Fin 1))
      = ∑ r : Fin 512, ∑ c : Fin 512, M (ix2 r c) := by
  refine (shapeCast_a_a1_apply _ _ (0 : Fin 1) (0 : Fin 1)).trans ?_
  refine (colSum_apply _ _ rfl (0 : Fin 1)).trans ?_
  refine Finset.sum_congr rfl fun r _ => ?_
  refine (shapeCast_a_a1_apply _ _ r (0 : Fin 1)).trans ?_
  exact rowSum_apply _ _ rfl r

/-- The first running sum after grid point (i₀, i₁): the entry it found plus the tile's share of S1. -/
theorem pay2_tile (v5 v7 : FVec Ideal S512x128 .f32) (i : grid0.Coords) (i0 i1 : Fin 16)
    (h0 : (i 0).val = i0.val) (h1 : (i 1).val = i1.val) (acc : FVec Ideal S1x1 .f32) :
    k0_pay2 (F := Ideal) (k0_pay6 v5 v7) (k0_pay7 i) (Scalar.muli (BitVec.ofNat 32 (i 1).val) 512#32)
        (iota .tc S512x512 32 [1] iota_S512x512_d1_w32) acc
      = fun _ => acc (ix2 0 0) + Cert.CauchyLoss.tileS1 (rowsOf v5) (rowsOf v7) i0 i1 := by
  funext j
  rw [idx11_eq j]
  unfold k0_pay2
  dsimp only
  refine (congrFun (shapeCast_self _ _) _).trans ?_
  refine congrArg (fun t => acc (ix2 0 0) + t) ?_
  refine (tileTotal_apply _).trans ?_
  unfold Cert.CauchyLoss.tileS1
  refine Finset.sum_congr rfl fun r _ => Finset.sum_congr rfl fun c _ => ?_
  exact congrArg Cert.CauchyLoss.expTerm (pay1_tile v5 v7 i i0 i1 h0 h1 r c)

/-- The second running sum after grid point (i₀, i₁): the entry it found plus the tile's share of S2. -/
theorem pay3_tile (v5 v7 : FVec Ideal S512x128 .f32) (i : grid0.Coords) (i0 i1 : Fin 16)
    (h0 : (i 0).val = i0.val) (h1 : (i 1).val = i1.val) (acc : FVec Ideal S1x1 .f32) :
    k0_pay3 (F := Ideal) (k0_pay6 v5 v7) (k0_pay7 i) (Scalar.muli (BitVec.ofNat 32 (i 1).val) 512#32)
        (iota .tc S512x512 32 [1] iota_S512x512_d1_w32) acc
      = fun _ => acc (ix2 0 0) + Cert.CauchyLoss.tileS2 (rowsOf v5) (rowsOf v7) i0 i1 := by
  funext j
  rw [idx11_eq j]
  unfold k0_pay3
  dsimp only
  refine (congrFun (shapeCast_self _ _) _).trans ?_
  refine congrArg (fun t => acc (ix2 0 0) + t) ?_
  refine (tileTotal_apply _).trans ?_
  unfold Cert.CauchyLoss.tileS2
  refine Finset.sum_congr rfl fun r _ => Finset.sum_congr rfl fun c _ => ?_
  exact pay1_tile v5 v7 i i0 i1 h0 h1 r c

/-- The two running sums start from zero. -/
theorem pay4_zero : k0_pay4 (F := Ideal) = fun _ => 0 := by
  funext j
  unfold k0_pay4
  refine (congrFun (shapeCast_self _ _) _).trans ?_
  exact Ideal.ofBits_zero_f32

theorem pay5_zero : k0_pay5 (F := Ideal) = fun _ => 0 := by
  funext j
  unfold k0_pay5
  refine (congrFun (shapeCast_self _ _) _).trans ?_
  exact Ideal.ofBits_zero_f32

end Cert.KernelIdeal.TileValue

end
-- ==== Proof.Tile1Sums.lean ====
/-
  The second call's grid point.  Its body is, operation for operation, the first call's: the similarity tile, the
  global row numbers, the diagonal mask and the two running sums are the same functions of the two loaded blocks,
  the grid point and the accumulator's entry, so each reading of the first call's payloads is a reading of the second's.
-/
import proofs.«168013_j80238579024621_1_alg».proof.Proof.TileSums

noncomputable section

namespace Cert.KernelIdeal.TileValue

open Idealize.ShloMosaic Idealize.ShloMosaic.ValueIdx Cert.KernelIdeal Cert.KernelIdeal.Gen
open scoped BigOperators

/-- The similarity tile of the second call at the pair (r, c), before the diagonal is masked. -/
theorem pay6_apply1 (v5 v7 : FVec Ideal S512x128 .f32) (r c : Fin 512) :
    k1_pay6 (F := Ideal) v5 v7 (ix2 r c) = Cert.CauchyLoss.simOff (rowsOf v5) (rowsOf v7) r c :=
  pay6_apply v5 v7 r c

/-- The second call's masked similarity tile at the pair (r, c). -/
theorem pay1_tile1 (v5 v7 : FVec Ideal S512x128 .f32) (i : grid1.Coords) (i0 i1 : Fin 16)
    (h0 : (i 0).val = i0.val) (h1 : (i 1).val = i1.val) (r c : Fin 512) :
    k1_pay1 (F := Ideal) (k1_pay6 v5 v7) (k1_pay7 i) (Scalar.muli (BitVec.ofNat 32 (i 1).val) 512#32)
        (iota .tc S512x512 32 [1] iota_S512x512_d1_w32) (ix2 r c)
      = Cert.CauchyLoss.tileSim (rowsOf v5) (rowsOf v7) i0 i1 r c :=
  pay1_tile v5 v7 i i0 i1 h0 h1 r c

/-- The second call's first running sum after grid point (i₀, i₁): the entry it found plus the tile's share of S1. -/
theorem pay2_tile1 (v5 v7 : FVec Ideal S512x128 .f32) (i : grid1.Coords) (i0 i1 : Fin 16)
    (h0 : (i 0).val = i0.val) (h1 : (i 1).val = i1.val) (acc : FVec Ideal S1x1 .f32) :
    k1_pay2 (F := Ideal) (k1_pay6 v5 v7) (k1_pay7 i) (Scalar.muli (BitVec.ofNat 32 (i 1).val) 512#32)
        (iota .tc S512x512 32 [1] iota_S512x512_d1_w32) acc
      = fun _ => acc (ix2 0 0) + Cert.CauchyLoss.tileS1 (rowsOf v5) (rowsOf v7) i0 i1 :=
  pay2_tile v5 v7 i i0 i1 h0 h1 acc

/-- The second call's second running sum after grid point (i₀, i₁): the entry it found plus the tile's share of S2. -/
theorem pay3_tile1 (v5 v7 : FVec Ideal S512x128 .f32) (i : grid1.Coords) (i0 i1 : Fin 16)
    (h0 : (i 0).val = i0.val) (h1 : (i 1).val = i1.val) (acc : FVec Ideal S1x1 .f32) :
    k1_pay3 (F := Ideal) (k1_pay6 v5 v7) (k1_pay7 i) (Scalar.muli (BitVec.ofNat 32 (i 1).val) 512#32)
        (iota .tc S512x512 32 [1] iota_S512x512_d1_w32) acc
      = fun _ => acc (ix2 0 0) + Cert.CauchyLoss.tileS2 (rowsOf v5) (rowsOf v7) i0 i1 :=
  pay3_tile v5 v7 i i0 i1 h0 h1 acc

/-- The second call's two running sums start from zero. -/
theorem pay4_zero1 : k1_pay4 (F := Ideal) = fun _ => 0 := pay4_zero

theorem pay5_zero1 : k1_pay5 (F := Ideal) = fun _ => 0 := pay5_zero

end Cert.KernelIdeal.TileValue

end
-- ==== Proof.Acc0.lean ====
/-
  The accumulation of similarity-statistics call 0, at the exact values.  After the first grid point each running sum
  holds zero plus the first tile's share; after every later point it holds what it held plus that point's tile's
  share, point n being tile (n / 16, n % 16) of the 16 × 16 grid; and the two outputs, written at the last point
  only, are the running sums' final contents.
-/
import proofs.«168013_j80238579024621_1_alg».proof.Proof.KIFrame
import proofs.«168013_j80238579024621_1_alg».proof.Proof.Piece1
import proofs.«168013_j80238579024621_1_alg».proof.Proof.Tile1Sums

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.TileValue

variable {F : FTy → Type} [FloatOps F]

/-! ## What each kind of grid point leaves in the two running sums -/

theorem soutA0_0_ideal (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec Ideal S512x128 .f32) (i0 i1 : Fin 16) (h0 : (i 0).val = i0.val) (h1 : (i 1).val = i1.val) :
    sout0_A_0 (F := Ideal) c i arg2 harg2 arg3 harg3 arg4 harg4 arg5 harg5 arg6 harg6 arg7 harg7 hc0 hc1 x0 x1
      = fun _ => (0 : EReal) + Cert.CauchyLoss.tileS1 (rowsOf x0) (rowsOf x1) i0 i1 := by
  unfold sout0_A_0
  refine (piece0_A_0 c i arg2 harg2 arg3 harg3 arg4 harg4 arg5 harg5 arg6 harg6 arg7 harg7 hc0 hc1 x0 x1).trans ?_
  refine (pay2_tile x0 x1 i i0 i1 h0 h1 _).trans ?_
  rw [pay4_zero]

theorem soutA0_1_ideal (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR0 i) (hc1 : ¬condW0 i) (x0 x1 : Vec Ideal S512x128 .f32) (i0 i1 : Fin 16) (h0 : (i 0).val = i0.val) (h1 : (i 1).val = i1.val) :
    sout0_A_1 (F := Ideal) c i arg2 harg2 arg3 harg3 arg4 harg4 arg5 harg5 arg6 harg6 arg7 harg7 hc0 hc1 x0 x1
      = fun _ => (0 : EReal) + Cert.CauchyLoss.tileS2 (rowsOf x0) (rowsOf x1) i0 i1 := by
  unfold sout0_A_1
  refine (piece0_A_1 c i arg2 harg2 arg3 harg3 arg4 harg4 arg5 harg5 arg6 harg6 arg7 harg7 hc0 hc1 x0 x1).trans ?_
  refine (pay3_tile x0 x1 i i0 i1 h0 h1 _).trans ?_
  rw [pay5_zero]

theorem soutB0_0_ideal (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec Ideal S512x128 .f32) (xs0 xs1 : Vec Ideal S1x1 .f32) (i0 i1 : Fin 16) (h0 : (i 0).val = i0.val) (h1 : (i 1).val = i1.val) :
    sout0_B_0 (F := Ideal) c i arg2 harg2 arg3 harg3 arg4 harg4 arg5 harg5 arg6 harg6 arg7 harg7 hc0 hc1 x0 x1 xs0 xs1
      = fun _ => (xs0 (ValueIdx.ix2 0 0) : EReal) + Cert.CauchyLoss.tileS1 (rowsOf x0) (rowsOf x1) i0 i1 := by
  unfold sout0_B_0
  refine (piece0_B_0 c i arg2 harg2 arg3 harg3 arg4 harg4 arg5 harg5 arg6 harg6 arg7 harg7 hc0 hc1 x0 x1 xs0 xs1).trans ?_
  exact pay2_tile x0 x1 i i0 i1 h0 h1 _

theorem soutB0_1_ideal (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : ¬condW0 i) (x0 x1 : Vec Ideal S512x128 .f32) (xs0 xs1 : Vec Ideal S1x1 .f32) (i0 i1 : Fin 16) (h0 : (i 0).val = i0.val) (h1 : (i 1).val = i1.val) :
    sout0_B_1 (F := Ideal) c i arg2 harg2 arg3 harg3 arg4 harg4 arg5 harg5 arg6 harg6 arg7 harg7 hc0 hc1 x0 x1 xs0 xs1
      = fun _ => (xs1 (ValueIdx.ix2 0 0) : EReal) + Cert.CauchyLoss.tileS2 (rowsOf x0) (rowsOf x1) i0 i1 := by
  unfold sout0_B_1
  refine (piece0_B_1 c i arg2 harg2 arg3 harg3 arg4 harg4 arg5 harg5 arg6 harg6 arg7 harg7 hc0 hc1 x0 x1 xs0 xs1).trans ?_
  exact pay3_tile x0 x1 i i0 i1 h0 h1 _

theorem soutC0_0_ideal (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec Ideal S512x128 .f32) (xs0 xs1 : Vec Ideal S1x1 .f32) (i0 i1 : Fin 16) (h0 : (i 0).val = i0.val) (h1 : (i 1).val = i1.val) :
    sout0_C_0 (F := Ideal) c i arg2 harg2 arg3 harg3 arg4 harg4 arg5 harg5 arg6 harg6 arg7 harg7 hc0 hc1 x0 x1 xs0 xs1
      = fun _ => (xs0 (ValueIdx.ix2 0 0) : EReal) + Cert.CauchyLoss.tileS1 (rowsOf x0) (rowsOf x1) i0 i1 := by
  unfold sout0_C_0
  refine (piece0_C_0 c i arg2 harg2 arg3 harg3 arg4 harg4 arg5 harg5 arg6 harg6 arg7 harg7 hc0 hc1 x0 x1 xs0 xs1).trans ?_
  exact pay2_tile x0 x1 i i0 i1 h0 h1 _

theorem soutC0_1_ideal (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec Ideal S512x128 .f32) (xs0 xs1 : Vec Ideal S1x1 .f32) (i0 i1 : Fin 16) (h0 : (i 0).val = i0.val) (h1 : (i 1).val = i1.val) :
    sout0_C_1 (F := Ideal) c i arg2 harg2 arg3 harg3 arg4 harg4 arg5 harg5 arg6 harg6 arg7 harg7 hc0 hc1 x0 x1 xs0 xs1
      = fun _ => (xs1 (ValueIdx.ix2 0 0) : EReal) + Cert.CauchyLoss.tileS2 (rowsOf x0) (rowsOf x1) i0 i1 := by
  unfold sout0_C_1
  refine (piece0_C_1 c i arg2 harg2 arg3 harg3 arg4 harg4 arg5 harg5 arg6 harg6 arg7 harg7 hc0 hc1 x0 x1 xs0 xs1).trans ?_
  exact pay3_tile x0 x1 i i0 i1 h0 h1 _

/-! ## The running sums point by point -/

theorem sum0_first (V : (c : Dev nD) → (b : Ref sig .tc) → Buf (Elt Ideal) ((c : Thread nD τ).loc b)) (c : Dev nD) (h0 : 0 < cfg0.N) :
    (outsAt0 (F := Ideal) V c 0 h0).2.1
      = fun _ => (0 : EReal) + Cert.CauchyLoss.tileS1 (rowsOf (iblk0 V c 0 ⟨0, h0⟩)) (rowsOf (iblk0 V c 1 ⟨0, h0⟩)) ⟨0, by omega⟩ ⟨0, by omega⟩ := by
  refine (congrArg (fun p => p.2.1) (outsAt0_A V c ⟨0, h0⟩ rfl (show ¬ (0 : ℕ) = 255 by omega))).trans ?_
  exact soutA0_0_ideal c (grid0.coords ⟨0, h0⟩) (ms0_0 ⟨0, h0⟩) (hs0_0 ⟨0, h0⟩) (ms0_1 ⟨0, h0⟩) (hs0_1 ⟨0, h0⟩) (ms0_2 ⟨0, h0⟩) (hs0_2 ⟨0, h0⟩) (ms0_3 ⟨0, h0⟩) (hs0_3 ⟨0, h0⟩) scM0_0 (Memref.isWhole_whole _) scM0_1 (Memref.isWhole_whole _) ((hcondR0 ⟨0, h0⟩).mpr rfl) (fun hw => absurd ((hcondW0 ⟨0, h0⟩).mp hw) (show ¬ (0 : ℕ) = 255 by omega))
    (iblk0 V c 0 ⟨0, h0⟩) (iblk0 V c 1 ⟨0, h0⟩) ⟨0, by omega⟩ ⟨0, by omega⟩ ((coords0_0 ⟨0, h0⟩).trans (Nat.zero_div 16)) ((coords0_1 ⟨0, h0⟩).trans (Nat.zero_mod 16))

theorem sum0_first' (V : (c : Dev nD) → (b : Ref sig .tc) → Buf (Elt Ideal) ((c : Thread nD τ).loc b)) (c : Dev nD) (h0 : 0 < cfg0.N) :
    (outsAt0 (F := Ideal) V c 0 h0).2.2
      = fun _ => (0 : EReal) + Cert.CauchyLoss.tileS2 (rowsOf (iblk0 V c 0 ⟨0, h0⟩)) (rowsOf (iblk0 V c 1 ⟨0, h0⟩)) ⟨0, by omega⟩ ⟨0, by omega⟩ := by
  refine (congrArg (fun p => p.2.2) (outsAt0_A V c ⟨0, h0⟩ rfl (show ¬ (0 : ℕ) = 255 by omega))).trans ?_
  exact soutA0_1_ideal c (grid0.coords ⟨0, h0⟩) (ms0_0 ⟨0, h0⟩) (hs0_0 ⟨0, h0⟩) (ms0_1 ⟨0, h0⟩) (hs0_1 ⟨0, h0⟩) (ms0_2 ⟨0, h0⟩) (hs0_2 ⟨0, h0⟩) (ms0_3 ⟨0, h0⟩) (hs0_3 ⟨0, h0⟩) scM0_0 (Memref.isWhole_whole _) scM0_1 (Memref.isWhole_whole _) ((hcondR0 ⟨0, h0⟩).mpr rfl) (fun hw => absurd ((hcondW0 ⟨0, h0⟩).mp hw) (show ¬ (0 : ℕ) = 255 by omega))
    (iblk0 V c 0 ⟨0, h0⟩) (iblk0 V c 1 ⟨0, h0⟩) ⟨0, by omega⟩ ⟨0, by omega⟩ ((coords0_0 ⟨0, h0⟩).trans (Nat.zero_div 16)) ((coords0_1 ⟨0, h0⟩).trans (Nat.zero_mod 16))

theorem sum0_step (V : (c : Dev nD) → (b : Ref sig .tc) → Buf (Elt Ideal) ((c : Thread nD τ).loc b)) (c : Dev nD) (n : ℕ) (hn : n + 1 < cfg0.N) :
    (outsAt0 (F := Ideal) V c (n + 1) hn).2.1
      = fun _ => ((outsAt0 V c n (Nat.lt_of_succ_lt hn)).2.1 (ValueIdx.ix2 0 0) : EReal)
          + Cert.CauchyLoss.tileS1 (rowsOf (iblk0 V c 0 ⟨n + 1, hn⟩)) (rowsOf (iblk0 V c 1 ⟨n + 1, hn⟩)) ⟨(n + 1) / 16, by have hN : cfg0.N = 256 := N_0; omega⟩ ⟨(n + 1) % 16, by omega⟩ := by
  by_cases hW : n + 1 = 255
  · refine (congrArg (fun p => p.2.1) (outsAt0_C V c ⟨n + 1, hn⟩ (Nat.succ_ne_zero n) hW)).trans ?_
    exact soutC0_0_ideal c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun hr => absurd ((hcondR0 ⟨n + 1, hn⟩).mp hr) (Nat.succ_ne_zero n)) ((hcondW0 ⟨n + 1, hn⟩).mpr hW)
      (iblk0 V c 0 ⟨n + 1, hn⟩) (iblk0 V c 1 ⟨n + 1, hn⟩) (outsAt0 V c n (Nat.lt_of_succ_lt hn)).2.1 (outsAt0 V c n (Nat.lt_of_succ_lt hn)).2.2
      ⟨(n + 1) / 16, by have hN : cfg0.N = 256 := N_0; omega⟩ ⟨(n + 1) % 16, by omega⟩ (coords0_0 ⟨n + 1, hn⟩) (coords0_1 ⟨n + 1, hn⟩)
  · refine (congrArg (fun p => p.2.1) (outsAt0_B V c ⟨n + 1, hn⟩ (Nat.succ_ne_zero n) hW)).trans ?_
    exact soutB0_0_ideal c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun hr => absurd ((hcondR0 ⟨n + 1, hn⟩).mp hr) (Nat.succ_ne_zero n)) (fun hw => hW ((hcondW0 ⟨n + 1, hn⟩).mp hw))
      (iblk0 V c 0 ⟨n + 1, hn⟩) (iblk0 V c 1 ⟨n + 1, hn⟩) (outsAt0 V c n (Nat.lt_of_succ_lt hn)).2.1 (outsAt0 V c n (Nat.lt_of_succ_lt hn)).2.2
      ⟨(n + 1) / 16, by have hN : cfg0.N = 256 := N_0; omega⟩ ⟨(n + 1) % 16, by omega⟩ (coords0_0 ⟨n + 1, hn⟩) (coords0_1 ⟨n + 1, hn⟩)

theorem sum0_step' (V : (c : Dev nD) → (b : Ref sig .tc) → Buf (Elt Ideal) ((c : Thread nD τ).loc b)) (c : Dev nD) (n : ℕ) (hn : n + 1 < cfg0.N) :
    (outsAt0 (F := Ideal) V c (n + 1) hn).2.2
      = fun _ => ((outsAt0 V c n (Nat.lt_of_succ_lt hn)).2.2 (ValueIdx.ix2 0 0) : EReal)
          + Cert.CauchyLoss.tileS2 (rowsOf (iblk0 V c 0 ⟨n + 1, hn⟩)) (rowsOf (iblk0 V c 1 ⟨n + 1, hn⟩)) ⟨(n + 1) / 16, by have hN : cfg0.N = 256 := N_0; omega⟩ ⟨(n + 1) % 16, by omega⟩ := by
  by_cases hW : n + 1 = 255
  · refine (congrArg (fun p => p.2.2) (outsAt0_C V c ⟨n + 1, hn⟩ (Nat.succ_ne_zero n) hW)).trans ?_
    exact soutC0_1_ideal c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun hr => absurd ((hcondR0 ⟨n + 1, hn⟩).mp hr) (Nat.succ_ne_zero n)) ((hcondW0 ⟨n + 1, hn⟩).mpr hW)
      (iblk0 V c 0 ⟨n + 1, hn⟩) (iblk0 V c 1 ⟨n + 1, hn⟩) (outsAt0 V c n (Nat.lt_of_succ_lt hn)).2.1 (outsAt0 V c n (Nat.lt_of_succ_lt hn)).2.2
      ⟨(n + 1) / 16, by have hN : cfg0.N = 256 := N_0; omega⟩ ⟨(n + 1) % 16, by omega⟩ (coords0_0 ⟨n + 1, hn⟩) (coords0_1 ⟨n + 1, hn⟩)
  · refine (congrArg (fun p => p.2.2) (outsAt0_B V c ⟨n + 1, hn⟩ (Nat.succ_ne_zero n) hW)).trans ?_
    exact soutB0_1_ideal c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun hr => absurd ((hcondR0 ⟨n + 1, hn⟩).mp hr) (Nat.succ_ne_zero n)) (fun hw => hW ((hcondW0 ⟨n + 1, hn⟩).mp hw))
      (iblk0 V c 0 ⟨n + 1, hn⟩) (iblk0 V c 1 ⟨n + 1, hn⟩) (outsAt0 V c n (Nat.lt_of_succ_lt hn)).2.1 (outsAt0 V c n (Nat.lt_of_succ_lt hn)).2.2
      ⟨(n + 1) / 16, by have hN : cfg0.N = 256 := N_0; omega⟩ ⟨(n + 1) % 16, by omega⟩ (coords0_0 ⟨n + 1, hn⟩) (coords0_1 ⟨n + 1, hn⟩)

/-! ## The outputs at the last point -/

/-- At the last point the output's block and the running sum's buffer are left holding the same value. -/
theorem outC0_2_eq (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) :
    out0_C_2 c i arg2 harg2 arg3 harg3 arg4 harg4 arg5 harg5 arg6 harg6 arg7 harg7 hc0 hc1 x0 x1 xs0 xs1 = sout0_C_0 c i arg2 harg2 arg3 harg3 arg4 harg4 arg5 harg5 arg6 harg6 arg7 harg7 hc0 hc1 x0 x1 xs0 xs1 := by
  unfold out0_C_2 sout0_C_0
  exact (piece0_C_2 c i arg2 harg2 arg3 harg3 arg4 harg4 arg5 harg5 arg6 harg6 arg7 harg7 hc0 hc1 x0 x1 xs0 xs1).trans (piece0_C_0 c i arg2 harg2 arg3 harg3 arg4 harg4 arg5 harg5 arg6 harg6 arg7 harg7 hc0 hc1 x0 x1 xs0 xs1).symm

theorem out0_last_at (V : (c : Dev nD) → (b : Ref sig .tc) → Buf (Elt F) ((c : Thread nD τ).loc b)) (c : Dev nD) (n : ℕ) (hn : n + 1 < cfg0.N) (hW : n + 1 = 255) :
    (outsAt0 V c (n + 1) hn).1.1 = (outsAt0 V c (n + 1) hn).2.1 := by
  have e := outsAt0_C V c ⟨n + 1, hn⟩ (Nat.succ_ne_zero n) hW
  refine (congrArg (fun p => p.1.1) e).trans (Eq.trans ?_ (congrArg (fun p => p.2.1) e).symm)
  exact outC0_2_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun hr => absurd ((hcondR0 ⟨n + 1, hn⟩).mp hr) (Nat.succ_ne_zero n)) ((hcondW0 ⟨n + 1, hn⟩).mpr hW)
    (iblk0 V c 0 ⟨n + 1, hn⟩) (iblk0 V c 1 ⟨n + 1, hn⟩) (outsAt0 V c n (Nat.lt_of_succ_lt hn)).2.1 (outsAt0 V c n (Nat.lt_of_succ_lt hn)).2.2

/-- The output written at the last point (point 255) is the running sum's final contents. -/
theorem out0_last (V : (c : Dev nD) → (b : Ref sig .tc) → Buf (Elt F) ((c : Thread nD τ).loc b)) (c : Dev nD) (h : 255 < cfg0.N) :
    (outsAt0 V c 255 h).1.1 = (outsAt0 V c 255 h).2.1 :=
  out0_last_at V c 254 h rfl

/-- At the last point the output's block and the running sum's buffer are left holding the same value. -/
theorem outC0_3_eq (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR0 i) (hc1 : condW0 i) (x0 x1 : Vec F S512x128 .f32) (xs0 xs1 : Vec F S1x1 .f32) :
    out0_C_3 c i arg2 harg2 arg3 harg3 arg4 harg4 arg5 harg5 arg6 harg6 arg7 harg7 hc0 hc1 x0 x1 xs0 xs1 = sout0_C_1 c i arg2 harg2 arg3 harg3 arg4 harg4 arg5 harg5 arg6 harg6 arg7 harg7 hc0 hc1 x0 x1 xs0 xs1 := by
  unfold out0_C_3 sout0_C_1
  exact (piece0_C_3 c i arg2 harg2 arg3 harg3 arg4 harg4 arg5 harg5 arg6 harg6 arg7 harg7 hc0 hc1 x0 x1 xs0 xs1).trans (piece0_C_1 c i arg2 harg2 arg3 harg3 arg4 harg4 arg5 harg5 arg6 harg6 arg7 harg7 hc0 hc1 x0 x1 xs0 xs1).symm

theorem out0_last_at' (V : (c : Dev nD) → (b : Ref sig .tc) → Buf (Elt F) ((c : Thread nD τ).loc b)) (c : Dev nD) (n : ℕ) (hn : n + 1 < cfg0.N) (hW : n + 1 = 255) :
    (outsAt0 V c (n + 1) hn).1.2 = (outsAt0 V c (n + 1) hn).2.2 := by
  have e := outsAt0_C V c ⟨n + 1, hn⟩ (Nat.succ_ne_zero n) hW
  refine (congrArg (fun p => p.1.2) e).trans (Eq.trans ?_ (congrArg (fun p => p.2.2) e).symm)
  exact outC0_3_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun hr => absurd ((hcondR0 ⟨n + 1, hn⟩).mp hr) (Nat.succ_ne_zero n)) ((hcondW0 ⟨n + 1, hn⟩).mpr hW)
    (iblk0 V c 0 ⟨n + 1, hn⟩) (iblk0 V c 1 ⟨n + 1, hn⟩) (outsAt0 V c n (Nat.lt_of_succ_lt hn)).2.1 (outsAt0 V c n (Nat.lt_of_succ_lt hn)).2.2

/-- The output written at the last point (point 255) is the running sum's final contents. -/
theorem out0_last' (V : (c : Dev nD) → (b : Ref sig .tc) → Buf (Elt F) ((c : Thread nD τ).loc b)) (c : Dev nD) (h : 255 < cfg0.N) :
    (outsAt0 V c 255 h).1.2 = (outsAt0 V c 255 h).2.2 :=
  out0_last_at' V c 254 h rfl

end Cert.KernelIdeal.Hand

end
-- ==== Proof.Acc1.lean ====
/-
  The accumulation of similarity-statistics call 1, at the exact values.  After the first grid point each running sum
  holds zero plus the first tile's share; after every later point it holds what it held plus that point's tile's
  share, point n being tile (n / 16, n % 16) of the 16 × 16 grid; and the two outputs, written at the last point
  only, are the running sums' final contents.
-/
import proofs.«168013_j80238579024621_1_alg».proof.Proof.Acc0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.TileValue

variable {F : FTy → Type} [FloatOps F]

/-! ## What each kind of grid point leaves in the two running sums -/

theorem soutA1_0_ideal (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec Ideal S512x128 .f32) (i0 i1 : Fin 16) (h0 : (i 0).val = i0.val) (h1 : (i 1).val = i1.val) :
    sout1_A_0 (F := Ideal) c i arg2 harg2 arg3 harg3 arg4 harg4 arg5 harg5 arg6 harg6 arg7 harg7 hc0 hc1 x0 x1
      = fun _ => (0 : EReal) + Cert.CauchyLoss.tileS1 (rowsOf x0) (rowsOf x1) i0 i1 := by
  unfold sout1_A_0
  refine (piece1_A_0 c i arg2 harg2 arg3 harg3 arg4 harg4 arg5 harg5 arg6 harg6 arg7 harg7 hc0 hc1 x0 x1).trans ?_
  refine (pay2_tile1 x0 x1 i i0 i1 h0 h1 _).trans ?_
  rw [pay4_zero1]

theorem soutA1_1_ideal (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condR1 i) (hc1 : ¬condW1 i) (x0 x1 : Vec Ideal S512x128 .f32) (i0 i1 : Fin 16) (h0 : (i 0).val = i0.val) (h1 : (i 1).val = i1.val) :
    sout1_A_1 (F := Ideal) c i arg2 harg2 arg3 harg3 arg4 harg4 arg5 harg5 arg6 harg6 arg7 harg7 hc0 hc1 x0 x1
      = fun _ => (0 : EReal) + Cert.CauchyLoss.tileS2 (rowsOf x0) (rowsOf x1) i0 i1 := by
  unfold sout1_A_1
  refine (piece1_A_1 c i arg2 harg2 arg3 harg3 arg4 harg4 arg5 harg5 arg6 harg6 arg7 harg7 hc0 hc1 x0 x1).trans ?_
  refine (pay3_tile1 x0 x1 i i0 i1 h0 h1 _).trans ?_
  rw [pay5_zero1]

theorem soutB1_0_ideal (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec Ideal S512x128 .f32) (xs0 xs1 : Vec Ideal S1x1 .f32) (i0 i1 : Fin 16) (h0 : (i 0).val = i0.val) (h1 : (i 1).val = i1.val) :
    sout1_B_0 (F := Ideal) c i arg2 harg2 arg3 harg3 arg4 harg4 arg5 harg5 arg6 harg6 arg7 harg7 hc0 hc1 x0 x1 xs0 xs1
      = fun _ => (xs0 (ValueIdx.ix2 0 0) : EReal) + Cert.CauchyLoss.tileS1 (rowsOf x0) (rowsOf x1) i0 i1 := by
  unfold sout1_B_0
  refine (piece1_B_0 c i arg2 harg2 arg3 harg3 arg4 harg4 arg5 harg5 arg6 harg6 arg7 harg7 hc0 hc1 x0 x1 xs0 xs1).trans ?_
  exact pay2_tile1 x0 x1 i i0 i1 h0 h1 _

theorem soutB1_1_ideal (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : ¬condW1 i) (x0 x1 : Vec Ideal S512x128 .f32) (xs0 xs1 : Vec Ideal S1x1 .f32) (i0 i1 : Fin 16) (h0 : (i 0).val = i0.val) (h1 : (i 1).val = i1.val) :
    sout1_B_1 (F := Ideal) c i arg2 harg2 arg3 harg3 arg4 harg4 arg5 harg5 arg6 harg6 arg7 harg7 hc0 hc1 x0 x1 xs0 xs1
      = fun _ => (xs1 (ValueIdx.ix2 0 0) : EReal) + Cert.CauchyLoss.tileS2 (rowsOf x0) (rowsOf x1) i0 i1 := by
  unfold sout1_B_1
  refine (piece1_B_1 c i arg2 harg2 arg3 harg3 arg4 harg4 arg5 harg5 arg6 harg6 arg7 harg7 hc0 hc1 x0 x1 xs0 xs1).trans ?_
  exact pay3_tile1 x0 x1 i i0 i1 h0 h1 _

theorem soutC1_0_ideal (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec Ideal S512x128 .f32) (xs0 xs1 : Vec Ideal S1x1 .f32) (i0 i1 : Fin 16) (h0 : (i 0).val = i0.val) (h1 : (i 1).val = i1.val) :
    sout1_C_0 (F := Ideal) c i arg2 harg2 arg3 harg3 arg4 harg4 arg5 harg5 arg6 harg6 arg7 harg7 hc0 hc1 x0 x1 xs0 xs1
      = fun _ => (xs0 (ValueIdx.ix2 0 0) : EReal) + Cert.CauchyLoss.tileS1 (rowsOf x0) (rowsOf x1) i0 i1 := by
  unfold sout1_C_0
  refine (piece1_C_0 c i arg2 harg2 arg3 harg3 arg4 harg4 arg5 harg5 arg6 harg6 arg7 harg7 hc0 hc1 x0 x1 xs0 xs1).trans ?_
  exact pay2_tile1 x0 x1 i i0 i1 h0 h1 _

theorem soutC1_1_ideal (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec Ideal S512x128 .f32) (xs0 xs1 : Vec Ideal S1x1 .f32) (i0 i1 : Fin 16) (h0 : (i 0).val = i0.val) (h1 : (i 1).val = i1.val) :
    sout1_C_1 (F := Ideal) c i arg2 harg2 arg3 harg3 arg4 harg4 arg5 harg5 arg6 harg6 arg7 harg7 hc0 hc1 x0 x1 xs0 xs1
      = fun _ => (xs1 (ValueIdx.ix2 0 0) : EReal) + Cert.CauchyLoss.tileS2 (rowsOf x0) (rowsOf x1) i0 i1 := by
  unfold sout1_C_1
  refine (piece1_C_1 c i arg2 harg2 arg3 harg3 arg4 harg4 arg5 harg5 arg6 harg6 arg7 harg7 hc0 hc1 x0 x1 xs0 xs1).trans ?_
  exact pay3_tile1 x0 x1 i i0 i1 h0 h1 _

/-! ## The running sums point by point -/

theorem sum1_first (V : (c : Dev nD) → (b : Ref sig .tc) → Buf (Elt Ideal) ((c : Thread nD τ).loc b)) (c : Dev nD) (h0 : 0 < cfg1.N) :
    (outsAt1 (F := Ideal) V c 0 h0).2.1
      = fun _ => (0 : EReal) + Cert.CauchyLoss.tileS1 (rowsOf (iblk1 V c 0 ⟨0, h0⟩)) (rowsOf (iblk1 V c 1 ⟨0, h0⟩)) ⟨0, by omega⟩ ⟨0, by omega⟩ := by
  refine (congrArg (fun p => p.2.1) (outsAt1_A V c ⟨0, h0⟩ rfl (show ¬ (0 : ℕ) = 255 by omega))).trans ?_
  exact soutA1_0_ideal c (grid1.coords ⟨0, h0⟩) (ms1_0 ⟨0, h0⟩) (hs1_0 ⟨0, h0⟩) (ms1_1 ⟨0, h0⟩) (hs1_1 ⟨0, h0⟩) (ms1_2 ⟨0, h0⟩) (hs1_2 ⟨0, h0⟩) (ms1_3 ⟨0, h0⟩) (hs1_3 ⟨0, h0⟩) scM1_0 (Memref.isWhole_whole _) scM1_1 (Memref.isWhole_whole _) ((hcondR1 ⟨0, h0⟩).mpr rfl) (fun hw => absurd ((hcondW1 ⟨0, h0⟩).mp hw) (show ¬ (0 : ℕ) = 255 by omega))
    (iblk1 V c 0 ⟨0, h0⟩) (iblk1 V c 1 ⟨0, h0⟩) ⟨0, by omega⟩ ⟨0, by omega⟩ ((coords1_0 ⟨0, h0⟩).trans (Nat.zero_div 16)) ((coords1_1 ⟨0, h0⟩).trans (Nat.zero_mod 16))

theorem sum1_first' (V : (c : Dev nD) → (b : Ref sig .tc) → Buf (Elt Ideal) ((c : Thread nD τ).loc b)) (c : Dev nD) (h0 : 0 < cfg1.N) :
    (outsAt1 (F := Ideal) V c 0 h0).2.2
      = fun _ => (0 : EReal) + Cert.CauchyLoss.tileS2 (rowsOf (iblk1 V c 0 ⟨0, h0⟩)) (rowsOf (iblk1 V c 1 ⟨0, h0⟩)) ⟨0, by omega⟩ ⟨0, by omega⟩ := by
  refine (congrArg (fun p => p.2.2) (outsAt1_A V c ⟨0, h0⟩ rfl (show ¬ (0 : ℕ) = 255 by omega))).trans ?_
  exact soutA1_1_ideal c (grid1.coords ⟨0, h0⟩) (ms1_0 ⟨0, h0⟩) (hs1_0 ⟨0, h0⟩) (ms1_1 ⟨0, h0⟩) (hs1_1 ⟨0, h0⟩) (ms1_2 ⟨0, h0⟩) (hs1_2 ⟨0, h0⟩) (ms1_3 ⟨0, h0⟩) (hs1_3 ⟨0, h0⟩) scM1_0 (Memref.isWhole_whole _) scM1_1 (Memref.isWhole_whole _) ((hcondR1 ⟨0, h0⟩).mpr rfl) (fun hw => absurd ((hcondW1 ⟨0, h0⟩).mp hw) (show ¬ (0 : ℕ) = 255 by omega))
    (iblk1 V c 0 ⟨0, h0⟩) (iblk1 V c 1 ⟨0, h0⟩) ⟨0, by omega⟩ ⟨0, by omega⟩ ((coords1_0 ⟨0, h0⟩).trans (Nat.zero_div 16)) ((coords1_1 ⟨0, h0⟩).trans (Nat.zero_mod 16))

theorem sum1_step (V : (c : Dev nD) → (b : Ref sig .tc) → Buf (Elt Ideal) ((c : Thread nD τ).loc b)) (c : Dev nD) (n : ℕ) (hn : n + 1 < cfg1.N) :
    (outsAt1 (F := Ideal) V c (n + 1) hn).2.1
      = fun _ => ((outsAt1 V c n (Nat.lt_of_succ_lt hn)).2.1 (ValueIdx.ix2 0 0) : EReal)
          + Cert.CauchyLoss.tileS1 (rowsOf (iblk1 V c 0 ⟨n + 1, hn⟩)) (rowsOf (iblk1 V c 1 ⟨n + 1, hn⟩)) ⟨(n + 1) / 16, by have hN : cfg1.N = 256 := N_1; omega⟩ ⟨(n + 1) % 16, by omega⟩ := by
  by_cases hW : n + 1 = 255
  · refine (congrArg (fun p => p.2.1) (outsAt1_C V c ⟨n + 1, hn⟩ (Nat.succ_ne_zero n) hW)).trans ?_
    exact soutC1_0_ideal c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun hr => absurd ((hcondR1 ⟨n + 1, hn⟩).mp hr) (Nat.succ_ne_zero n)) ((hcondW1 ⟨n + 1, hn⟩).mpr hW)
      (iblk1 V c 0 ⟨n + 1, hn⟩) (iblk1 V c 1 ⟨n + 1, hn⟩) (outsAt1 V c n (Nat.lt_of_succ_lt hn)).2.1 (outsAt1 V c n (Nat.lt_of_succ_lt hn)).2.2
      ⟨(n + 1) / 16, by have hN : cfg1.N = 256 := N_1; omega⟩ ⟨(n + 1) % 16, by omega⟩ (coords1_0 ⟨n + 1, hn⟩) (coords1_1 ⟨n + 1, hn⟩)
  · refine (congrArg (fun p => p.2.1) (outsAt1_B V c ⟨n + 1, hn⟩ (Nat.succ_ne_zero n) hW)).trans ?_
    exact soutB1_0_ideal c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun hr => absurd ((hcondR1 ⟨n + 1, hn⟩).mp hr) (Nat.succ_ne_zero n)) (fun hw => hW ((hcondW1 ⟨n + 1, hn⟩).mp hw))
      (iblk1 V c 0 ⟨n + 1, hn⟩) (iblk1 V c 1 ⟨n + 1, hn⟩) (outsAt1 V c n (Nat.lt_of_succ_lt hn)).2.1 (outsAt1 V c n (Nat.lt_of_succ_lt hn)).2.2
      ⟨(n + 1) / 16, by have hN : cfg1.N = 256 := N_1; omega⟩ ⟨(n + 1) % 16, by omega⟩ (coords1_0 ⟨n + 1, hn⟩) (coords1_1 ⟨n + 1, hn⟩)

theorem sum1_step' (V : (c : Dev nD) → (b : Ref sig .tc) → Buf (Elt Ideal) ((c : Thread nD τ).loc b)) (c : Dev nD) (n : ℕ) (hn : n + 1 < cfg1.N) :
    (outsAt1 (F := Ideal) V c (n + 1) hn).2.2
      = fun _ => ((outsAt1 V c n (Nat.lt_of_succ_lt hn)).2.2 (ValueIdx.ix2 0 0) : EReal)
          + Cert.CauchyLoss.tileS2 (rowsOf (iblk1 V c 0 ⟨n + 1, hn⟩)) (rowsOf (iblk1 V c 1 ⟨n + 1, hn⟩)) ⟨(n + 1) / 16, by have hN : cfg1.N = 256 := N_1; omega⟩ ⟨(n + 1) % 16, by omega⟩ := by
  by_cases hW : n + 1 = 255
  · refine (congrArg (fun p => p.2.2) (outsAt1_C V c ⟨n + 1, hn⟩ (Nat.succ_ne_zero n) hW)).trans ?_
    exact soutC1_1_ideal c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun hr => absurd ((hcondR1 ⟨n + 1, hn⟩).mp hr) (Nat.succ_ne_zero n)) ((hcondW1 ⟨n + 1, hn⟩).mpr hW)
      (iblk1 V c 0 ⟨n + 1, hn⟩) (iblk1 V c 1 ⟨n + 1, hn⟩) (outsAt1 V c n (Nat.lt_of_succ_lt hn)).2.1 (outsAt1 V c n (Nat.lt_of_succ_lt hn)).2.2
      ⟨(n + 1) / 16, by have hN : cfg1.N = 256 := N_1; omega⟩ ⟨(n + 1) % 16, by omega⟩ (coords1_0 ⟨n + 1, hn⟩) (coords1_1 ⟨n + 1, hn⟩)
  · refine (congrArg (fun p => p.2.2) (outsAt1_B V c ⟨n + 1, hn⟩ (Nat.succ_ne_zero n) hW)).trans ?_
    exact soutB1_1_ideal c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun hr => absurd ((hcondR1 ⟨n + 1, hn⟩).mp hr) (Nat.succ_ne_zero n)) (fun hw => hW ((hcondW1 ⟨n + 1, hn⟩).mp hw))
      (iblk1 V c 0 ⟨n + 1, hn⟩) (iblk1 V c 1 ⟨n + 1, hn⟩) (outsAt1 V c n (Nat.lt_of_succ_lt hn)).2.1 (outsAt1 V c n (Nat.lt_of_succ_lt hn)).2.2
      ⟨(n + 1) / 16, by have hN : cfg1.N = 256 := N_1; omega⟩ ⟨(n + 1) % 16, by omega⟩ (coords1_0 ⟨n + 1, hn⟩) (coords1_1 ⟨n + 1, hn⟩)

/-! ## The outputs at the last point -/

/-- At the last point the output's block and the running sum's buffer are left holding the same value. -/
theorem outC1_2_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) :
    out1_C_2 c i arg2 harg2 arg3 harg3 arg4 harg4 arg5 harg5 arg6 harg6 arg7 harg7 hc0 hc1 x0 x1 xs0 xs1 = sout1_C_0 c i arg2 harg2 arg3 harg3 arg4 harg4 arg5 harg5 arg6 harg6 arg7 harg7 hc0 hc1 x0 x1 xs0 xs1 := by
  unfold out1_C_2 sout1_C_0
  exact (piece1_C_2 c i arg2 harg2 arg3 harg3 arg4 harg4 arg5 harg5 arg6 harg6 arg7 harg7 hc0 hc1 x0 x1 xs0 xs1).trans (piece1_C_0 c i arg2 harg2 arg3 harg3 arg4 harg4 arg5 harg5 arg6 harg6 arg7 harg7 hc0 hc1 x0 x1 xs0 xs1).symm

theorem out1_last_at (V : (c : Dev nD) → (b : Ref sig .tc) → Buf (Elt F) ((c : Thread nD τ).loc b)) (c : Dev nD) (n : ℕ) (hn : n + 1 < cfg1.N) (hW : n + 1 = 255) :
    (outsAt1 V c (n + 1) hn).1.1 = (outsAt1 V c (n + 1) hn).2.1 := by
  have e := outsAt1_C V c ⟨n + 1, hn⟩ (Nat.succ_ne_zero n) hW
  refine (congrArg (fun p => p.1.1) e).trans (Eq.trans ?_ (congrArg (fun p => p.2.1) e).symm)
  exact outC1_2_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun hr => absurd ((hcondR1 ⟨n + 1, hn⟩).mp hr) (Nat.succ_ne_zero n)) ((hcondW1 ⟨n + 1, hn⟩).mpr hW)
    (iblk1 V c 0 ⟨n + 1, hn⟩) (iblk1 V c 1 ⟨n + 1, hn⟩) (outsAt1 V c n (Nat.lt_of_succ_lt hn)).2.1 (outsAt1 V c n (Nat.lt_of_succ_lt hn)).2.2

/-- The output written at the last point (point 255) is the running sum's final contents. -/
theorem out1_last (V : (c : Dev nD) → (b : Ref sig .tc) → Buf (Elt F) ((c : Thread nD τ).loc b)) (c : Dev nD) (h : 255 < cfg1.N) :
    (outsAt1 V c 255 h).1.1 = (outsAt1 V c 255 h).2.1 :=
  out1_last_at V c 254 h rfl

/-- At the last point the output's block and the running sum's buffer are left holding the same value. -/
theorem outC1_3_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condR1 i) (hc1 : condW1 i) (x0 x1 : Vec F S512x128 .f32) (xs0 xs1 : Vec F S1x1 .f32) :
    out1_C_3 c i arg2 harg2 arg3 harg3 arg4 harg4 arg5 harg5 arg6 harg6 arg7 harg7 hc0 hc1 x0 x1 xs0 xs1 = sout1_C_1 c i arg2 harg2 arg3 harg3 arg4 harg4 arg5 harg5 arg6 harg6 arg7 harg7 hc0 hc1 x0 x1 xs0 xs1 := by
  unfold out1_C_3 sout1_C_1
  exact (piece1_C_3 c i arg2 harg2 arg3 harg3 arg4 harg4 arg5 harg5 arg6 harg6 arg7 harg7 hc0 hc1 x0 x1 xs0 xs1).trans (piece1_C_1 c i arg2 harg2 arg3 harg3 arg4 harg4 arg5 harg5 arg6 harg6 arg7 harg7 hc0 hc1 x0 x1 xs0 xs1).symm

theorem out1_last_at' (V : (c : Dev nD) → (b : Ref sig .tc) → Buf (Elt F) ((c : Thread nD τ).loc b)) (c : Dev nD) (n : ℕ) (hn : n + 1 < cfg1.N) (hW : n + 1 = 255) :
    (outsAt1 V c (n + 1) hn).1.2 = (outsAt1 V c (n + 1) hn).2.2 := by
  have e := outsAt1_C V c ⟨n + 1, hn⟩ (Nat.succ_ne_zero n) hW
  refine (congrArg (fun p => p.1.2) e).trans (Eq.trans ?_ (congrArg (fun p => p.2.2) e).symm)
  exact outC1_3_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun hr => absurd ((hcondR1 ⟨n + 1, hn⟩).mp hr) (Nat.succ_ne_zero n)) ((hcondW1 ⟨n + 1, hn⟩).mpr hW)
    (iblk1 V c 0 ⟨n + 1, hn⟩) (iblk1 V c 1 ⟨n + 1, hn⟩) (outsAt1 V c n (Nat.lt_of_succ_lt hn)).2.1 (outsAt1 V c n (Nat.lt_of_succ_lt hn)).2.2

/-- The output written at the last point (point 255) is the running sum's final contents. -/
theorem out1_last' (V : (c : Dev nD) → (b : Ref sig .tc) → Buf (Elt F) ((c : Thread nD τ).loc b)) (c : Dev nD) (h : 255 < cfg1.N) :
    (outsAt1 V c 255 h).1.2 = (outsAt1 V c 255 h).2.2 :=
  out1_last_at' V c 254 h rfl

end Cert.KernelIdeal.Hand

end
-- ==== Proof.GeoWin.lean ====
/-
  Where the two kernels' windows sit in their arrays.

  Each kernel walks a 16 × 16 grid row-major.  At grid point t its first input window is the 512 rows from row
  512·(t / 16) of the 8192 × 128 array and its second the 512 rows from row 512·(t % 16) of the same array, all 128
  columns of each.  Its two output windows are whole 1 × 1 arrays, written back at the last point only, so each
  output array ends holding what the body left for it at point 255.
-/
import proofs.«168013_j80238579024621_1_alg».proof.Proof.KIFrame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx

open Cert.KernelIdeal Cert.KernelIdeal.Gen

variable {F : FTy → Type} [FloatOps F]
variable (V : (c : Dev nD) → (b : Ref sig .tc) → Buf (Elt F) ((c : Thread nD τ).loc b))

/-! # pallas_call 0 -/

/-- The grid has 256 points. -/
theorem lt256_0 (t : Fin cfg0.N) : t.val < 256 := lt_of_lt_of_eq t.isLt (show cfg0.N = 256 from N_0)
theorem lastPt0 : 255 < cfg0.N := by have h : cfg0.N = 256 := N_0; omega

/-- What the accumulation leaves depends on the point's number only. -/
theorem outsAt0_congr (c : Dev nD) (n n' : ℕ) (h : n = n') (p : n < cfg0.N) (p' : n' < cfg0.N) :
    outsAt0 V c n p = outsAt0 V c n' p' := by
  subst h; rfl

/-! ## The output windows -/

/-- Output window 2's block index is (0, 0) at every point: its block is the whole array. -/
theorem idxOut0_2 : ∀ (t : Fin cfg0.N) (a : Fin 2), win0_2.index t a = 0 :=
  (by decide +kernel : ∀ (t : Fin grid0.N) (a : Fin 2), win0_2.index t a = 0)

/-- The one write-back of output window 2, at the last point, writes the whole array. -/
theorem flushed0_2_eq (c : Dev nD) (t : Fin cfg0.N) (hf : (cfg0.win 2).flush t = true) :
    (dat0 V c).flushed 2 t = ((cfg0.win 2).blk t).view.read (Elt F) ((outsAt0 V c 255 lastPt0).1.1) := by
  have hN : cfg0.N = 256 := N_0
  have h1 : t.val = 255 := by have := (flush0_2 t).mp hf; have := t.isLt; omega
  show (cfg0.win 2).cut (grid0.coords t) ((dat0 V c).after 2 t) = _
  rw [after0_2, outsAt0_congr V c t.val 255 h1 t.isLt lastPt0]
  generalize (outsAt0 V c 255 lastPt0).1.1 = X
  have hz' : (fun a => win0_2.index t a * main_v19_0.ty.shape.size a) = fun _ => 0 :=
    funext fun a => by rw [idxOut0_2 t a, Nat.zero_mul]
  exact (Memref.read_access_unit_zero (Elt F) main_v19_0 hz' (fun a => by rw [congrFun hz' a]; simp) X).symm

/-- Every index of the array is in the last point's block. -/
theorem mem_blk0_2 (i : S1x1.Idx) : i ∈ ((cfg0.win 2).blk ⟨255, lastPt0⟩).view.set := by
  show i ∈ ((View.whole main_v19_0).slice (win0_2.rect ⟨255, lastPt0⟩)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index ⟨255, lastPt0⟩ 0 * win0_2.size 0 ≤ (i 0 : Nat)
      ∧ (i 0 : Nat) < win0_2.index ⟨255, lastPt0⟩ 0 * win0_2.size 0 + win0_2.xsize (grid0.coords ⟨255, lastPt0⟩) 0
    rw [show win0_2.index ⟨255, lastPt0⟩ 0 * win0_2.size 0 = 0 from by decide +kernel,
      show win0_2.xsize (grid0.coords ⟨255, lastPt0⟩) 0 = 1 from by decide +kernel]
    omega
  | ⟨1, _⟩ =>
    show win0_2.index ⟨255, lastPt0⟩ 1 * win0_2.size 1 ≤ (i 1 : Nat)
      ∧ (i 1 : Nat) < win0_2.index ⟨255, lastPt0⟩ 1 * win0_2.size 1 + win0_2.xsize (grid0.coords ⟨255, lastPt0⟩) 1
    rw [show win0_2.index ⟨255, lastPt0⟩ 1 * win0_2.size 1 = 0 from by decide +kernel,
      show win0_2.xsize (grid0.coords ⟨255, lastPt0⟩) 1 = 1 from by decide +kernel]
    omega

/-- The output array ends holding what the body left for it at the last point. -/
theorem arr_out0_2 (c : Dev nD) : (dat0 V c).arrAt 2 cfg0.N = (outsAt0 V c 255 lastPt0).1.1 :=
  (dat0 V c).arrAt_eq_of_cover 2 _ (flushed0_2_eq V c) fun i =>
    ⟨⟨255, lastPt0⟩, (flush0_2 _).mpr rfl, mem_blk0_2 i⟩

/-- Output window 3's block index is (0, 0) at every point: its block is the whole array. -/
theorem idxOut0_3 : ∀ (t : Fin cfg0.N) (a : Fin 2), win0_3.index t a = 0 :=
  (by decide +kernel : ∀ (t : Fin grid0.N) (a : Fin 2), win0_3.index t a = 0)

/-- The one write-back of output window 3, at the last point, writes the whole array. -/
theorem flushed0_3_eq (c : Dev nD) (t : Fin cfg0.N) (hf : (cfg0.win 3).flush t = true) :
    (dat0 V c).flushed 3 t = ((cfg0.win 3).blk t).view.read (Elt F) ((outsAt0 V c 255 lastPt0).1.2) := by
  have hN : cfg0.N = 256 := N_0
  have h1 : t.val = 255 := by have := (flush0_3 t).mp hf; have := t.isLt; omega
  show (cfg0.win 3).cut (grid0.coords t) ((dat0 V c).after 3 t) = _
  rw [after0_3, outsAt0_congr V c t.val 255 h1 t.isLt lastPt0]
  generalize (outsAt0 V c 255 lastPt0).1.2 = X
  have hz' : (fun a => win0_3.index t a * main_v19_1.ty.shape.size a) = fun _ => 0 :=
    funext fun a => by rw [idxOut0_3 t a, Nat.zero_mul]
  exact (Memref.read_access_unit_zero (Elt F) main_v19_1 hz' (fun a => by rw [congrFun hz' a]; simp) X).symm

/-- Every index of the array is in the last point's block. -/
theorem mem_blk0_3 (i : S1x1.Idx) : i ∈ ((cfg0.win 3).blk ⟨255, lastPt0⟩).view.set := by
  show i ∈ ((View.whole main_v19_1).slice (win0_3.rect ⟨255, lastPt0⟩)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index ⟨255, lastPt0⟩ 0 * win0_3.size 0 ≤ (i 0 : Nat)
      ∧ (i 0 : Nat) < win0_3.index ⟨255, lastPt0⟩ 0 * win0_3.size 0 + win0_3.xsize (grid0.coords ⟨255, lastPt0⟩) 0
    rw [show win0_3.index ⟨255, lastPt0⟩ 0 * win0_3.size 0 = 0 from by decide +kernel,
      show win0_3.xsize (grid0.coords ⟨255, lastPt0⟩) 0 = 1 from by decide +kernel]
    omega
  | ⟨1, _⟩ =>
    show win0_3.index ⟨255, lastPt0⟩ 1 * win0_3.size 1 ≤ (i 1 : Nat)
      ∧ (i 1 : Nat) < win0_3.index ⟨255, lastPt0⟩ 1 * win0_3.size 1 + win0_3.xsize (grid0.coords ⟨255, lastPt0⟩) 1
    rw [show win0_3.index ⟨255, lastPt0⟩ 1 * win0_3.size 1 = 0 from by decide +kernel,
      show win0_3.xsize (grid0.coords ⟨255, lastPt0⟩) 1 = 1 from by decide +kernel]
    omega

/-- The output array ends holding what the body left for it at the last point. -/
theorem arr_out0_3 (c : Dev nD) : (dat0 V c).arrAt 3 cfg0.N = (outsAt0 V c 255 lastPt0).1.2 :=
  (dat0 V c).arrAt_eq_of_cover 3 _ (flushed0_3_eq V c) fun i =>
    ⟨⟨255, lastPt0⟩, (flush0_3 _).mpr rfl, mem_blk0_3 i⟩

/-! ## The input windows -/

/-- The printed index maps over the grid: the first window's block row is t / 16, the second's t % 16; both take
    every column. -/
theorem idx0_0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx0_1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)

/-- The first input window at point t reads rows 512·(t / 16) … of the array. -/
theorem iblk0_0_apply (c : Dev nD) (t : Fin cfg0.N) (r : Fin 512) (q : Fin 128) :
    (iblk0 V c 0 t : Vec F S512x128 .f32) (ix2 r q)
      = (V c main_v0 : S8192x128.Idx → Elt F .f32)
          (ix2 (⟨512 * (t.val / 16) + r.val, by have := lt256_0 t; omega⟩ : Fin 8192) q) := by
  obtain ⟨h0, h1⟩ := idx0_0 t
  unfold iblk0
  rw [View.read_apply]
  show V c main_v0 _ = V c main_v0 _
  congr 1
  funext a
  apply Fin.ext
  match a with
  | ⟨0, _⟩ => show win0_0.index t 0 * 512 + 1 * r.val = 512 * (t.val / 16) + r.val; rw [h0]; omega
  | ⟨1, _⟩ => show win0_0.index t 1 * 128 + 1 * q.val = q.val; rw [h1]; omega

/-- The second input window at point t reads rows 512·(t % 16) … of the same array. -/
theorem iblk0_1_apply (c : Dev nD) (t : Fin cfg0.N) (r : Fin 512) (q : Fin 128) :
    (iblk0 V c 1 t : Vec F S512x128 .f32) (ix2 r q)
      = (V c main_v0 : S8192x128.Idx → Elt F .f32)
          (ix2 (⟨512 * (t.val % 16) + r.val, by omega⟩ : Fin 8192) q) := by
  obtain ⟨h0, h1⟩ := idx0_1 t
  unfold iblk0
  rw [View.read_apply]
  show V c main_v0 _ = V c main_v0 _
  congr 1
  funext a
  apply Fin.ext
  match a with
  | ⟨0, _⟩ => show win0_1.index t 0 * 512 + 1 * r.val = 512 * (t.val % 16) + r.val; rw [h0]; omega
  | ⟨1, _⟩ => show win0_1.index t 1 * 128 + 1 * q.val = q.val; rw [h1]; omega

/-! # pallas_call 1 -/

/-- The grid has 256 points. -/
theorem lt256_1 (t : Fin cfg1.N) : t.val < 256 := lt_of_lt_of_eq t.isLt (show cfg1.N = 256 from N_1)
theorem lastPt1 : 255 < cfg1.N := by have h : cfg1.N = 256 := N_1; omega

/-- What the accumulation leaves depends on the point's number only. -/
theorem outsAt1_congr (c : Dev nD) (n n' : ℕ) (h : n = n') (p : n < cfg1.N) (p' : n' < cfg1.N) :
    outsAt1 V c n p = outsAt1 V c n' p' := by
  subst h; rfl

/-! ## The output windows -/

/-- Output window 2's block index is (0, 0) at every point: its block is the whole array. -/
theorem idxOut1_2 : ∀ (t : Fin cfg1.N) (a : Fin 2), win1_2.index t a = 0 :=
  (by decide +kernel : ∀ (t : Fin grid1.N) (a : Fin 2), win1_2.index t a = 0)

/-- The one write-back of output window 2, at the last point, writes the whole array. -/
theorem flushed1_2_eq (c : Dev nD) (t : Fin cfg1.N) (hf : (cfg1.win 2).flush t = true) :
    (dat1 V c).flushed 2 t = ((cfg1.win 2).blk t).view.read (Elt F) ((outsAt1 V c 255 lastPt1).1.1) := by
  have hN : cfg1.N = 256 := N_1
  have h1 : t.val = 255 := by have := (flush1_2 t).mp hf; have := t.isLt; omega
  show (cfg1.win 2).cut (grid1.coords t) ((dat1 V c).after 2 t) = _
  rw [after1_2, outsAt1_congr V c t.val 255 h1 t.isLt lastPt1]
  generalize (outsAt1 V c 255 lastPt1).1.1 = X
  have hz' : (fun a => win1_2.index t a * main_v22_0.ty.shape.size a) = fun _ => 0 :=
    funext fun a => by rw [idxOut1_2 t a, Nat.zero_mul]
  exact (Memref.read_access_unit_zero (Elt F) main_v22_0 hz' (fun a => by rw [congrFun hz' a]; simp) X).symm

/-- Every index of the array is in the last point's block. -/
theorem mem_blk1_2 (i : S1x1.Idx) : i ∈ ((cfg1.win 2).blk ⟨255, lastPt1⟩).view.set := by
  show i ∈ ((View.whole main_v22_0).slice (win1_2.rect ⟨255, lastPt1⟩)).set
  rw [View.set_slice_whole, Rect.mem_set_unit]
  intro a
  have h0 : (i 0 : Nat) < 1 := (i 0).isLt
  have h1 : (i 1 : Nat) < 1 := (i 1).isLt
  match a with
  | ⟨0, _⟩ =>
    show win1_2.index ⟨255, lastPt1⟩ 0 * win1_2.size 0 ≤ (i 0 : Nat)
      ∧ (i 0 : Nat) < win1_2.index ⟨255, lastPt1⟩ 0 * win1_2.size 0 + win1_2.xsize (grid1.coords ⟨255, lastPt1⟩) 0
    rw [show win1_2.index ⟨255, lastPt1⟩ 0 * win1_2.size 0 = 0 from by decide +kernel,
      show win1_2.xsize (grid1.coords ⟨255, lastPt1⟩) 0 = 1 from by decide +kernel]
    omega
  | ⟨1, _⟩ =>
    show win1_2.index ⟨255, lastPt1⟩ 1 * win1_2.size 1 ≤ (i 1 : Nat)
      ∧ (i 1 : Nat) < win1_2.index ⟨255, lastPt1⟩ 1 * win1_2.size 1 + win1_2.xsize (grid1.coords ⟨255, lastPt1⟩) 1
    rw [show win1_2.index ⟨255, lastPt1⟩ 1 * win1_2.size 1 = 0 from by decide +kernel,
      show win1_2.xsize (grid1.coords ⟨255, lastPt1⟩) 1 = 1 from by decide +kernel]
    omega

/-- The output array ends holding what the body left for it at the last point. -/
theorem arr_out1_2 (c : Dev nD) : (dat1 V c).arrAt 2 cfg1.N = (outsAt1 V c 255 lastPt1).1.1 :=
  (dat1 V c).arrAt_eq_of_cover 2 _ (flushed1_2_eq V c) fun i =>
    ⟨⟨255, lastPt1⟩, (flush1_2 _).mpr rfl, mem_blk1_2 i⟩

/-- Output window 3's block index is (0, 0) at every point: its block is the whole array. -/
theorem idxOut1_3 : ∀ (t : Fin cfg1.N) (a : Fin 2), win1_3.index t a = 0 :=
  (by decide +kernel : ∀ (t : Fin grid1.N) (a : Fin 2), win1_3.index t a = 0)

/-- The one write-back of output window 3, at the last point, writes the whole array. -/
theorem flushed1_3_eq (c : Dev nD) (t : Fin cfg1.N) (hf : (cfg1.win 3).flush t = true) :
    (dat1 V c).flushed 3 t = ((cfg1.win 3).blk t).view.read (Elt F) ((outsAt1 V c 255 lastPt1).1.2) := by
  have hN : cfg1.N = 256 := N_1
  have h1 : t.val = 255 := by have := (flush1_3 t).mp hf; have := t.isLt; omega
  show (cfg1.win 3).cut (grid1.coords t) ((dat1 V c).after 3 t) = _
  rw [after1_3, outsAt1_congr V c t.val 255 h1 t.isLt lastPt1]
  generalize (outsAt1 V c 255 lastPt1).1.2 = X
  have hz' : (fun a => win1_3.index t a * main_v22_1.ty.shape.size a) = fun _ => 0 :=
    funext fun a => by rw [idxOut1_3 t a, Nat.zero_mul]
  exact (Memref.read_access_unit_zero (Elt F) main_v22_1 hz' (fun a => by rw [congrFun hz' a]; simp) X).symm

/-- Every index of the array is in the last point's block. -/
theorem mem_blk1_3 (i : S1x1.Idx) : i ∈ ((cfg1.win 3).blk ⟨255, lastPt1⟩).view.set := by
  show i ∈ ((View.whole main_v22_1).slice (win1_3.rect ⟨255, lastPt1⟩)).set
  rw [View.set_slice_whole, Rect.mem_set_unit]
  intro a
  have h0 : (i 0 : Nat) < 1 := (i 0).isLt
  have h1 : (i 1 : Nat) < 1 := (i 1).isLt
  match a with
  | ⟨0, _⟩ =>
    show win1_3.index ⟨255, lastPt1⟩ 0 * win1_3.size 0 ≤ (i 0 : Nat)
      ∧ (i 0 : Nat) < win1_3.index ⟨255, lastPt1⟩ 0 * win1_3.size 0 + win1_3.xsize (grid1.coords ⟨255, lastPt1⟩) 0
    rw [show win1_3.index ⟨255, lastPt1⟩ 0 * win1_3.size 0 = 0 from by decide +kernel,
      show win1_3.xsize (grid1.coords ⟨255, lastPt1⟩) 0 = 1 from by decide +kernel]
    omega
  | ⟨1, _⟩ =>
    show win1_3.index ⟨255, lastPt1⟩ 1 * win1_3.size 1 ≤ (i 1 : Nat)
      ∧ (i 1 : Nat) < win1_3.index ⟨255, lastPt1⟩ 1 * win1_3.size 1 + win1_3.xsize (grid1.coords ⟨255, lastPt1⟩) 1
    rw [show win1_3.index ⟨255, lastPt1⟩ 1 * win1_3.size 1 = 0 from by decide +kernel,
      show win1_3.xsize (grid1.coords ⟨255, lastPt1⟩) 1 = 1 from by decide +kernel]
    omega

/-- The output array ends holding what the body left for it at the last point. -/
theorem arr_out1_3 (c : Dev nD) : (dat1 V c).arrAt 3 cfg1.N = (outsAt1 V c 255 lastPt1).1.2 :=
  (dat1 V c).arrAt_eq_of_cover 3 _ (flushed1_3_eq V c) fun i =>
    ⟨⟨255, lastPt1⟩, (flush1_3 _).mpr rfl, mem_blk1_3 i⟩

/-! ## The input windows -/

/-- The printed index maps over the grid: the first window's block row is t / 16, the second's t % 16; both take
    every column. -/
theorem idx1_0 : ∀ t : Fin cfg1.N, win1_0.index t (0 : Fin 2) = t.val / 16 ∧ win1_0.index t (1 : Fin 2) = 0 :=
  (by decide +kernel : ∀ t : Fin grid1.N, win1_0.index t (0 : Fin 2) = t.val / 16 ∧ win1_0.index t (1 : Fin 2) = 0)
theorem idx1_1 : ∀ t : Fin cfg1.N, win1_1.index t (0 : Fin 2) = t.val % 16 ∧ win1_1.index t (1 : Fin 2) = 0 :=
  (by decide +kernel : ∀ t : Fin grid1.N, win1_1.index t (0 : Fin 2) = t.val % 16 ∧ win1_1.index t (1 : Fin 2) = 0)

/-- The first input window at point t reads rows 512·(t / 16) … of the array. -/
theorem iblk1_0_apply (c : Dev nD) (t : Fin cfg1.N) (r : Fin 512) (q : Fin 128) :
    (iblk1 V c 0 t : Vec F S512x128 .f32) (ix2 r q)
      = (V c main_v1 : S8192x128.Idx → Elt F .f32)
          (ix2 (⟨512 * (t.val / 16) + r.val, by have := lt256_1 t; omega⟩ : Fin 8192) q) := by
  obtain ⟨h0, h1⟩ := idx1_0 t
  unfold iblk1
  rw [View.read_apply]
  show V c main_v1 _ = V c main_v1 _
  congr 1
  funext a
  apply Fin.ext
  match a with
  | ⟨0, _⟩ => show win1_0.index t 0 * 512 + 1 * r.val = 512 * (t.val / 16) + r.val; rw [h0]; omega
  | ⟨1, _⟩ => show win1_0.index t 1 * 128 + 1 * q.val = q.val; rw [h1]; omega

/-- The second input window at point t reads rows 512·(t % 16) … of the same array. -/
theorem iblk1_1_apply (c : Dev nD) (t : Fin cfg1.N) (r : Fin 512) (q : Fin 128) :
    (iblk1 V c 1 t : Vec F S512x128 .f32) (ix2 r q)
      = (V c main_v1 : S8192x128.Idx → Elt F .f32)
          (ix2 (⟨512 * (t.val % 16) + r.val, by omega⟩ : Fin 8192) q) := by
  obtain ⟨h0, h1⟩ := idx1_1 t
  unfold iblk1
  rw [View.read_apply]
  show V c main_v1 _ = V c main_v1 _
  congr 1
  funext a
  apply Fin.ext
  match a with
  | ⟨0, _⟩ => show win1_1.index t 0 * 512 + 1 * r.val = 512 * (t.val % 16) + r.val; rw [h0]; omega
  | ⟨1, _⟩ => show win1_1.index t 1 * 128 + 1 * q.val = q.val; rw [h1]; omega

end Cert.KernelIdeal.Hand

end
-- ==== Proof.GlueTiles.lean ====
/-
  Regrouping the double sum over all pairs of rows of one half into the 16 × 16 tiles of 512 × 512 pairs.

  A row index p < 8192 is written uniquely as 512·i + r with i < 16 and r < 512, and a grid point t < 256 as
  16·i + j; sums over a commutative monoid may be reindexed along these bijections and reordered freely.
-/
import proofs.«168013_j80238579024621_1_alg».proof.Proof.Spec
import Mathlib

noncomputable section

open scoped BigOperators

namespace Cert.CauchyLoss

open Idealize.ShloMosaic

/-- Row 512·i + r of a half, as the pair (block i, row r of the block). -/
def blockEquiv : Fin 16 × Fin 512 ≃ Fin 8192 where
  toFun x := ⟨512 * x.1.val + x.2.val, by omega⟩
  invFun p := (⟨p.val / 512, by omega⟩, ⟨p.val % 512, by omega⟩)
  left_inv := by
    rintro ⟨i, r⟩
    apply Prod.ext <;> apply Fin.ext <;> simp only <;> omega
  right_inv := by
    intro p
    apply Fin.ext
    simp only
    omega

/-- Grid point 16·i + j, as the pair (i, j). -/
def gridEquiv : Fin 16 × Fin 16 ≃ Fin 256 where
  toFun x := ⟨16 * x.1.val + x.2.val, by omega⟩
  invFun t := (⟨t.val / 16, by omega⟩, ⟨t.val % 16, by omega⟩)
  left_inv := by
    rintro ⟨i, j⟩
    apply Prod.ext <;> apply Fin.ext <;> simp only <;> omega
  right_inv := by
    intro t
    apply Fin.ext
    simp only
    omega

/-- A sum over the 8192 rows, block by block. -/
theorem sum_blocks {M : Type*} [AddCommMonoid M] (f : Fin 8192 → M) :
    ∑ p : Fin 8192, f p = ∑ i : Fin 16, ∑ r : Fin 512, f ⟨512 * i.val + r.val, by omega⟩ := by
  rw [← Equiv.sum_comp blockEquiv f, Fintype.sum_prod_type]
  rfl

/-- A sum over the 256 grid points walked row-major, as a double sum over the grid. -/
theorem sum_grid {M : Type*} [AddCommMonoid M] (h : Fin 16 → Fin 16 → M) :
    ∑ t : Fin 256, h ⟨t.val / 16, by omega⟩ ⟨t.val % 16, by omega⟩ = ∑ i : Fin 16, ∑ j : Fin 16, h i j := by
  rw [← Fintype.sum_prod_type' h]
  exact Equiv.sum_comp gridEquiv.symm (fun ij : Fin 16 × Fin 16 => h ij.1 ij.2)

/-- The double sum over all pairs of rows, tile by tile. -/
theorem sum_pairs_tiles {M : Type*} [AddCommMonoid M] (g : Fin 8192 → Fin 8192 → M) :
    ∑ i : Fin 16, ∑ j : Fin 16, ∑ r : Fin 512, ∑ c : Fin 512,
        g ⟨512 * i.val + r.val, by omega⟩ ⟨512 * j.val + c.val, by omega⟩
      = ∑ p : Fin 8192, ∑ q : Fin 8192, g p q := by
  rw [sum_blocks]
  refine Finset.sum_congr rfl fun i _ => ?_
  rw [Finset.sum_comm]
  refine Finset.sum_congr rfl fun r _ => ?_
  rw [sum_blocks]

/-- The similarity a tile computes at one of its pairs is the similarity of the two rows of the half. -/
theorem tileSim_eq (x : Rows 8192) (i j : Fin 16) (r c : Fin 512) :
    tileSim (tileRows x i) (tileRows x j) i j r c
      = sim x ⟨512 * i.val + r.val, by omega⟩ ⟨512 * j.val + c.val, by omega⟩ := by
  unfold tileSim sim masked
  simp only [Fin.mk.injEq]
  rfl

/-- The tiles' shares of S1, summed over the grid walked row-major, make S1. -/
theorem S1_tiles (x : Rows 8192) :
    ∑ t : Fin 256, tileS1 (tileRows x ⟨t.val / 16, by omega⟩) (tileRows x ⟨t.val % 16, by omega⟩)
        ⟨t.val / 16, by omega⟩ ⟨t.val % 16, by omega⟩ = S1 x := by
  rw [sum_grid (fun i j => tileS1 (tileRows x i) (tileRows x j) i j)]
  unfold tileS1 S1
  simp only [tileSim_eq]
  exact sum_pairs_tiles (fun p q => expTerm (sim x p q))

/-- The tiles' shares of S2, summed over the grid walked row-major, make S2. -/
theorem S2_tiles (x : Rows 8192) :
    ∑ t : Fin 256, tileS2 (tileRows x ⟨t.val / 16, by omega⟩) (tileRows x ⟨t.val % 16, by omega⟩)
        ⟨t.val / 16, by omega⟩ ⟨t.val % 16, by omega⟩ = S2 x := by
  rw [sum_grid (fun i j => tileS2 (tileRows x i) (tileRows x j) i j)]
  unfold tileS2 S2
  simp only [tileSim_eq]
  exact sum_pairs_tiles (fun p q => sim x p q)

/-- A running sum started at 0 that adds f n at step n holds the sum of the first N terms after N steps. -/
theorem fold_sum (f : ℕ → EReal) (acc : ℕ → EReal) (h0 : acc 0 = 0)
    (hs : ∀ n, acc (n + 1) = acc n + f n) (N : ℕ) : acc N = ∑ t ∈ Finset.range N, f t := by
  induction N with
  | zero => simpa using h0
  | succ n ih => rw [hs, ih, Finset.sum_range_succ]

/-- The same when the step rule is known only below the bound. -/
theorem fold_sum_lt (f : ℕ → EReal) (acc : ℕ → EReal) (h0 : acc 0 = 0) (B : ℕ)
    (hs : ∀ n, n < B → acc (n + 1) = acc n + f n) (N : ℕ) (hN : N ≤ B) :
    acc N = ∑ t ∈ Finset.range N, f t := by
  induction N with
  | zero => simpa using h0
  | succ n ih => rw [hs n (by omega), ih (by omega), Finset.sum_range_succ]

/-- After the 256 grid points the running sum holds the sum over the grid. -/
theorem fold_sum_grid (f : ℕ → EReal) (acc : ℕ → EReal) (h0 : acc 0 = 0)
    (hs : ∀ n, n < 256 → acc (n + 1) = acc n + f n) : acc 256 = ∑ t : Fin 256, f t.val := by
  rw [fold_sum_lt f acc h0 256 hs 256 (le_refl _), Finset.sum_range]

end Cert.CauchyLoss

end
-- ==== Proof.GlueHost.lean ====
/-
  What the kernel program's operations outside its two regions compute, at the extended reals.

  The first stretch slices the feature matrix into its upper and lower halves and computes the positive term:
  per row the squared distance of the pair, its similarity 1 / (1·d + 1), the summand (s − 10)² − 1·s, and the mean
  of the summands over the 8192 rows.  The last stretch recasts the regions' 1 × 1 results as scalars and adds the
  positive term, the two first results each over 8192, and half the sum of the two second results.
  Each buffer is first identified with the composed term of the operations that wrote it, and the term is then read
  at an index.  Sums start from the literal zero, which is 0; every other literal stays the word the program prints.
-/
import proofs.«168013_j80238579024621_1_alg».proof.Proof.Gen.KernelIdeal.Regions
import proofs.«168013_j80238579024621_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The host operations' terms -/

/-- Rows 0 … 8191 of the matrix. -/
def t0 (x0 : (⟨S16384x128, .f32⟩ : BufTy).Contents (Elt F)) : (⟨S8192x128, .f32⟩ : BufTy).Contents (Elt F) :=
  extractStridedSlice S8192x128 ![0, 0] x0 slices_S16384x128_S8192x128_0_0

/-- Rows 8192 … 16383 of the matrix. -/
def t1 (x0 : (⟨S16384x128, .f32⟩ : BufTy).Contents (Elt F)) : (⟨S8192x128, .f32⟩ : BufTy).Contents (Elt F) :=
  extractStridedSlice S8192x128 ![8192, 0] x0 slices_S16384x128_S8192x128_8192_0

/-- The squared entrywise differences of the two halves. -/
def t3 (x0 : (⟨S16384x128, .f32⟩ : BufTy).Contents (Elt F)) : (⟨S8192x128, .f32⟩ : BufTy).Contents (Elt F) :=
  mulf (subf (t0 x0) (t1 x0)) (subf (t0 x0) (t1 x0))

/-- A scalar literal. -/
def cst (w : BitVec 32) : (⟨S_, .f32⟩ : BufTy).Contents (Elt F) := constant S_ .f32 w

/-- A scalar literal repeated along the 8192 rows. -/
def bc (w : BitVec 32) : (⟨S8192, .f32⟩ : BufTy).Contents (Elt F) :=
  broadcastInDim S8192 ![] bcast_S_S8192 (cst (F := F) w)

/-- The squared distance of each positive pair. -/
def t4 (x0 : (⟨S16384x128, .f32⟩ : BufTy).Contents (Elt F)) : (⟨S8192, .f32⟩ : BufTy).Contents (Elt F) :=
  Host.reduceAdd (t3 x0) (cst (F := F) 0x00000000#32) reducesTo_S8192x128_S8192_d1 h_S_

/-- The similarity of each positive pair. -/
def t10 (x0 : (⟨S16384x128, .f32⟩ : BufTy).Contents (Elt F)) : (⟨S8192, .f32⟩ : BufTy).Contents (Elt F) :=
  Host.divf (bc (F := F) 0x3F800000#32) (addf (mulf (bc (F := F) 0x3F800000#32) (t4 x0)) (bc (F := F) 0x3F800000#32))

/-- Each positive pair's summand. -/
def t16 (x0 : (⟨S16384x128, .f32⟩ : BufTy).Contents (Elt F)) : (⟨S8192, .f32⟩ : BufTy).Contents (Elt F) :=
  subf (mulf (subf (t10 x0) (bc (F := F) 0x41200000#32)) (subf (t10 x0) (bc (F := F) 0x41200000#32)))
    (mulf (bc (F := F) 0x3F800000#32) (t10 x0))

/-- The positive term. -/
def t18 (x0 : (⟨S16384x128, .f32⟩ : BufTy).Contents (Elt F)) : (⟨S_, .f32⟩ : BufTy).Contents (Elt F) :=
  Host.divf (Host.reduceAdd (t16 x0) (cst (F := F) 0x00000000#32) reducesTo_S8192_S_d0 h_S_) (cst (F := F) 0x46000000#32)

/-! ## The first stretch's buffers are these terms -/

section Terms

variable (m : (ℓ : Loc nD τ sig) → Buf (Elt F) ℓ)

theorem V1_v0 (c : Dev nD) :
    (V1 m c main_v0 : (⟨S8192x128, .f32⟩ : BufTy).Contents (Elt F)) = t0 (m ((c : Thread nD τ).loc main_arg0)) := by
  dsimp only [V1, V0]
  after_results
  rfl

theorem V1_v1 (c : Dev nD) :
    (V1 m c main_v1 : (⟨S8192x128, .f32⟩ : BufTy).Contents (Elt F)) = t1 (m ((c : Thread nD τ).loc main_arg0)) := by
  dsimp only [V1, V0]
  after_results
  rfl

theorem V1_v18 (c : Dev nD) :
    (V1 m c main_v18 : (⟨S_, .f32⟩ : BufTy).Contents (Elt F)) = t18 (m ((c : Thread nD τ).loc main_arg0)) := by
  dsimp only [V1, V0]
  after_results
  rfl

end Terms

/-! ## The terms read at an index, at the ideal values -/

section Read

open Cert.CauchyLoss

/-- A sum over a rank-1 index set is the sum over its one coordinate. -/
theorem idx1_sum {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun p => ix1 p, left_inv := fun i => (eq_ix1 i).symm, right_inv := fun _ => rfl }
  rw [← Equiv.sum_comp e.symm f]
  rfl

theorem t0_apply (x0 : (⟨S16384x128, .f32⟩ : BufTy).Contents (Elt Ideal)) (j : S8192x128.Idx) :
    t0 (F := Ideal) x0 j = upper x0 (j 0) (j 1) := by
  unfold t0 upper
  exact extractStridedSlice_apply ![0, 0] x0 slices_S16384x128_S8192x128_0_0 j
    (ix2 (⟨(j 0).val, by have := idx2_lt0 j; omega⟩ : Fin 16384) (j 1)) (fun a => match a with
    | ⟨0, _⟩ => by show (j 0).val = 0 + (j 0).val; omega
    | ⟨1, _⟩ => by show (j 1).val = 0 + (j 1).val; omega)

theorem t1_apply (x0 : (⟨S16384x128, .f32⟩ : BufTy).Contents (Elt Ideal)) (j : S8192x128.Idx) :
    t1 (F := Ideal) x0 j = lower x0 (j 0) (j 1) := by
  unfold t1 lower
  exact extractStridedSlice_apply ![8192, 0] x0 slices_S16384x128_S8192x128_8192_0 j
    (ix2 (⟨8192 + (j 0).val, by have := idx2_lt0 j; omega⟩ : Fin 16384) (j 1)) (fun a => match a with
    | ⟨0, _⟩ => by show 8192 + (j 0).val = 8192 + (j 0).val; omega
    | ⟨1, _⟩ => by show (j 1).val = 0 + (j 1).val; omega)

theorem cst_apply (w : BitVec 32) (i : S_.Idx) : cst (F := Ideal) w i = Ideal.ofBits .f32 w := rfl

theorem bc_apply (w : BitVec 32) (i : S8192.Idx) : bc (F := Ideal) w i = Ideal.ofBits .f32 w := by
  unfold bc
  exact (broadcastInDim_apply _ bcast_S_S8192 (cst (F := Ideal) w) i (fun a => a.elim0) (fun a => a.elim0)).trans rfl

/-- The host's sum along the 128 entries of each row, from zero. -/
theorem rowsum_apply (y0 : (⟨S8192x128, .f32⟩ : BufTy).Contents (Elt Ideal)) (i : S8192.Idx) :
    Host.reduceAdd (F := Ideal) (φ := .f32) y0 (cst (F := Ideal) 0x00000000#32) reducesTo_S8192x128_S8192_d1 h_S_ i
      = ∑ k : Fin 128, y0 (ix2 (i 0) k) := by
  simp only [Host.reduceAdd, Ideal.hostReduceAdd_def]
  rw [Ideal.hostReduceAdd_single reducesTo_S8192x128_S8192_d1 (by decide), cst_apply, Ideal.ofBits_zero_f32, zero_add]
  refine Finset.sum_congr rfl fun k _ => ?_
  exact congrArg y0 (funext fun a => Fin.ext (by match a with | ⟨0, _⟩ => rfl | ⟨1, _⟩ => rfl))

/-- The host's sum over all 8192 rows, from zero. -/
theorem totsum_apply (y0 : (⟨S8192, .f32⟩ : BufTy).Contents (Elt Ideal)) (j : S_.Idx) :
    Host.reduceAdd (F := Ideal) (φ := .f32) y0 (cst (F := Ideal) 0x00000000#32) reducesTo_S8192_S_d0 h_S_ j = ∑ p : Fin 8192, y0 (ix1 p) := by
  simp only [Host.reduceAdd, Ideal.hostReduceAdd_def]
  rw [Ideal.hostReduceAdd_total reducesTo_S8192_S_d0 (fun b => b.elim0) y0 _ j, cst_apply, Ideal.ofBits_zero_f32, zero_add]
  exact idx1_sum y0

theorem t4_apply (x0 : (⟨S16384x128, .f32⟩ : BufTy).Contents (Elt Ideal)) (i : S8192.Idx) :
    t4 (F := Ideal) x0 i
      = ∑ k : Fin 128, (upper x0 (i 0) k - lower x0 (i 0) k) * (upper x0 (i 0) k - lower x0 (i 0) k) := by
  unfold t4
  rw [rowsum_apply]
  refine Finset.sum_congr rfl fun k _ => ?_
  show (t0 (F := Ideal) x0 (ix2 (i 0) k) - t1 (F := Ideal) x0 (ix2 (i 0) k))
      * (t0 (F := Ideal) x0 (ix2 (i 0) k) - t1 (F := Ideal) x0 (ix2 (i 0) k)) = _
  rw [t0_apply, t1_apply]

theorem t10_apply (x0 : (⟨S16384x128, .f32⟩ : BufTy).Contents (Elt Ideal)) (i : S8192.Idx) :
    t10 (F := Ideal) x0 i = posSim (upper x0) (lower x0) (i 0) := by
  unfold posSim
  show Ideal.div (bc (F := Ideal) 0x3F800000#32 i)
      (bc (F := Ideal) 0x3F800000#32 i * t4 (F := Ideal) x0 i + bc (F := Ideal) 0x3F800000#32 i) = _
  rw [bc_apply, t4_apply]

theorem t16_apply (x0 : (⟨S16384x128, .f32⟩ : BufTy).Contents (Elt Ideal)) (i : S8192.Idx) :
    t16 (F := Ideal) x0 i
      = (posSim (upper x0) (lower x0) (i 0) - ten) * (posSim (upper x0) (lower x0) (i 0) - ten)
          - one * posSim (upper x0) (lower x0) (i 0) := by
  show (t10 (F := Ideal) x0 i - bc (F := Ideal) 0x41200000#32 i) * (t10 (F := Ideal) x0 i - bc (F := Ideal) 0x41200000#32 i)
      - bc (F := Ideal) 0x3F800000#32 i * t10 (F := Ideal) x0 i = _
  rw [bc_apply, bc_apply, t10_apply]

theorem t18_apply (x0 : (⟨S16384x128, .f32⟩ : BufTy).Contents (Elt Ideal)) (j : S_.Idx) :
    t18 (F := Ideal) x0 j = pos (upper x0) (lower x0) := by
  unfold pos
  show Ideal.div (Host.reduceAdd (F := Ideal) (φ := .f32) (t16 (F := Ideal) x0) (cst (F := Ideal) 0x00000000#32) reducesTo_S8192_S_d0 h_S_ j)
      (cst (F := Ideal) 0x46000000#32 j) = _
  rw [totsum_apply, cst_apply]
  refine congrArg (Ideal.div · _) (Finset.sum_congr rfl fun p _ => ?_)
  rw [t16_apply]

end Read

/-! ## The last stretch -/

/-- The last stretch's result from the five buffers it reads. -/
def tl (a18 a20 a21 : (⟨S_, .f32⟩ : BufTy).Contents (Elt F)) (o0 o1 : (⟨S1x1, .f32⟩ : BufTy).Contents (Elt F)) :
    (⟨S_, .f32⟩ : BufTy).Contents (Elt F) :=
  addf (addf a18 (addf (Host.divf a20 (cst (F := F) 0x46000000#32))
      (Host.divf (shapeCast S_ o0 shapeCasts_S1x1_S_) (cst (F := F) 0x46000000#32))))
    (mulf (cst (F := F) 0x3F000000#32) (addf a21 (shapeCast S_ o1 shapeCasts_S1x1_S_)))

section Tail

variable (m : (ℓ : Loc nD τ sig) → Buf (Elt F) ℓ) (outs : Outs (F := F))

theorem V4_v18 (c : Dev nD) : V4 m outs c main_v18 = V1 m c main_v18 :=
  (V4_of m outs c main_v18 (by decide)).trans <| (V3_of m outs c main_v18 (by decide)).trans <|
    V2_of m outs c main_v18 (by decide)

theorem V2_v19_0 (c : Dev nD) : V2 m outs c main_v19_0 = outs 2 main_v19_0 c := by
  dsimp only [V2]
  rw [Function.update_of_ne (StableHlo.devRef_ne_of_ne (by decide) :
      (Proc.devRef .tc main_v19_0 : DevRef τ sig) ≠ Proc.devRef .tc main_v19_1), Function.update_self]

theorem V2_v19_1 (c : Dev nD) : V2 m outs c main_v19_1 = outs 2 main_v19_1 c := by
  dsimp only [V2]
  rw [Function.update_self]

theorem V4_v22_0 (c : Dev nD) : V4 m outs c main_v22_0 = outs 4 main_v22_0 c := by
  dsimp only [V4]
  rw [Function.update_of_ne (StableHlo.devRef_ne_of_ne (by decide) :
      (Proc.devRef .tc main_v22_0 : DevRef τ sig) ≠ Proc.devRef .tc main_v22_1), Function.update_self]

theorem V4_v22_1 (c : Dev nD) : V4 m outs c main_v22_1 = outs 4 main_v22_1 c := by
  dsimp only [V4]
  rw [Function.update_self]

theorem V3_v20 (c : Dev nD) :
    (V3 m outs c main_v20 : (⟨S_, .f32⟩ : BufTy).Contents (Elt F))
      = shapeCast S_ (V2 m outs c main_v19_0 : (⟨S1x1, .f32⟩ : BufTy).Contents (Elt F)) shapeCasts_S1x1_S_ := by
  dsimp only [V3]
  after_results
  rfl

theorem V3_v21 (c : Dev nD) :
    (V3 m outs c main_v21 : (⟨S_, .f32⟩ : BufTy).Contents (Elt F))
      = shapeCast S_ (V2 m outs c main_v19_1 : (⟨S1x1, .f32⟩ : BufTy).Contents (Elt F)) shapeCasts_S1x1_S_ := by
  dsimp only [V3]
  after_results
  rfl

theorem V4_v20 (c : Dev nD) :
    (V4 m outs c main_v20 : (⟨S_, .f32⟩ : BufTy).Contents (Elt F))
      = shapeCast S_ (outs 2 main_v19_0 c : (⟨S1x1, .f32⟩ : BufTy).Contents (Elt F)) shapeCasts_S1x1_S_ := by
  rw [V4_of m outs c main_v20 (by decide), V3_v20, V2_v19_0]

theorem V4_v21 (c : Dev nD) :
    (V4 m outs c main_v21 : (⟨S_, .f32⟩ : BufTy).Contents (Elt F))
      = shapeCast S_ (outs 2 main_v19_1 c : (⟨S1x1, .f32⟩ : BufTy).Contents (Elt F)) shapeCasts_S1x1_S_ := by
  rw [V4_of m outs c main_v21 (by decide), V3_v21, V2_v19_1]

theorem V5_v31 (c : Dev nD) :
    (V5 m outs c main_v31 : (⟨S_, .f32⟩ : BufTy).Contents (Elt F))
      = tl (V4 m outs c main_v18) (V4 m outs c main_v20) (V4 m outs c main_v21)
          (V4 m outs c main_v22_0) (V4 m outs c main_v22_1) := by
  dsimp only [V5]
  after_results
  rfl

end Tail

section ReadTail

open Cert.CauchyLoss

/-- A 1 × 1 array recast as a scalar reads its one entry. -/
theorem cast11_apply {α : Type} (y : S1x1.Idx → α) (j : S_.Idx) :
    shapeCast S_ y shapeCasts_S1x1_S_ j = y (ix2 0 0) :=
  shapeCast_apply y shapeCasts_S1x1_S_ j (ix2 0 0) (by
    have hn : S_.numel = 1 := by decide
    have h1 := (S_.rowMajor j).isLt
    have h2 : (S1x1.rowMajor (ix2 0 0)).val = 0 := by rw [Shape.rowMajor_val_two]; rfl
    omega)

theorem tl_apply (a18 a20 a21 : (⟨S_, .f32⟩ : BufTy).Contents (Elt Ideal)) (o0 o1 : (⟨S1x1, .f32⟩ : BufTy).Contents (Elt Ideal))
    (j : S_.Idx) :
    tl (F := Ideal) a18 a20 a21 o0 o1 j
      = a18 j + (Ideal.div (a20 j) nB + Ideal.div (o0 (ix2 0 0)) nB) + half * (a21 j + o1 (ix2 0 0)) := by
  show a18 j + (Ideal.div (a20 j) (cst (F := Ideal) 0x46000000#32 j)
        + Ideal.div (shapeCast S_ o0 shapeCasts_S1x1_S_ j) (cst (F := Ideal) 0x46000000#32 j))
      + cst (F := Ideal) 0x3F000000#32 j * (a21 j + shapeCast S_ o1 shapeCasts_S1x1_S_ j) = _
  rw [cast11_apply, cast11_apply]
  rfl

end ReadTail

/-! ## The statements -/

section Statements

open Cert.CauchyLoss

variable (m : (ℓ : Loc nD τ sig) → Buf (Elt Ideal) ℓ) (outs : Outs (F := Ideal))

/-- After the first stretch `main_v0` holds the upper half of the matrix. -/
theorem v0_eq (c : Dev nD) :
    (V1 m c main_v0 : S8192x128.Idx → EReal)
      = fun j => upper (m ((c : Thread nD τ).loc main_arg0)) (j 0) (j 1) :=
  (V1_v0 m c).trans (funext fun j => t0_apply _ j)

/-- After the first stretch `main_v1` holds the lower half of the matrix. -/
theorem v1_eq (c : Dev nD) :
    (V1 m c main_v1 : S8192x128.Idx → EReal)
      = fun j => lower (m ((c : Thread nD τ).loc main_arg0)) (j 0) (j 1) :=
  (V1_v1 m c).trans (funext fun j => t1_apply _ j)

/-- After the first stretch `main_v18` holds the positive term. -/
theorem v18_eq (c : Dev nD) :
    (V1 m c main_v18 : S_.Idx → EReal)
      = fun _ => pos (upper (m ((c : Thread nD τ).loc main_arg0))) (lower (m ((c : Thread nD τ).loc main_arg0))) :=
  (V1_v18 m c).trans (funext fun j => t18_apply _ j)

/-- The last stretch's arithmetic: the positive term, two sums over 8192, half the sum of two more. -/
def assemble (p s1a s1b s2a s2b : EReal) : EReal :=
  p + (Ideal.div s1a nB + Ideal.div s1b nB) + half * (s2a + s2b)

theorem assemble_def (p s1a s1b s2a s2b : EReal) :
    assemble p s1a s1b s2a s2b = p + (Ideal.div s1a nB + Ideal.div s1b nB) + half * (s2a + s2b) := rfl

/-- The loss is this arithmetic on its five parts. -/
theorem loss_eq_assemble (a b : Rows 8192) : loss a b = assemble (pos a b) (Cert.CauchyLoss.S1 a) (Cert.CauchyLoss.S1 b) (Cert.CauchyLoss.S2 a) (Cert.CauchyLoss.S2 b) := rfl

/-- The program's result from what `main_v18` holds and what the two regions leave. -/
theorem v31_eq_of (c : Dev nD) (a18 : EReal) (h18 : (V1 m c main_v18 : S_.Idx → EReal) = fun _ => a18) :
    (V5 m outs c main_v31 : S_.Idx → EReal) = fun _ =>
      assemble a18 (outs 2 main_v19_0 c (ix2 0 0)) (outs 4 main_v22_0 c (ix2 0 0))
        (outs 2 main_v19_1 c (ix2 0 0)) (outs 4 main_v22_1 c (ix2 0 0)) := by
  refine (V5_v31 m outs c).trans (funext fun j => ?_)
  rw [tl_apply, V4_v18, V4_v20, V4_v21, V4_v22_0, V4_v22_1, cast11_apply, cast11_apply, h18]
  rfl

/-- The program's result: the positive term, the two regions' first results over 8192, half the sum of their second results. -/
theorem v31_eq (c : Dev nD) :
    (V5 m outs c main_v31 : S_.Idx → EReal) = fun _ =>
      assemble (pos (upper (m ((c : Thread nD τ).loc main_arg0))) (lower (m ((c : Thread nD τ).loc main_arg0))))
        (outs 2 main_v19_0 c (ix2 0 0)) (outs 4 main_v22_0 c (ix2 0 0))
        (outs 2 main_v19_1 c (ix2 0 0)) (outs 4 main_v22_1 c (ix2 0 0)) :=
  v31_eq_of m outs c _ (v18_eq m c)

end Statements

end Cert.KernelIdeal.HostValue

end
-- ==== Proof.KIValue.lean ====
/-
  What the kernel program computes at the extended reals: each similarity-statistics kernel's output is the running
  sum after the last of the 256 grid points, a point adds its 512 × 512 tile's share, and the 256 tiles regroup into
  the whole 8192 × 8192 double sum; with the host operations around the two kernels the result is the loss.
-/
import proofs.«168013_j80238579024621_1_alg».proof.Proof.KIRegions
import proofs.«168013_j80238579024621_1_alg».proof.Proof.Acc1
import proofs.«168013_j80238579024621_1_alg».proof.Proof.GeoWin
import proofs.«168013_j80238579024621_1_alg».proof.Proof.GlueTiles
import proofs.«168013_j80238579024621_1_alg».proof.Proof.GlueHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.TileValue Idealize.ShloMosaic.ValueIdx

section Acc
variable (V : (c : Dev nD) → (b : Ref sig .tc) → Buf (Elt Ideal) ((c : Thread nD τ).loc b)) (c : Dev nD)

/-- The array each kernel's two windows cut their row blocks from, as rows. -/
def rowsArr0 : Cert.CauchyLoss.Rows 8192 := fun p q => (V c main_v0 (ix2 p q) : EReal)
def rowsArr1 : Cert.CauchyLoss.Rows 8192 := fun p q => (V c main_v1 (ix2 p q) : EReal)

/-- Running sum 0 of kernel 0 before point n: zero before the first point, then what the point before left. -/
def acc0_0 : ℕ → EReal
  | 0 => 0
  | n + 1 => if h : n < cfg0.N then ((outsAt0 (F := Ideal) V c n h).2.1 (ix2 0 0) : EReal) else 0
theorem acc0_0_succ (n : ℕ) (h : n < cfg0.N) : acc0_0 V c (n + 1) = ((outsAt0 (F := Ideal) V c n h).2.1 (ix2 0 0) : EReal) := dif_pos h
/-- What grid point n adds to it: its tile's share. -/
def tile0_0 (n : ℕ) : EReal :=
  if h : n < cfg0.N then Cert.CauchyLoss.tileS1 (rowsOf (iblk0 V c 0 ⟨n, h⟩)) (rowsOf (iblk0 V c 1 ⟨n, h⟩))
      ⟨n / 16, by have : cfg0.N = 256 := N_0; omega⟩ ⟨n % 16, by omega⟩ else 0
theorem acc0_0_step (n : ℕ) (hn : n < 256) : acc0_0 V c (n + 1) = acc0_0 V c n + tile0_0 V c n := by
  have hN : cfg0.N = 256 := N_0
  have hn' : n < cfg0.N := by omega
  cases n with
  | zero =>
    show (if h : 0 < cfg0.N then ((outsAt0 (F := Ideal) V c 0 h).2.1 (ix2 0 0) : EReal) else 0) = (0 : EReal) + tile0_0 V c 0
    rw [dif_pos hn']; unfold tile0_0; rw [dif_pos hn']
    exact congrFun (sum0_first V c hn') (ix2 0 0)
  | succ n =>
    show (if h : n + 1 < cfg0.N then ((outsAt0 (F := Ideal) V c (n + 1) h).2.1 (ix2 0 0) : EReal) else 0)
      = (if h : n < cfg0.N then ((outsAt0 (F := Ideal) V c n h).2.1 (ix2 0 0) : EReal) else 0) + tile0_0 V c (n + 1)
    rw [dif_pos hn', dif_pos (Nat.lt_of_succ_lt hn')]; unfold tile0_0; rw [dif_pos hn']
    exact congrFun (sum0_step V c n hn') (ix2 0 0)
/-- After the last point the running sum is the sum of all 256 tiles' shares, -/
theorem acc0_0_total : acc0_0 V c 256 = ∑ t : Fin 256, tile0_0 V c t.val :=
  Cert.CauchyLoss.fold_sum_grid (tile0_0 V c) (acc0_0 V c) rfl (fun n hn => acc0_0_step V c n hn)
/-- each tile's share read off the one array both windows cut their row blocks from, -/
theorem tile0_0_eq (t : Fin 256) : tile0_0 V c t.val
    = Cert.CauchyLoss.tileS1 (Cert.CauchyLoss.tileRows (rowsArr0 V c) ⟨t.val / 16, by omega⟩) (Cert.CauchyLoss.tileRows (rowsArr0 V c) ⟨t.val % 16, by omega⟩) ⟨t.val / 16, by omega⟩ ⟨t.val % 16, by omega⟩ := by
  have hN : cfg0.N = 256 := N_0
  have ht : t.val < cfg0.N := by have := t.isLt; omega
  unfold tile0_0; rw [dif_pos ht]
  have e0 : rowsOf (iblk0 V c 0 ⟨t.val, ht⟩) = Cert.CauchyLoss.tileRows (rowsArr0 V c) ⟨t.val / 16, by omega⟩ :=
    funext fun r => funext fun q => iblk0_0_apply V c ⟨t.val, ht⟩ r q
  have e1 : rowsOf (iblk0 V c 1 ⟨t.val, ht⟩) = Cert.CauchyLoss.tileRows (rowsArr0 V c) ⟨t.val % 16, by omega⟩ :=
    funext fun r => funext fun q => iblk0_1_apply V c ⟨t.val, ht⟩ r q
  rw [e0, e1]
/-- so it is the whole double sum over the half. -/
theorem acc0_0_eq : acc0_0 V c 256 = Cert.CauchyLoss.S1 (rowsArr0 V c) :=
  (acc0_0_total V c).trans ((Finset.sum_congr rfl fun t _ => tile0_0_eq V c t).trans (Cert.CauchyLoss.S1_tiles (rowsArr0 V c)))
/-- The output array ends holding that sum. -/
theorem arr0_2_eq : ((dat0 (F := Ideal) V c).arrAt 2 cfg0.N (ix2 0 0) : EReal) = Cert.CauchyLoss.S1 (rowsArr0 V c) := by
  have e1 := arr_out0_2 (F := Ideal) V c
  have e2 := out0_last (F := Ideal) V c lastPt0
  have e3 := acc0_0_succ V c 255 lastPt0
  have e4 := acc0_0_eq V c
  generalize hX : outsAt0 (F := Ideal) V c 255 lastPt0 = X at e1 e2 e3
  rw [e1, e2]
  exact e3.symm.trans e4

/-- Running sum 1 of kernel 0 before point n: zero before the first point, then what the point before left. -/
def acc0_1 : ℕ → EReal
  | 0 => 0
  | n + 1 => if h : n < cfg0.N then ((outsAt0 (F := Ideal) V c n h).2.2 (ix2 0 0) : EReal) else 0
theorem acc0_1_succ (n : ℕ) (h : n < cfg0.N) : acc0_1 V c (n + 1) = ((outsAt0 (F := Ideal) V c n h).2.2 (ix2 0 0) : EReal) := dif_pos h
/-- What grid point n adds to it: its tile's share. -/
def tile0_1 (n : ℕ) : EReal :=
  if h : n < cfg0.N then Cert.CauchyLoss.tileS2 (rowsOf (iblk0 V c 0 ⟨n, h⟩)) (rowsOf (iblk0 V c 1 ⟨n, h⟩))
      ⟨n / 16, by have : cfg0.N = 256 := N_0; omega⟩ ⟨n % 16, by omega⟩ else 0
theorem acc0_1_step (n : ℕ) (hn : n < 256) : acc0_1 V c (n + 1) = acc0_1 V c n + tile0_1 V c n := by
  have hN : cfg0.N = 256 := N_0
  have hn' : n < cfg0.N := by omega
  cases n with
  | zero =>
    show (if h : 0 < cfg0.N then ((outsAt0 (F := Ideal) V c 0 h).2.2 (ix2 0 0) : EReal) else 0) = (0 : EReal) + tile0_1 V c 0
    rw [dif_pos hn']; unfold tile0_1; rw [dif_pos hn']
    exact congrFun (sum0_first' V c hn') (ix2 0 0)
  | succ n =>
    show (if h : n + 1 < cfg0.N then ((outsAt0 (F := Ideal) V c (n + 1) h).2.2 (ix2 0 0) : EReal) else 0)
      = (if h : n < cfg0.N then ((outsAt0 (F := Ideal) V c n h).2.2 (ix2 0 0) : EReal) else 0) + tile0_1 V c (n + 1)
    rw [dif_pos hn', dif_pos (Nat.lt_of_succ_lt hn')]; unfold tile0_1; rw [dif_pos hn']
    exact congrFun (sum0_step' V c n hn') (ix2 0 0)
/-- After the last point the running sum is the sum of all 256 tiles' shares, -/
theorem acc0_1_total : acc0_1 V c 256 = ∑ t : Fin 256, tile0_1 V c t.val :=
  Cert.CauchyLoss.fold_sum_grid (tile0_1 V c) (acc0_1 V c) rfl (fun n hn => acc0_1_step V c n hn)
/-- each tile's share read off the one array both windows cut their row blocks from, -/
theorem tile0_1_eq (t : Fin 256) : tile0_1 V c t.val
    = Cert.CauchyLoss.tileS2 (Cert.CauchyLoss.tileRows (rowsArr0 V c) ⟨t.val / 16, by omega⟩) (Cert.CauchyLoss.tileRows (rowsArr0 V c) ⟨t.val % 16, by omega⟩) ⟨t.val / 16, by omega⟩ ⟨t.val % 16, by omega⟩ := by
  have hN : cfg0.N = 256 := N_0
  have ht : t.val < cfg0.N := by have := t.isLt; omega
  unfold tile0_1; rw [dif_pos ht]
  have e0 : rowsOf (iblk0 V c 0 ⟨t.val, ht⟩) = Cert.CauchyLoss.tileRows (rowsArr0 V c) ⟨t.val / 16, by omega⟩ :=
    funext fun r => funext fun q => iblk0_0_apply V c ⟨t.val, ht⟩ r q
  have e1 : rowsOf (iblk0 V c 1 ⟨t.val, ht⟩) = Cert.CauchyLoss.tileRows (rowsArr0 V c) ⟨t.val % 16, by omega⟩ :=
    funext fun r => funext fun q => iblk0_1_apply V c ⟨t.val, ht⟩ r q
  rw [e0, e1]
/-- so it is the whole double sum over the half. -/
theorem acc0_1_eq : acc0_1 V c 256 = Cert.CauchyLoss.S2 (rowsArr0 V c) :=
  (acc0_1_total V c).trans ((Finset.sum_congr rfl fun t _ => tile0_1_eq V c t).trans (Cert.CauchyLoss.S2_tiles (rowsArr0 V c)))
/-- The output array ends holding that sum. -/
theorem arr0_3_eq : ((dat0 (F := Ideal) V c).arrAt 3 cfg0.N (ix2 0 0) : EReal) = Cert.CauchyLoss.S2 (rowsArr0 V c) := by
  have e1 := arr_out0_3 (F := Ideal) V c
  have e2 := out0_last' (F := Ideal) V c lastPt0
  have e3 := acc0_1_succ V c 255 lastPt0
  have e4 := acc0_1_eq V c
  generalize hX : outsAt0 (F := Ideal) V c 255 lastPt0 = X at e1 e2 e3
  rw [e1, e2]
  exact e3.symm.trans e4

/-- Running sum 0 of kernel 1 before point n: zero before the first point, then what the point before left. -/
def acc1_0 : ℕ → EReal
  | 0 => 0
  | n + 1 => if h : n < cfg1.N then ((outsAt1 (F := Ideal) V c n h).2.1 (ix2 0 0) : EReal) else 0
theorem acc1_0_succ (n : ℕ) (h : n < cfg1.N) : acc1_0 V c (n + 1) = ((outsAt1 (F := Ideal) V c n h).2.1 (ix2 0 0) : EReal) := dif_pos h
/-- What grid point n adds to it: its tile's share. -/
def tile1_0 (n : ℕ) : EReal :=
  if h : n < cfg1.N then Cert.CauchyLoss.tileS1 (rowsOf (iblk1 V c 0 ⟨n, h⟩)) (rowsOf (iblk1 V c 1 ⟨n, h⟩))
      ⟨n / 16, by have : cfg1.N = 256 := N_1; omega⟩ ⟨n % 16, by omega⟩ else 0
theorem acc1_0_step (n : ℕ) (hn : n < 256) : acc1_0 V c (n + 1) = acc1_0 V c n + tile1_0 V c n := by
  have hN : cfg1.N = 256 := N_1
  have hn' : n < cfg1.N := by omega
  cases n with
  | zero =>
    show (if h : 0 < cfg1.N then ((outsAt1 (F := Ideal) V c 0 h).2.1 (ix2 0 0) : EReal) else 0) = (0 : EReal) + tile1_0 V c 0
    rw [dif_pos hn']; unfold tile1_0; rw [dif_pos hn']
    exact congrFun (sum1_first V c hn') (ix2 0 0)
  | succ n =>
    show (if h : n + 1 < cfg1.N then ((outsAt1 (F := Ideal) V c (n + 1) h).2.1 (ix2 0 0) : EReal) else 0)
      = (if h : n < cfg1.N then ((outsAt1 (F := Ideal) V c n h).2.1 (ix2 0 0) : EReal) else 0) + tile1_0 V c (n + 1)
    rw [dif_pos hn', dif_pos (Nat.lt_of_succ_lt hn')]; unfold tile1_0; rw [dif_pos hn']
    exact congrFun (sum1_step V c n hn') (ix2 0 0)
/-- After the last point the running sum is the sum of all 256 tiles' shares, -/
theorem acc1_0_total : acc1_0 V c 256 = ∑ t : Fin 256, tile1_0 V c t.val :=
  Cert.CauchyLoss.fold_sum_grid (tile1_0 V c) (acc1_0 V c) rfl (fun n hn => acc1_0_step V c n hn)
/-- each tile's share read off the one array both windows cut their row blocks from, -/
theorem tile1_0_eq (t : Fin 256) : tile1_0 V c t.val
    = Cert.CauchyLoss.tileS1 (Cert.CauchyLoss.tileRows (rowsArr1 V c) ⟨t.val / 16, by omega⟩) (Cert.CauchyLoss.tileRows (rowsArr1 V c) ⟨t.val % 16, by omega⟩) ⟨t.val / 16, by omega⟩ ⟨t.val % 16, by omega⟩ := by
  have hN : cfg1.N = 256 := N_1
  have ht : t.val < cfg1.N := by have := t.isLt; omega
  unfold tile1_0; rw [dif_pos ht]
  have e0 : rowsOf (iblk1 V c 0 ⟨t.val, ht⟩) = Cert.CauchyLoss.tileRows (rowsArr1 V c) ⟨t.val / 16, by omega⟩ :=
    funext fun r => funext fun q => iblk1_0_apply V c ⟨t.val, ht⟩ r q
  have e1 : rowsOf (iblk1 V c 1 ⟨t.val, ht⟩) = Cert.CauchyLoss.tileRows (rowsArr1 V c) ⟨t.val % 16, by omega⟩ :=
    funext fun r => funext fun q => iblk1_1_apply V c ⟨t.val, ht⟩ r q
  rw [e0, e1]
/-- so it is the whole double sum over the half. -/
theorem acc1_0_eq : acc1_0 V c 256 = Cert.CauchyLoss.S1 (rowsArr1 V c) :=
  (acc1_0_total V c).trans ((Finset.sum_congr rfl fun t _ => tile1_0_eq V c t).trans (Cert.CauchyLoss.S1_tiles (rowsArr1 V c)))
/-- The output array ends holding that sum. -/
theorem arr1_2_eq : ((dat1 (F := Ideal) V c).arrAt 2 cfg1.N (ix2 0 0) : EReal) = Cert.CauchyLoss.S1 (rowsArr1 V c) := by
  have e1 := arr_out1_2 (F := Ideal) V c
  have e2 := out1_last (F := Ideal) V c lastPt1
  have e3 := acc1_0_succ V c 255 lastPt1
  have e4 := acc1_0_eq V c
  generalize hX : outsAt1 (F := Ideal) V c 255 lastPt1 = X at e1 e2 e3
  rw [e1, e2]
  exact e3.symm.trans e4

/-- Running sum 1 of kernel 1 before point n: zero before the first point, then what the point before left. -/
def acc1_1 : ℕ → EReal
  | 0 => 0
  | n + 1 => if h : n < cfg1.N then ((outsAt1 (F := Ideal) V c n h).2.2 (ix2 0 0) : EReal) else 0
theorem acc1_1_succ (n : ℕ) (h : n < cfg1.N) : acc1_1 V c (n + 1) = ((outsAt1 (F := Ideal) V c n h).2.2 (ix2 0 0) : EReal) := dif_pos h
/-- What grid point n adds to it: its tile's share. -/
def tile1_1 (n : ℕ) : EReal :=
  if h : n < cfg1.N then Cert.CauchyLoss.tileS2 (rowsOf (iblk1 V c 0 ⟨n, h⟩)) (rowsOf (iblk1 V c 1 ⟨n, h⟩))
      ⟨n / 16, by have : cfg1.N = 256 := N_1; omega⟩ ⟨n % 16, by omega⟩ else 0
theorem acc1_1_step (n : ℕ) (hn : n < 256) : acc1_1 V c (n + 1) = acc1_1 V c n + tile1_1 V c n := by
  have hN : cfg1.N = 256 := N_1
  have hn' : n < cfg1.N := by omega
  cases n with
  | zero =>
    show (if h : 0 < cfg1.N then ((outsAt1 (F := Ideal) V c 0 h).2.2 (ix2 0 0) : EReal) else 0) = (0 : EReal) + tile1_1 V c 0
    rw [dif_pos hn']; unfold tile1_1; rw [dif_pos hn']
    exact congrFun (sum1_first' V c hn') (ix2 0 0)
  | succ n =>
    show (if h : n + 1 < cfg1.N then ((outsAt1 (F := Ideal) V c (n + 1) h).2.2 (ix2 0 0) : EReal) else 0)
      = (if h : n < cfg1.N then ((outsAt1 (F := Ideal) V c n h).2.2 (ix2 0 0) : EReal) else 0) + tile1_1 V c (n + 1)
    rw [dif_pos hn', dif_pos (Nat.lt_of_succ_lt hn')]; unfold tile1_1; rw [dif_pos hn']
    exact congrFun (sum1_step' V c n hn') (ix2 0 0)
/-- After the last point the running sum is the sum of all 256 tiles' shares, -/
theorem acc1_1_total : acc1_1 V c 256 = ∑ t : Fin 256, tile1_1 V c t.val :=
  Cert.CauchyLoss.fold_sum_grid (tile1_1 V c) (acc1_1 V c) rfl (fun n hn => acc1_1_step V c n hn)
/-- each tile's share read off the one array both windows cut their row blocks from, -/
theorem tile1_1_eq (t : Fin 256) : tile1_1 V c t.val
    = Cert.CauchyLoss.tileS2 (Cert.CauchyLoss.tileRows (rowsArr1 V c) ⟨t.val / 16, by omega⟩) (Cert.CauchyLoss.tileRows (rowsArr1 V c) ⟨t.val % 16, by omega⟩) ⟨t.val / 16, by omega⟩ ⟨t.val % 16, by omega⟩ := by
  have hN : cfg1.N = 256 := N_1
  have ht : t.val < cfg1.N := by have := t.isLt; omega
  unfold tile1_1; rw [dif_pos ht]
  have e0 : rowsOf (iblk1 V c 0 ⟨t.val, ht⟩) = Cert.CauchyLoss.tileRows (rowsArr1 V c) ⟨t.val / 16, by omega⟩ :=
    funext fun r => funext fun q => iblk1_0_apply V c ⟨t.val, ht⟩ r q
  have e1 : rowsOf (iblk1 V c 1 ⟨t.val, ht⟩) = Cert.CauchyLoss.tileRows (rowsArr1 V c) ⟨t.val % 16, by omega⟩ :=
    funext fun r => funext fun q => iblk1_1_apply V c ⟨t.val, ht⟩ r q
  rw [e0, e1]
/-- so it is the whole double sum over the half. -/
theorem acc1_1_eq : acc1_1 V c 256 = Cert.CauchyLoss.S2 (rowsArr1 V c) :=
  (acc1_1_total V c).trans ((Finset.sum_congr rfl fun t _ => tile1_1_eq V c t).trans (Cert.CauchyLoss.S2_tiles (rowsArr1 V c)))
/-- The output array ends holding that sum. -/
theorem arr1_3_eq : ((dat1 (F := Ideal) V c).arrAt 3 cfg1.N (ix2 0 0) : EReal) = Cert.CauchyLoss.S2 (rowsArr1 V c) := by
  have e1 := arr_out1_3 (F := Ideal) V c
  have e2 := out1_last' (F := Ideal) V c lastPt1
  have e3 := acc1_1_succ V c 255 lastPt1
  have e4 := acc1_1_eq V c
  generalize hX : outsAt1 (F := Ideal) V c 255 lastPt1 = X at e1 e2 e3
  rw [e1, e2]
  exact e3.symm.trans e4

end Acc

variable (m : (ℓ : Loc nD τ sig) → Buf (Elt Ideal) ℓ)

/-- The first kernel reads the upper half of the features, the second the lower half. -/
theorem rowsArr0_eq (c : Dev nD) : rowsArr0 (E1 m) c = Cert.CauchyLoss.upper (m ((c : Thread nD τ).loc main_arg0)) :=
  funext fun p => funext fun q => congrFun (Cert.KernelIdeal.HostValue.v0_eq m c) (ix2 p q)
theorem rowsArr1_eq (c : Dev nD) : rowsArr1 (E3 m) c = Cert.CauchyLoss.lower (m ((c : Thread nD τ).loc main_arg0)) :=
  funext fun p => funext fun q =>
    (congrFun ((V3_of m (outsA m) c main_v1 (by decide)).trans ((V2_of m (outsA m) c main_v1 (by decide)))) (ix2 p q)).trans
      (congrFun (Cert.KernelIdeal.HostValue.v1_eq m c) (ix2 p q))

/-- THE KERNEL PROGRAM'S VALUE: its result buffer ends holding the loss of the features. -/
theorem result_eq (c : Dev nD) :
    (V5 m (outs m) c main_v31 : S_.Idx → EReal) = fun _ => Cert.CauchyLoss.lossOf (m ((c : Thread nD τ).loc main_arg0)) := by
  rw [Cert.KernelIdeal.HostValue.v31_eq m (outs m) c]
  funext _
  have h1 : (outs m 2 main_v19_0 c (ix2 0 0) : EReal) = Cert.CauchyLoss.S1 (Cert.CauchyLoss.upper (m ((c : Thread nD τ).loc main_arg0))) :=
    (congrFun (outs_19_0 m c) (ix2 0 0)).trans ((arr0_2_eq (E1 m) c).trans (congrArg Cert.CauchyLoss.S1 (rowsArr0_eq m c)))
  have h2 : (outs m 2 main_v19_1 c (ix2 0 0) : EReal) = Cert.CauchyLoss.S2 (Cert.CauchyLoss.upper (m ((c : Thread nD τ).loc main_arg0))) :=
    (congrFun (outs_19_1 m c) (ix2 0 0)).trans ((arr0_3_eq (E1 m) c).trans (congrArg Cert.CauchyLoss.S2 (rowsArr0_eq m c)))
  have h3 : (outs m 4 main_v22_0 c (ix2 0 0) : EReal) = Cert.CauchyLoss.S1 (Cert.CauchyLoss.lower (m ((c : Thread nD τ).loc main_arg0))) :=
    (congrFun (outs_22_0 m c) (ix2 0 0)).trans ((arr1_2_eq (E3 m) c).trans (congrArg Cert.CauchyLoss.S1 (rowsArr1_eq m c)))
  have h4 : (outs m 4 main_v22_1 c (ix2 0 0) : EReal) = Cert.CauchyLoss.S2 (Cert.CauchyLoss.lower (m ((c : Thread nD τ).loc main_arg0))) :=
    (congrFun (outs_22_1 m c) (ix2 0 0)).trans ((arr1_3_eq (E3 m) c).trans (congrArg Cert.CauchyLoss.S2 (rowsArr1_eq m c)))
  rw [h1, h2, h3, h4]
  exact (Cert.KernelIdeal.HostValue.loss_eq_assemble _ _).symm

end Cert.KernelIdeal.Hand

end
-- ==== Proof.RefBase.lean ====
/-
  The reference program read against the specification: the feature matrix, its two halves as the reference's
  two slices, and a sum over a rank-1 index set as the sum over its coordinate.
-/
import proofs.«168013_j80238579024621_1_alg».proof.Proof.Gen.ReferenceIdeal.Read
import proofs.«168013_j80238579024621_1_alg».proof.Proof.Spec

noncomputable section

open scoped BigOperators

namespace Cert.ReferenceIdeal.RefValue

open Cert.ReferenceIdeal Cert.ReferenceIdeal.Read Cert.CauchyLoss Idealize.ShloMosaic Idealize.ShloMosaic.ValueIdx

/-- The feature matrix. -/
abbrev X : Type := (⟨S16384x128, .f32⟩ : BufTy).Contents (Elt Ideal)

/-! ## The two halves -/

/-- The first slice is the upper half of the rows. -/
theorem v0_ix2 (x0 : X) (p : Fin 8192) (k : Fin 128) :
    val_main_v0 (F := Ideal) x0 (ix2 p k) = upper x0 p k := by
  rw [val_main_v0_apply]
  unfold upper
  exact congrArg x0 (by funext a; match a with | ⟨0, _⟩ => rfl | ⟨1, _⟩ => rfl)

/-- The second slice is the lower half of the rows. -/
theorem v1_ix2 (x0 : X) (p : Fin 8192) (k : Fin 128) :
    val_main_v1 (F := Ideal) x0 (ix2 p k) = lower x0 p k := by
  rw [val_main_v1_apply]
  unfold lower
  exact congrArg x0 (by funext a; match a with | ⟨0, _⟩ => rfl | ⟨1, _⟩ => rfl)

/-! ## A sum over a rank-1 index set -/

/-- A rank-1 index set is its coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.ReferenceIdeal.RefValue

end
-- ==== Proof.RefSim.lean ====
/-
  The masked similarity matrix of each half, as the reference computes it: at row p and column q it is the
  specification's sim of that half. Row sums of squares, the product with the transposed half, the broadcast sums,
  the clamp at zero, the quotient, and the diagonal mask from the comparison of the two iotas.
-/
import proofs.«168013_j80238579024621_1_alg».proof.Proof.RefBase
import Idealize.ShloMosaic.Lib.Affine

noncomputable section

open scoped BigOperators

namespace Cert.ReferenceIdeal.RefValue

open Cert.ReferenceIdeal Cert.ReferenceIdeal.Read Cert.CauchyLoss Idealize.ShloMosaic Idealize.ShloMosaic.ValueIdx

/-! ## The diagonal mask -/

/-- Two row numbers below 8192, as 32-bit words, compare equal exactly when they are equal. -/
theorem eye_bit (p q : Fin 8192) :
    IntOp.cmpi .eq (IntOp.addi (BitVec.ofNat 32 p.val) 0#32) (BitVec.ofNat 32 q.val) = if p = q then 1#1 else 0#1 := by
  by_cases h : p = q
  · subst h
    rw [if_pos rfl]
    exact IntOp.cmpi_eq.mpr (by simp [IntOp.addi])
  · rw [if_neg h]
    refine eq_zero_of_ne_one fun h1 => h ?_
    have e : BitVec.ofNat 32 p.val = BitVec.ofNat 32 q.val := by simpa [IntOp.addi] using IntOp.cmpi_eq.mp h1
    have e2 := congrArg BitVec.toNat e
    rw [BitVec.toNat_ofNat, BitVec.toNat_ofNat] at e2
    have hp := p.isLt
    have hq := q.isLt
    exact Fin.ext (by omega)

/-- The comparison of the two iotas is the diagonal's indicator bit. -/
theorem v23_ix2 (p q : Fin 8192) :
    val_main_v23 (F := Ideal) (ix2 p q) = if p = q then 1#1 else 0#1 := by
  rw [val_main_v23_apply, val_main_v22_apply, val_main_v19_apply, val_main_v21_apply, val_main_c_apply, val_main_v20_apply]
  exact eye_bit p q

/-! ## The upper half -/

theorem idx25 (p : Fin 8192) (k : Fin 128) : idx_main_v25 (ix1 p) k = ix2 p k := by
  funext a; match a with | ⟨0, _⟩ => rfl | ⟨1, _⟩ => rfl
theorem idx27 (p : Fin 8192) (k : Fin 128) : idx_main_v27 (ix1 p) k = ix2 p k := by
  funext a; match a with | ⟨0, _⟩ => rfl | ⟨1, _⟩ => rfl
theorem idx28 (p : Fin 8192) (u : Fin 1) : idx_main_v28 (ix2 p u) = ix1 p := by
  funext a; match a with | ⟨0, _⟩ => rfl
theorem idx29 (u : Fin 1) (q : Fin 8192) : idx_main_v29 (ix2 u q) = ix1 q := by
  funext a; match a with | ⟨0, _⟩ => rfl
theorem idx30 (p q : Fin 8192) : idx_main_v30 (ix2 p q) = ix2 p (0 : Fin 1) := by
  funext a; match a with | ⟨0, _⟩ => rfl | ⟨1, _⟩ => rfl
theorem idx31 (p q : Fin 8192) : idx_main_v31 (ix2 p q) = ix2 (0 : Fin 1) q := by
  funext a; match a with | ⟨0, _⟩ => rfl | ⟨1, _⟩ => rfl
theorem idx33 (k : Fin 128) (q : Fin 8192) : idx_main_v33 (ix2 k q) = ix2 q k := by
  funext a; match a with | ⟨0, _⟩ => rfl | ⟨1, _⟩ => rfl
theorem lidx34 (p q : Fin 8192) (k : Fin 128) : lidx_main_v34 (ix2 p q) k = ix2 p k := by
  funext a; match a with | ⟨0, _⟩ => rfl | ⟨1, _⟩ => rfl
theorem ridx34 (p q : Fin 8192) (k : Fin 128) : ridx_main_v34 (ix2 p q) k = ix2 k q := by
  funext a; match a with | ⟨0, _⟩ => rfl | ⟨1, _⟩ => rfl

/-- A row's sum of squares, summed from zero. -/
theorem v25_ix1 (x0 : X) (p : Fin 8192) :
    val_main_v25 (F := Ideal) x0 (ix1 p) = sqn (upper x0) p := by
  rw [val_main_v25_apply, val_main_cst_7_apply, Ideal.ofBits_def, Ideal.ofBits_zero_f32, zero_add]
  unfold sqn
  refine Finset.sum_congr rfl fun k _ => ?_
  rw [idx25, val_main_v24_apply, v0_ix2, Ideal.mulf_def]

theorem v27_ix1 (x0 : X) (p : Fin 8192) :
    val_main_v27 (F := Ideal) x0 (ix1 p) = sqn (upper x0) p := by
  rw [val_main_v27_apply, val_main_cst_8_apply, Ideal.ofBits_def, Ideal.ofBits_zero_f32, zero_add]
  unfold sqn
  refine Finset.sum_congr rfl fun k _ => ?_
  rw [idx27, val_main_v26_apply, v0_ix2, Ideal.mulf_def]

/-- The two broadcast squared norms, added. -/
theorem v32_ix2 (x0 : X) (p q : Fin 8192) :
    val_main_v32 (F := Ideal) x0 (ix2 p q) = sqn (upper x0) p + sqn (upper x0) q := by
  rw [val_main_v32_apply, val_main_v30_apply, val_main_v31_apply, idx30, idx31, val_main_v28_apply, val_main_v29_apply,
    idx28, idx29, v25_ix1, v27_ix1, Ideal.addf_def]

/-- The product with the transposed half is the matrix of inner products. -/
theorem v34_ix2 (x0 : X) (p q : Fin 8192) :
    val_main_v34 (F := Ideal) x0 (ix2 p q) = dot (upper x0) (upper x0) p q := by
  rw [val_main_v34_apply]
  unfold dot
  refine Finset.sum_congr rfl fun k _ => ?_
  rw [lidx34, ridx34, val_main_v33_apply, idx33, v0_ix2, v0_ix2]

/-- The similarity before the diagonal is masked. -/
theorem v45_ix2 (x0 : X) (p q : Fin 8192) :
    val_main_v45 (F := Ideal) x0 (ix2 p q) = simOff (upper x0) (upper x0) p q := by
  rw [val_main_v45_apply, val_main_v44_apply, val_main_cst_13_apply, val_main_v43_apply, val_main_v42_apply,
    val_main_cst_12_apply, val_main_v41_apply, val_main_v40_apply, val_main_cst_11_apply, val_main_v39_apply,
    val_main_v38_apply, val_main_cst_10_apply, val_main_v37_apply, val_main_v36_apply, val_main_v35_apply,
    val_main_cst_9_apply, v32_ix2, v34_ix2]
  rfl

/-- The masked similarity. -/
theorem v46_ix2 (x0 : X) (p q : Fin 8192) :
    val_main_v46 (F := Ideal) x0 (ix2 p q) = sim (upper x0) p q := by
  rw [val_main_v46_apply, v23_ix2, val_main_call0_v1_apply, val_main_call0_v0_apply, val_main_cst_14_apply, v45_ix2]
  unfold sim masked
  by_cases h : p = q
  · rw [if_pos h, if_pos h]; exact select_one _ _
  · rw [if_neg h, if_neg h]; exact select_zero _ _

/-! ## The lower half -/

theorem idx56 (p : Fin 8192) (k : Fin 128) : idx_main_v56 (ix1 p) k = ix2 p k := by
  funext a; match a with | ⟨0, _⟩ => rfl | ⟨1, _⟩ => rfl
theorem idx58 (p : Fin 8192) (k : Fin 128) : idx_main_v58 (ix1 p) k = ix2 p k := by
  funext a; match a with | ⟨0, _⟩ => rfl | ⟨1, _⟩ => rfl
theorem idx59 (p : Fin 8192) (u : Fin 1) : idx_main_v59 (ix2 p u) = ix1 p := by
  funext a; match a with | ⟨0, _⟩ => rfl
theorem idx60 (u : Fin 1) (q : Fin 8192) : idx_main_v60 (ix2 u q) = ix1 q := by
  funext a; match a with | ⟨0, _⟩ => rfl
theorem idx61 (p q : Fin 8192) : idx_main_v61 (ix2 p q) = ix2 p (0 : Fin 1) := by
  funext a; match a with | ⟨0, _⟩ => rfl | ⟨1, _⟩ => rfl
theorem idx62 (p q : Fin 8192) : idx_main_v62 (ix2 p q) = ix2 (0 : Fin 1) q := by
  funext a; match a with | ⟨0, _⟩ => rfl | ⟨1, _⟩ => rfl
theorem idx64 (k : Fin 128) (q : Fin 8192) : idx_main_v64 (ix2 k q) = ix2 q k := by
  funext a; match a with | ⟨0, _⟩ => rfl | ⟨1, _⟩ => rfl
theorem lidx65 (p q : Fin 8192) (k : Fin 128) : lidx_main_v65 (ix2 p q) k = ix2 p k := by
  funext a; match a with | ⟨0, _⟩ => rfl | ⟨1, _⟩ => rfl
theorem ridx65 (p q : Fin 8192) (k : Fin 128) : ridx_main_v65 (ix2 p q) k = ix2 k q := by
  funext a; match a with | ⟨0, _⟩ => rfl | ⟨1, _⟩ => rfl

/-- A row's sum of squares, summed from zero. -/
theorem v56_ix1 (x0 : X) (p : Fin 8192) :
    val_main_v56 (F := Ideal) x0 (ix1 p) = sqn (lower x0) p := by
  rw [val_main_v56_apply, val_main_cst_20_apply, Ideal.ofBits_def, Ideal.ofBits_zero_f32, zero_add]
  unfold sqn
  refine Finset.sum_congr rfl fun k _ => ?_
  rw [idx56, val_main_v55_apply, v1_ix2, Ideal.mulf_def]

theorem v58_ix1 (x0 : X) (p : Fin 8192) :
    val_main_v58 (F := Ideal) x0 (ix1 p) = sqn (lower x0) p := by
  rw [val_main_v58_apply, val_main_cst_21_apply, Ideal.ofBits_def, Ideal.ofBits_zero_f32, zero_add]
  unfold sqn
  refine Finset.sum_congr rfl fun k _ => ?_
  rw [idx58, val_main_v57_apply, v1_ix2, Ideal.mulf_def]

/-- The two broadcast squared norms, added. -/
theorem v63_ix2 (x0 : X) (p q : Fin 8192) :
    val_main_v63 (F := Ideal) x0 (ix2 p q) = sqn (lower x0) p + sqn (lower x0) q := by
  rw [val_main_v63_apply, val_main_v61_apply, val_main_v62_apply, idx61, idx62, val_main_v59_apply, val_main_v60_apply,
    idx59, idx60, v56_ix1, v58_ix1, Ideal.addf_def]

/-- The product with the transposed half is the matrix of inner products. -/
theorem v65_ix2 (x0 : X) (p q : Fin 8192) :
    val_main_v65 (F := Ideal) x0 (ix2 p q) = dot (lower x0) (lower x0) p q := by
  rw [val_main_v65_apply]
  unfold dot
  refine Finset.sum_congr rfl fun k _ => ?_
  rw [lidx65, ridx65, val_main_v64_apply, idx64, v1_ix2, v1_ix2]

/-- The similarity before the diagonal is masked. -/
theorem v76_ix2 (x0 : X) (p q : Fin 8192) :
    val_main_v76 (F := Ideal) x0 (ix2 p q) = simOff (lower x0) (lower x0) p q := by
  rw [val_main_v76_apply, val_main_v75_apply, val_main_cst_26_apply, val_main_v74_apply, val_main_v73_apply,
    val_main_cst_25_apply, val_main_v72_apply, val_main_v71_apply, val_main_cst_24_apply, val_main_v70_apply,
    val_main_v69_apply, val_main_cst_23_apply, val_main_v68_apply, val_main_v67_apply, val_main_v66_apply,
    val_main_cst_22_apply, v63_ix2, v65_ix2]
  rfl

/-- The masked similarity. -/
theorem v77_ix2 (x0 : X) (p q : Fin 8192) :
    val_main_v77 (F := Ideal) x0 (ix2 p q) = sim (lower x0) p q := by
  rw [val_main_v77_apply, v23_ix2, val_main_call1_v1_apply, val_main_call1_v0_apply, val_main_cst_27_apply, v76_ix2]
  unfold sim masked
  by_cases h : p = q
  · rw [if_pos h, if_pos h]; exact select_one _ _
  · rw [if_neg h, if_neg h]; exact select_zero _ _

end Cert.ReferenceIdeal.RefValue

end
-- ==== Proof.RefSums.lean ====
/-
  The two sums over all pairs of each half: the reference's row sums, their sum and mean, and the sum of the
  whole masked matrix, as the specification's S1 (divided by the number of rows) and S2.
-/
import proofs.«168013_j80238579024621_1_alg».proof.Proof.RefSim

noncomputable section

open scoped BigOperators

namespace Cert.ReferenceIdeal.RefValue

open Cert.ReferenceIdeal Cert.ReferenceIdeal.Read Cert.CauchyLoss Idealize.ShloMosaic Idealize.ShloMosaic.ValueIdx

/-! ## The upper half -/

theorem idx51 (p q : Fin 8192) : idx_main_v51 (ix1 p) q = ix2 p q := by
  funext a; match a with | ⟨0, _⟩ => rfl | ⟨1, _⟩ => rfl

/-- The summand of the first sum. -/
theorem v50_ix2 (x0 : X) (p q : Fin 8192) :
    val_main_v50 (F := Ideal) x0 (ix2 p q) = expTerm (sim (upper x0) p q) := by
  rw [val_main_v50_apply, val_main_v49_apply, val_main_v48_apply, val_main_v47_apply, val_main_cst_15_apply, v46_ix2]
  rfl

/-- Its sum along a row. -/
theorem v51_ix1 (x0 : X) (p : Fin 8192) :
    val_main_v51 (F := Ideal) x0 (ix1 p) = ∑ q : Fin 8192, expTerm (sim (upper x0) p q) := by
  rw [val_main_v51_apply, val_main_cst_16_apply, Ideal.ofBits_def, Ideal.ofBits_zero_f32, zero_add]
  refine Finset.sum_congr rfl fun q _ => ?_
  rw [idx51, v50_ix2]

/-- The sum of the row sums is the first sum over all pairs. -/
theorem v52_eq (x0 : X) (i : S_.Idx) : val_main_v52 (F := Ideal) x0 i = S1 (upper x0) := by
  rw [val_main_v52_apply, val_main_cst_17_apply, Ideal.ofBits_def, Ideal.ofBits_zero_f32, zero_add, sum_idx1]
  unfold S1
  exact Finset.sum_congr rfl fun p _ => v51_ix1 x0 p

/-- The mean of the row sums. -/
theorem v53_eq (x0 : X) (i : S_.Idx) : val_main_v53 (F := Ideal) x0 i = Ideal.div (S1 (upper x0)) nB := by
  rw [val_main_v53_apply, v52_eq, val_main_cst_18_apply]
  rfl

/-- The sum of the whole masked matrix is the second sum over all pairs. -/
theorem v54_eq (x0 : X) (i : S_.Idx) : val_main_v54 (F := Ideal) x0 i = S2 (upper x0) := by
  rw [val_main_v54_apply, val_main_cst_19_apply, Ideal.ofBits_def, Ideal.ofBits_zero_f32, zero_add, sum_idx2]
  unfold S2
  exact Finset.sum_congr rfl fun p _ => Finset.sum_congr rfl fun q _ => v46_ix2 x0 p q

/-! ## The lower half -/

theorem idx82 (p q : Fin 8192) : idx_main_v82 (ix1 p) q = ix2 p q := by
  funext a; match a with | ⟨0, _⟩ => rfl | ⟨1, _⟩ => rfl

/-- The summand of the first sum. -/
theorem v81_ix2 (x0 : X) (p q : Fin 8192) :
    val_main_v81 (F := Ideal) x0 (ix2 p q) = expTerm (sim (lower x0) p q) := by
  rw [val_main_v81_apply, val_main_v80_apply, val_main_v79_apply, val_main_v78_apply, val_main_cst_28_apply, v77_ix2]
  rfl

/-- Its sum along a row. -/
theorem v82_ix1 (x0 : X) (p : Fin 8192) :
    val_main_v82 (F := Ideal) x0 (ix1 p) = ∑ q : Fin 8192, expTerm (sim (lower x0) p q) := by
  rw [val_main_v82_apply, val_main_cst_29_apply, Ideal.ofBits_def, Ideal.ofBits_zero_f32, zero_add]
  refine Finset.sum_congr rfl fun q _ => ?_
  rw [idx82, v81_ix2]

/-- The sum of the row sums is the first sum over all pairs. -/
theorem v83_eq (x0 : X) (i : S_.Idx) : val_main_v83 (F := Ideal) x0 i = S1 (lower x0) := by
  rw [val_main_v83_apply, val_main_cst_30_apply, Ideal.ofBits_def, Ideal.ofBits_zero_f32, zero_add, sum_idx1]
  unfold S1
  exact Finset.sum_congr rfl fun p _ => v82_ix1 x0 p

/-- The mean of the row sums. -/
theorem v84_eq (x0 : X) (i : S_.Idx) : val_main_v84 (F := Ideal) x0 i = Ideal.div (S1 (lower x0)) nB := by
  rw [val_main_v84_apply, v83_eq, val_main_cst_31_apply]
  rfl

/-- The sum of the whole masked matrix is the second sum over all pairs. -/
theorem v85_eq (x0 : X) (i : S_.Idx) : val_main_v85 (F := Ideal) x0 i = S2 (lower x0) := by
  rw [val_main_v85_apply, val_main_cst_32_apply, Ideal.ofBits_def, Ideal.ofBits_zero_f32, zero_add, sum_idx2]
  unfold S2
  exact Finset.sum_congr rfl fun p _ => Finset.sum_congr rfl fun q _ => v77_ix2 x0 p q

end Cert.ReferenceIdeal.RefValue

end
-- ==== Proof.RefPos.lean ====
/-
  The positive term: the reference's row-wise squared distance between the two halves, its similarity, the
  quadratic in it, and the mean over the rows, as the specification's pos.
-/
import proofs.«168013_j80238579024621_1_alg».proof.Proof.RefBase

noncomputable section

open scoped BigOperators

namespace Cert.ReferenceIdeal.RefValue

open Cert.ReferenceIdeal Cert.ReferenceIdeal.Read Cert.CauchyLoss Idealize.ShloMosaic Idealize.ShloMosaic.ValueIdx

theorem idx4 (p : Fin 8192) (k : Fin 128) : idx_main_v4 (ix1 p) k = ix2 p k := by
  funext a; match a with | ⟨0, _⟩ => rfl | ⟨1, _⟩ => rfl

/-- The squared distance of row p of the upper half from row p of the lower half. -/
theorem v4_ix1 (x0 : X) (p : Fin 8192) :
    val_main_v4 (F := Ideal) x0 (ix1 p)
      = ∑ k : Fin 128, (upper x0 p k - lower x0 p k) * (upper x0 p k - lower x0 p k) := by
  rw [val_main_v4_apply, val_main_cst_apply, Ideal.ofBits_def, Ideal.ofBits_zero_f32, zero_add]
  refine Finset.sum_congr rfl fun k _ => ?_
  rw [idx4, val_main_v3_apply, val_main_v2_apply, v0_ix2, v1_ix2, Ideal.mulf_def, Ideal.subf_def]

/-- The similarity of the positive pair. -/
theorem v10_ix1 (x0 : X) (p : Fin 8192) :
    val_main_v10 (F := Ideal) x0 (ix1 p) = posSim (upper x0) (lower x0) p := by
  rw [val_main_v10_apply, val_main_v9_apply, val_main_cst_2_apply, val_main_v8_apply, val_main_v7_apply,
    val_main_cst_1_apply, val_main_v6_apply, val_main_v5_apply, val_main_cst_0_apply, v4_ix1]
  rfl

/-- The summand of the positive term. -/
theorem v16_ix1 (x0 : X) (p : Fin 8192) :
    val_main_v16 (F := Ideal) x0 (ix1 p)
      = (posSim (upper x0) (lower x0) p - ten) * (posSim (upper x0) (lower x0) p - ten)
        - one * posSim (upper x0) (lower x0) p := by
  rw [val_main_v16_apply, val_main_v13_apply, val_main_v12_apply, val_main_v11_apply, val_main_cst_3_apply,
    val_main_v15_apply, val_main_v14_apply, val_main_cst_4_apply, v10_ix1]
  rfl

/-- The positive term. -/
theorem v18_eq (x0 : X) (i : S_.Idx) : val_main_v18 (F := Ideal) x0 i = pos (upper x0) (lower x0) := by
  rw [val_main_v18_apply, val_main_v17_apply, val_main_cst_5_apply, val_main_cst_6_apply, Ideal.ofBits_def,
    Ideal.ofBits_zero_f32, zero_add, sum_idx1]
  unfold pos
  rw [Finset.sum_congr rfl fun p _ => v16_ix1 x0 p]
  rfl

end Cert.ReferenceIdeal.RefValue

end
-- ==== Proof.RefLoss.lean ====
/-
  The reference's result is the specification's loss of the feature matrix: the positive term, the two means
  of the first sums, and half the sum of the two second sums, added in the reference's order.
-/
import proofs.«168013_j80238579024621_1_alg».proof.Proof.RefSums
import proofs.«168013_j80238579024621_1_alg».proof.Proof.RefPos

noncomputable section

open scoped BigOperators

namespace Cert.ReferenceIdeal.RefValue

open Cert.ReferenceIdeal Cert.ReferenceIdeal.Read Cert.CauchyLoss Idealize.ShloMosaic Idealize.ShloMosaic.ValueIdx

/-- The reference computes the loss. -/
theorem val_is_loss (x0 : (⟨Cert.ReferenceIdeal.S16384x128, .f32⟩ : BufTy).Contents (Elt Ideal)) :
    Cert.ReferenceIdeal.Read.val_main_v90 (F := Ideal) x0 = fun _ => Cert.CauchyLoss.lossOf x0 := by
  funext i
  rw [val_main_v90_apply, val_main_v89_apply, val_main_v88_apply, val_main_v87_apply, val_main_v86_apply,
    val_main_cst_33_apply, v18_eq, v53_eq, v84_eq, v54_eq, v85_eq]
  rfl

end Cert.ReferenceIdeal.RefValue

end
-- ==== Proof.lean ====
/-
  The certificate of the Cauchy-similarity contrastive loss kernel against its reference.

  Both programs split the 16384 feature rows into two halves a and b.  The positive term (the mean over the row
  pairs (a_p, b_p) of (s − 10)² − s, s the Cauchy similarity 1 / (|a_p − b_p|² + 1)) is computed by the same host
  operations on both sides.  For each half the kernel program launches a 16 × 16 grid: grid point (i, j) loads row
  blocks i and j (two windows of ONE array), forms the 512 × 512 tile of similarities 1 / (max(|x|² + |y|² − 2⟨x, y⟩, 0) + 1)
  by a matrix product, zeroes the tile's diagonal entries (global row = global column), and adds the tile's sums of
  exp(½ s)·s and of s to two running sums kept in scratch from point to point — reset at the first point, copied to
  the two outputs at the last.  The reference forms the whole 8192 × 8192 matrix and sums it by rows.  Over the extended
  reals addition is commutative and associative, so the 256 tile sums regroup into the whole double sum (no finiteness
  is used), a change of float format is the identity, and the loss  pos + (S1 a / 8192 + S1 b / 8192) + ½ (S2 a + S2 b)
  is the same function of the features on both sides.

  The frames: each kernel region is run from the buffers as the item of @main before it left them, its body once per
  kind of grid point (first, middle, last), the invariant carrying the two running sums; the one input array is split
  between the two windows at a region's entry and rejoined at its exit.  The reference's frame is its generated run.
-/
import proofs.«168013_j80238579024621_1_alg».proof.Defs
import proofs.«168013_j80238579024621_1_alg».proof.Proof.Gen.Kernel
import proofs.«168013_j80238579024621_1_alg».proof.Proof.Gen.KernelIdeal
import proofs.«168013_j80238579024621_1_alg».proof.Proof.Gen.ReferenceIdeal
import proofs.«168013_j80238579024621_1_alg».proof.Proof.Gen.ReferenceIdeal.Run
import proofs.«168013_j80238579024621_1_alg».proof.Proof.Gen.ReferenceIdeal.Read
import proofs.«168013_j80238579024621_1_alg».proof.Proof.Gen.Pre_finite_inputs
import proofs.«168013_j80238579024621_1_alg».proof.Proof.KBRegions
import proofs.«168013_j80238579024621_1_alg».proof.Proof.KIValue
import proofs.«168013_j80238579024621_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel program runs to the end and leaves the features unchanged. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_value (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_value (F := Ideal) m ρ)

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals both programs end with the loss of the features in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V5 m (Cert.KernelIdeal.Hand.outs m) c Cert.KernelIdeal.main_v31,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, Cert.ReferenceIdeal.RefValue.val_is_loss, hagree c]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
